-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x512 : Shape := ⟨2, ![4096, 512]⟩
abbrev S4096x4096 : Shape := ⟨2, ![4096, 4096]⟩
abbrev S4096 : Shape := ⟨1, ![4096]⟩
abbrev S4096x8192 : Shape := ⟨2, ![4096, 8192]⟩
abbrev S8192 : Shape := ⟨1, ![8192]⟩
abbrev S8192x2048 : Shape := ⟨2, ![8192, 2048]⟩
abbrev S2048 : Shape := ⟨1, ![2048]⟩
abbrev S2048x4 : Shape := ⟨2, ![2048, 4]⟩
abbrev S4 : Shape := ⟨1, ![4]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_
  bcast_S_S2048x4 : S_.BroadcastsInDim S2048x4 (![] : Fin 0 → Fin S2048x4.rank)
  reducesTo_S2048x4_S_d0_1 : S2048x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S2048x4 .f32) (main_arg9 : FVec F S4 .f32) (main_v33 : IVec S_ 1) : IVec S_ 1 :=
  let main_v34 : FVec F S2048x4 .f32 := Host.absf main_arg8
  let main_cst_12 : FVec F S_ .f32 := constant S_ .f32 0x7F800000#32
  let main_v35 : FVec F S2048x4 .f32 := broadcastInDim S2048x4 ![] bcast_S_S2048x4 main_cst_12
  let main_v36 : IVec S2048x4 1 := cmpf .olt main_v34 main_v35
  let main_c_13 : IVec S_ 1 := constantI S_ 1 1#1
  let main_v37 : IVec S_ 1 := (fun x v => Host.reduce IntOp.andi x v reducesTo_S2048x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S8192 .f32) (main_arg6 : FVec F S8192x2048 .f32) (main_arg7 : FVec F S2048 .f32) (main_arg8 : FVec F S2048x4 .f32) (main_arg9 : FVec F S4 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg6
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_v33

def fn {F : FTy → Type} [FloatOps F] (main_arg0 : FVec F S1024x4096 .f32) (main_arg1 : IVec S4096x512 32) (main_arg2 : FVec F S4096x4096 .f32) (main_arg3 : FVec F S4096 .f32) (main_arg4 : FVec F S4096x8192 .f32) (main_arg5 : FVec F S8192 .f32) (main_arg6 : FVec F S8192x2048 .f32) (main_arg7 : FVec F S2048 .f32) (main_arg8 : FVec F S2048x4 .f32) (main_arg9 : FVec F S4 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8192 .f32 := Host.absf main_arg4
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg5 main_arg6 main_arg7 main_arg8 main_arg9 main_v13 main_v16
-- ==== Kernel.lean ====
abbrev S1024x4096 : Shape := ⟨2, ![1024, 4096]⟩
abbrev S4096x512 : Shape := ⟨2, ![4096, 512]⟩
abbrev S4096x4096 : Shape := ⟨2, ![4096, 4096]⟩
abbrev S4096 : Shape := ⟨1, ![4096]⟩
abbrev S4096x8192 : Shape := ⟨2, ![4096, 8192]⟩
abbrev S8192 : Shape := ⟨1, ![8192]⟩
abbrev S8192x2048 : Shape := ⟨2, ![8192, 2048]⟩
abbrev S2048 : Shape := ⟨1, ![2048]⟩
abbrev S2048x4 : Shape := ⟨2, ![2048, 4]⟩
abbrev S4 : Shape := ⟨1, ![4]⟩
abbrev S4096x512x8 : Shape := ⟨3, ![4096, 512, 8]⟩
abbrev S4096x512x1 : Shape := ⟨3, ![4096, 512, 1]⟩
abbrev S1x4096 : Shape := ⟨2, ![1, 4096]⟩
abbrev S1024x1024 : Shape := ⟨2, ![1024, 1024]⟩
abbrev S1x1024 : Shape := ⟨2, ![1, 1024]⟩
abbrev S1x8192 : Shape := ⟨2, ![1, 8192]⟩
abbrev S1024x8192 : Shape := ⟨2, ![1024, 8192]⟩
abbrev S1024x1 : Shape := ⟨2, ![1024, 1]⟩
abbrev S1x2048 : Shape := ⟨2, ![1, 2048]⟩
abbrev S1024x2048 : Shape := ⟨2, ![1024, 2048]⟩
abbrev S1024x4 : Shape := ⟨2, ![1024, 4]⟩
abbrev S1x4 : Shape := ⟨2, ![1, 4]⟩

abbrev nBuf : Space → Nat
  | .hbm => 31
  | .vmem => 27
  | .smem => 0
  | _ => 0

abbrev bufTy : (tb : Table) → Fin (tcTables nBuf tb) → BufTy
  | .hbm, ⟨0, _⟩ => ⟨S1024x4096, .f32⟩
  | .hbm, ⟨1, _⟩ => ⟨S4096x512, .i32⟩
  | .hbm, ⟨2, _⟩ => ⟨S4096x4096, .f32⟩
  | .hbm, ⟨3, _⟩ => ⟨S4096, .f32⟩
  | .hbm, ⟨4, _⟩ => ⟨S4096x8192, .f32⟩
  | .hbm, ⟨5, _⟩ => ⟨S8192, .f32⟩
  | .hbm, ⟨6, _⟩ => ⟨S8192x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S4096x512, .f32⟩
  | .hbm, ⟨11, _⟩ => ⟨S4096x512x8, .f32⟩
  | .hbm, ⟨12, _⟩ => ⟨S4096x512x1, .f32⟩
  | .hbm, ⟨13, _⟩ => ⟨S4096x512x8, .f32⟩
  | .hbm, ⟨14, _⟩ => ⟨S4096x512x8, .f32⟩
  | .hbm, ⟨15, _⟩ => ⟨S4096x4096, .f32⟩
  | .hbm, ⟨16, _⟩ => ⟨S4096x4096, .bf16⟩
  | .hbm, ⟨17, _⟩ => ⟨S4096x8192, .bf16⟩
  | .hbm, ⟨18, _⟩ => ⟨S8192x2048, .bf16⟩
  | .hbm, ⟨19, _⟩ => ⟨S1024x4096, .bf16⟩
  | .hbm, ⟨20, _⟩ => ⟨S1x4096, .f32⟩
  | .hbm, ⟨21, _⟩ => ⟨S1024x4096, .bf16⟩
  | .hbm, ⟨22, _⟩ => ⟨S1x8192, .f32⟩
  | .hbm, ⟨23, _⟩ => ⟨S1024x8192, .bf16⟩
  | .hbm, ⟨24, _⟩ => ⟨S1x2048, .f32⟩
  | .hbm, ⟨25, _⟩ => ⟨S1024x2048, .bf16⟩
  | .hbm, ⟨26, _⟩ => ⟨S1024x2048, .f32⟩
  | .hbm, ⟨27, _⟩ => ⟨S1024x4, .f32⟩
  | .hbm, ⟨28, _⟩ => ⟨S1x4, .f32⟩
  | .hbm, ⟨29, _⟩ => ⟨S1024x4, .f32⟩
  | .hbm, ⟨30, _⟩ => ⟨S1024x4, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 8, 4], ![false, false, false]⟩

def k1_cond2 (i : grid1.Coords) : BitVec 1 :=
  let arg2 : BitVec 32 := BitVec.ofNat 32 (i 2).val
  let c3_i32 : BitVec 32 := 3#32
  let v76 : BitVec 1 := Scalar.cmpi .eq arg2 c3_i32
  let v77 : BitVec 32 := Scalar.extui v76
  let c0_i32_20 : BitVec 32 := 0#32
  let v78 : BitVec 1 := Scalar.cmpi .ne v77 c0_i32_20
  v78

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![1, 2, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S4096x4096_S4096x512x8 : S4096x4096.ShapeCasts S4096x512x8
  bcast_S4096x512_S4096x512x1_0_1 : S4096x512.BroadcastsInDim S4096x512x1 (![0, 1] : Fin 2 → Fin S4096x512x1.rank)
  bcast_S4096x512x1_S4096x512x8_0_1_2 : S4096x512x1.BroadcastsInDim S4096x512x8 (![0, 1, 2] : Fin 3 → Fin S4096x512x8.rank)
  shapeCasts_S4096x512x8_S4096x4096 : S4096x512x8.ShapeCasts S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192_S1x8192 : S8192.ShapeCasts S1x8192
  iota_S1024x1_d0_w32 : S1024x1.Iotas .tc 32 [0]
  iota_S1x1024_d1_w32 : S1x1024.Iotas .tc 32 [1]
  natLt_1_32 : 1 < 32
  broadcasts_S1024x1_S1024x1024 : S1024x1.Broadcasts S1024x1024
  shapeCasts_S2048_S1x2048 : S2048.ShapeCasts S1x2048
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  dot_S1024x1024_S1024x1024_S1024x1024_1_0_0_1_n_n_wf : DotDims.WF S1024x1024 S1024x1024 S1024x1024 [1] [0] [0] [1] [] []
  dot_S1024x2048_S2048x4_S1024x4_1_0_0_1_n_n_wf : DotDims.WF S1024x2048 S2048x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x4096.size a
  hwx0_0 : ∀ i : grid0.Coords, EltTy.bits .bf16 = 32 ∨ (Rect.block (s := S1024x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .bf16 = 32 ∨ (Rect.block (s := S1024x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x4096.size a
  hwx1_0 : ∀ i : grid1.Coords, EltTy.bits .bf16 = 32 ∨ (Rect.block (s := S1024x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x8192.size a
  hwx1_1 : ∀ i : grid1.Coords, EltTy.bits .bf16 = 32 ∨ (Rect.block (s := S4096x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x8192.size a
  hwx1_3 : ∀ i : grid1.Coords, EltTy.bits .bf16 = 32 ∨ (Rect.block (s := S1024x8192) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S1024x8192.size a
  hwx2_0 : ∀ i : grid2.Coords, EltTy.bits .bf16 = 32 ∨ (Rect.block (s := S1024x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x2048.size a
  hwx2_1 : ∀ i : grid2.Coords, EltTy.bits .bf16 = 32 ∨ (Rect.block (s := S8192x2048) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x2048.size a
  hwx2_2 : ∀ i : grid2.Coords, EltTy.bits .f32 = 32 ∨ (Rect.block (s := S1x2048) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x2048.size a
  hwx2_3 : ∀ i : grid2.Coords, EltTy.bits .bf16 = 32 ∨ (Rect.block (s := S1024x2048) S1024x1024.size (cc2_transform_3 i) (hinb2_3 i)).WholeWords (EltTy.packing .bf16)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x2048_S2048x4_S1024x4_1_0_0_1_n_n : DotDims S1024x2048 S2048x4 S1024x4 where
  lhsContracting := [1]
  rhsContracting := [0]
  lhsNonContracting := [0]
  rhsNonContracting := [1]
  lhsBatch := []
  rhsBatch := []
  wf := dot_S1024x2048_S2048x4_S1024x4_1_0_0_1_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v11) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v13) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x512 : Shape := ⟨2, ![4096, 512]⟩
abbrev S4096x4096 : Shape := ⟨2, ![4096, 4096]⟩
abbrev S4096 : Shape := ⟨1, ![4096]⟩
abbrev S4096x8192 : Shape := ⟨2, ![4096, 8192]⟩
abbrev S8192 : Shape := ⟨1, ![8192]⟩
abbrev S8192x2048 : Shape := ⟨2, ![8192, 2048]⟩
abbrev S2048 : Shape := ⟨1, ![2048]⟩
abbrev S2048x4 : Shape := ⟨2, ![2048, 4]⟩
abbrev S4 : Shape := ⟨1, ![4]⟩
abbrev S4096x512x8 : Shape := ⟨3, ![4096, 512, 8]⟩
abbrev S512x512 : Shape := ⟨2, ![512, 512]⟩
abbrev S_ : Shape := ⟨0, ![]⟩
abbrev S8x16 : Shape := ⟨2, ![8, 16]⟩
abbrev S512x1x512x1 : Shape := ⟨4, ![512, 1, 512, 1]⟩
abbrev S1x8x1x16 : Shape := ⟨4, ![1, 8, 1, 16]⟩
abbrev S512x8x512x16 : Shape := ⟨4, ![512, 8, 512, 16]⟩
abbrev S1x4096 : Shape := ⟨2, ![1, 4096]⟩
abbrev S1024x8192 : Shape := ⟨2, ![1024, 8192]⟩
abbrev S1x8192 : Shape := ⟨2, ![1, 8192]⟩
abbrev S1024x2048 : Shape := ⟨2, ![1024, 2048]⟩
abbrev S1x2048 : Shape := ⟨2, ![1, 2048]⟩
abbrev S1024x4 : Shape := ⟨2, ![1024, 4]⟩
abbrev S1x4 : Shape := ⟨2, ![1, 4]⟩

abbrev nBuf : Space → Nat
  | .hbm => 49
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x512, .i32⟩
  | .hbm, ⟨2, _⟩ => ⟨S4096x4096, .f32⟩
  | .hbm, ⟨3, _⟩ => ⟨S4096, .f32⟩
  | .hbm, ⟨4, _⟩ => ⟨S4096x8192, .f32⟩
  | .hbm, ⟨5, _⟩ => ⟨S8192, .f32⟩
  | .hbm, ⟨6, _⟩ => ⟨S8192x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S4096x512, .f32⟩
  | .hbm, ⟨11, _⟩ => ⟨S4096x512x8, .f32⟩
  | .hbm, ⟨12, _⟩ => ⟨S4096x4096, .f32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .f32⟩
  | .hbm, ⟨20, _⟩ => ⟨S_, .f32⟩
  | .hbm, ⟨21, _⟩ => ⟨S8x16, .f32⟩
  | .hbm, ⟨22, _⟩ => ⟨S512x1x512x1, .f32⟩
  | .hbm, ⟨23, _⟩ => ⟨S1x8x1x16, .f32⟩
  | .hbm, ⟨24, _⟩ => ⟨S512x8x512x16, .f32⟩
  | .hbm, ⟨25, _⟩ => ⟨S512x8x512x16, .f32⟩
  | .hbm, ⟨26, _⟩ => ⟨S512x8x512x16, .f32⟩
  | .hbm, ⟨27, _⟩ => ⟨S4096x8192, .f32⟩
  | .hbm, ⟨28, _⟩ => ⟨S4096x4096, .f32⟩
  | .hbm, ⟨29, _⟩ => ⟨S1024x4096, .f32⟩
  | .hbm, ⟨30, _⟩ => ⟨S1x4096, .f32⟩
  | .hbm, ⟨31, _⟩ => ⟨S1024x4096, .f32⟩
  | .hbm, ⟨32, _⟩ => ⟨S1024x4096, .f32⟩
  | .hbm, ⟨33, _⟩ => ⟨S4096x8192, .f32⟩
  | .hbm, ⟨34, _⟩ => ⟨S1024x8192, .f32⟩
  | .hbm, ⟨35, _⟩ => ⟨S1x8192, .f32⟩
  | .hbm, ⟨36, _⟩ => ⟨S1024x8192, .f32⟩
  | .hbm, ⟨37, _⟩ => ⟨S1024x8192, .f32⟩
  | .hbm, ⟨38, _⟩ => ⟨S1024x2048, .f32⟩
  | .hbm, ⟨39, _⟩ => ⟨S1x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x4, .f32⟩
  | .hbm, ⟨46, _⟩ => ⟨S1x4, .f32⟩
  | .hbm, ⟨47, _⟩ => ⟨S1024x4, .f32⟩
  | .hbm, ⟨48, _⟩ => ⟨S1024x4, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  bcast_S4096x512_S4096x512x8_0_1 : S4096x512.BroadcastsInDim S4096x512x8 (![0, 1] : Fin 2 → Fin S4096x512x8.rank)
  shapeCasts_S4096x512x8_S4096x4096 : S4096x512x8.ShapeCasts S4096x4096
  bcast_S_S512x512 : S_.BroadcastsInDim S512x512 (![] : Fin 0 → Fin S512x512.rank)
  bcast_S_S8x16 : S_.BroadcastsInDim S8x16 (![] : Fin 0 → Fin S8x16.rank)
  bcast_S512x512_S512x1x512x1_0_2 : S512x512.BroadcastsInDim S512x1x512x1 (![0, 2] : Fin 2 → Fin S512x1x512x1.rank)
  bcast_S8x16_S1x8x1x16_1_3 : S8x16.BroadcastsInDim S1x8x1x16 (![1, 3] : Fin 2 → Fin S1x8x1x16.rank)
  bcast_S512x1x512x1_S512x8x512x16_0_1_2_3 : S512x1x512x1.BroadcastsInDim S512x8x512x16 (![0, 1, 2, 3] : Fin 4 → Fin S512x8x512x16.rank)
  bcast_S1x8x1x16_S512x8x512x16_0_1_2_3 : S1x8x1x16.BroadcastsInDim S512x8x512x16 (![0, 1, 2, 3] : Fin 4 → Fin S512x8x512x16.rank)
  shapeCasts_S512x8x512x16_S4096x8192 : S512x8x512x16.ShapeCasts S4096x8192
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  dot_S1024x4096_S4096x4096_S1024x4096_1_0_0_1_n_n_wf : DotDims.WF S1024x4096 S4096x4096 S1024x4096 [1] [0] [0] [1] [] []
  dot_S1024x4096_S4096x8192_S1024x8192_1_0_0_1_n_n_wf : DotDims.WF S1024x4096 S4096x8192 S1024x8192 [1] [0] [0] [1] [] []
  dot_S1024x8192_S8192x2048_S1024x2048_1_0_0_1_n_n_wf : DotDims.WF S1024x8192 S8192x2048 S1024x2048 [1] [0] [0] [1] [] []
  dot_S1024x2048_S2048x4_S1024x4_1_0_0_1_n_n_wf : DotDims.WF S1024x2048 S2048x4 S1024x4 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf
def dot_S1024x4096_S4096x8192_S1024x8192_1_0_0_1_n_n : DotDims S1024x4096 S4096x8192 S1024x8192 where
  lhsContracting := [1]
  rhsContracting := [0]
  lhsNonContracting := [0]
  rhsNonContracting := [1]
  lhsBatch := []
  rhsBatch := []
  wf := dot_S1024x4096_S4096x8192_S1024x8192_1_0_0_1_n_n_wf
def dot_S1024x8192_S8192x2048_S1024x2048_1_0_0_1_n_n : DotDims S1024x8192 S8192x2048 S1024x2048 where
  lhsContracting := [1]
  rhsContracting := [0]
  lhsNonContracting := [0]
  rhsNonContracting := [1]
  lhsBatch := []
  rhsBatch := []
  wf := dot_S1024x8192_S8192x2048_S1024x2048_1_0_0_1_n_n_wf
def dot_S1024x2048_S2048x4_S1024x4_1_0_0_1_n_n : DotDims S1024x2048 S2048x4 S1024x4 where
  lhsContracting := [1]
  rhsContracting := [0]
  lhsNonContracting := [0]
  rhsNonContracting := [1]
  lhsBatch := []
  rhsBatch := []
  wf := dot_S1024x2048_S2048x4_S1024x4_1_0_0_1_n_n_wf

class Facts : Prop extends Facts₀ where

variable [Facts]
-- ==== Proof.R0KitK.lean ====
import proofs.«125502_j49297634623952_2_alg».proof.Proof.Gen.Kernel.Launch
import proofs.«125502_j49297634623952_2_alg».proof.Proof.Gen.Kernel.Skeleton
import proofs.«125502_j49297634623952_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the body's runs and the proof data share

The kernel of custom_call 0 is a matrix product blocked along the contraction axis: the grid is
(i, j, k) with k innermost, the accumulator lives in a scratch buffer that is zeroed at k = 0,
receives one partial product per point, and is written out with the bias added at the last k. -/

/-! ## The two branch conditions, in closed form over the grid -/

/-- The first conditional (zero the accumulator): the contraction coordinate is 0. -/
abbrev cond0_0 (i : grid0.Coords) : Prop :=
  (Scalar.cmpi .ne (Scalar.extui (Scalar.cmpi .eq (BitVec.ofNat 32 (i 2).val) 0#32)) 0#32) = 1#1
/-- It holds exactly at the linear positions ≡ 0 (mod 4): the contraction axis is innermost, of extent 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (write the output block): the contraction coordinate is the last one. -/
abbrev cond0_1 (i : grid0.Coords) : Prop := k0_cond2 i = 1#1
/-- It holds exactly at the positions ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are live -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output is idle away from the last contraction step: nothing is stored into it there, -/
theorem idleAt0_3 : ∀ t : Fin cfg0.N, ¬cond0_1 (grid0.coords t) → cfg0.idle 3 (grid0.coords t) = true := by decide +kernel
/-- and its block is not written back there; -/
theorem noFlush0_3 : ∀ t : Fin cfg0.N, ¬cond0_1 (grid0.coords t) → (cfg0.win 3).flush t = false := by decide +kernel
/-- at the last contraction step it is live. -/
theorem liveAt0_3 : ∀ t : Fin cfg0.N, cond0_1 (grid0.coords t) → cfg0.idle 3 (grid0.coords t) = false := by decide +kernel

/-! ## The memrefs the body is called with -/

/-- Each window's current staging memref at point t, spelled as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the call's own, passed beside the windows. -/
abbrev scM0 : Memref sig .tc .vmem S1024x1024 .f32 := Memref.whole cc0_scratch0

/-! ## The class invariant, split at the accumulator -/

/-- Everything the class invariant holds besides the accumulator: the core's other scoped buffers that are no
    staging buffer of this call (the other calls' staging buffers and accumulators), each at some contents, and the
    generator register at some state. The body touches none of it. -/
def rest0 (c : Dev nD) : sProp 𝕄 :=
  iprop(Pipeline.scopedRestBut (Ix := Unit) (Name := ℕ) (U := UR sig nD τ) (Lvl := ℕ) (Val := Elt F) spec0 c [cc0_scratch0]
    ∗ ∃ r, prngReg c r)

/-- The class invariant is the accumulator at some contents beside the rest. -/
theorem PhiA0_eq (c : Dev nD) :
    (Pipeline.ΦA spec0 c : sProp 𝕄) = iprop((∃ d, owns (c : Thread nD τ) scM0 fullShare d) ∗ rest0 c) := by
  unfold Pipeline.ΦA rest0
  rw [Pipeline.scopedRest_split_of_list spec0 c [cc0_scratch0] (by decide) (by decide)]
  simp only [scM0, owns_whole, bigSepL_singleton]
  exact Entails.antisymm Idealize.SL.BI.sep_assoc Idealize.SL.BI.sep_assoc'

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds the window's block at every point, whether the pipeline fetched it at this
    point or kept it from the one before (then the block index has not moved): for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias block is fetched only when the contraction restarts; between restarts its index stands still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Hand

end
-- ==== Proof.R0BodyK.lean ====
import proofs.«125502_j49297634623952_2_alg».proof.Proof.R0KitK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the kernel body, run once per control case

On whole staging memrefs the body is run symbolically; what its stores leave in the accumulator and in the
output buffer comes out as a list of written pieces, and a covering list of pieces reads back as one function. -/

set_option maxHeartbeats 1000000 in
/-- A MIDDLE contraction step (neither conditional taken): the body loads the accumulator and the two operand
    blocks and stores the accumulator plus their product; the bias block and the output buffer are handed back as
    found. The accumulator's written pieces are the witness the run finds. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, fun xi3 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The FIRST contraction step (first conditional taken, second not): the body zeroes the accumulator, reads the
    zeros back, and stores zero plus the product of the two operand blocks; bias block and output buffer are handed
    back as found; the accumulator may start at anything. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, fun xi3 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The LAST contraction step (second conditional taken, first not): the body accumulates as in a middle step, then
    loads the accumulator and the bias block and stores their sum, rounded to the output format, over the whole
    output buffer, which may start at anything. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What the pieces read back as -/

/-- The stores of this kernel go through the whole-buffer rectangle at offset zero. -/
theorem hz0 : (![0, 0] : Fin 2 → ℕ) = fun _ => 0 := by
  funext a; fin_cases a <;> rfl

set_option maxHeartbeats 1000000 in
/-- After a middle step the accumulator reads as the step's payload at what it held and the two operand blocks. -/
theorem scr0_B_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32)
    (f : arg7.view.ty.Contents (Elt F)) :
    arg7.view.read (Elt F) (arg7.view.writes (Elt F) f (kernelRun0_B c i arg3 harg3 arg4 harg4 arg5 harg5 arg6 harg6 arg7 harg7 hc0 hc1 x0 x1 x2 xs0).1) = k0_pay2 xs0 x0 x1 := by
  rw [View.read_writes_eq_canon _ _ _ (View.cover_of_tiledL _ S1024x1024.size (by sl_kernel_rfl))]
  unfold kernelRun0_B; dsimp only
  rw [View.canon_unit_zero hz0]
  simp only [View.readAt_eq_ld, Memref.IsWhole.read_unread, View.ld_unit_zero (S := S1024x1024) hz0]

set_option maxHeartbeats 1000000 in
/-- After the first step the accumulator reads as the step's payload at zero and the two operand blocks: the load
    that follows the zeroing store reads the zeros back. -/
theorem scr0_A_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32)
    (f : arg7.view.ty.Contents (Elt F)) :
    arg7.view.read (Elt F) (arg7.view.writes (Elt F) f (kernelRun0_A c i arg3 harg3 arg4 harg4 arg5 harg5 arg6 harg6 arg7 harg7 hc0 hc1 x0 x1 x2).1) = k0_pay2 (k0_pay1 (F := F)) x0 x1 := by
  rw [View.read_writes_eq_canon _ _ _ (View.cover_of_tiledL _ S1024x1024.size (by sl_kernel_rfl))]
  unfold kernelRun0_A; dsimp only
  sl_unfold_run_names
  rw [View.canon_cons_unit_zero hz0]
  simp only [View.readAt_eq_ld, Memref.IsWhole.read_unread, View.ld_unit_zero (S := S1024x1024) hz0]
  exact congrArg (fun a => k0_pay2 a x0 x1) (View.readCov_unit_zero (S := S1024x1024) arg7.view hz0 _ _)

set_option maxHeartbeats 1000000 in
/-- After the last step the accumulator reads as after a middle step, -/
theorem scr0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32)
    (f : arg7.view.ty.Contents (Elt F)) :
    arg7.view.read (Elt F) (arg7.view.writes (Elt F) f (kernelRun0_C c i arg3 harg3 arg4 harg4 arg5 harg5 arg6 harg6 arg7 harg7 hc0 hc1 x0 x1 x2 xs0).2.1) = k0_pay2 xs0 x0 x1 := by
  rw [View.read_writes_eq_canon _ _ _ (View.cover_of_tiledL _ S1024x1024.size (by sl_kernel_rfl))]
  unfold kernelRun0_C; dsimp only
  sl_unfold_run_names
  rw [View.canon_unit_zero hz0]
  simp only [View.readAt_eq_ld, Memref.IsWhole.read_unread, View.ld_unit_zero (S := S1024x1024) hz0]

set_option maxHeartbeats 1000000 in
/-- and the output buffer as the output payload at the new accumulator and the bias block. -/
theorem out0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32)
    (f : arg6.view.ty.Contents (Elt F)) :
    arg6.view.read (Elt F) (arg6.view.writes (Elt F) f (kernelRun0_C c i arg3 harg3 arg4 harg4 arg5 harg5 arg6 harg6 arg7 harg7 hc0 hc1 x0 x1 x2 xs0).1) = k0_pay3 (k0_pay2 xs0 x0 x1) x2 := by
  rw [View.read_writes_eq_canon _ _ _ (View.cover_of_tiledL _ S1024x1024.size (by sl_kernel_rfl))]
  unfold kernelRun0_C; dsimp only
  sl_unfold_run_names
  rw [View.canon_unit_zero hz0]
  simp only [View.readAt_eq_ld, Memref.IsWhole.read_unread, View.ld_unit_zero (S := S1024x1024) hz0, View.ld_unit_zero (S := S1x1024) hz0]
  exact congrArg (fun a => k0_pay3 a x2) (View.readCov_unit_zero (S := S1024x1024) arg7.view hz0 _ _)

end Cert.Kernel.Hand

end
-- ==== Proof.R0DatK.lean ====
import proofs.«125502_j49297634623952_2_alg».proof.Proof.R0BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the proof data and the body obligation

The accumulator is carried from one grid point to the next, so the region's invariant names what it holds:
after position n, the partial sum of the products of the operand blocks since the last restart of the contraction. -/

/-- The accumulator after the body at position n: restarted from zero at a first contraction step, else one more
    step on what the point before left. -/
def acc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn => if (n + 1) % 4 = 0 then k0_pay2 (k0_pay1 (F := F)) (iblk0 V c 0 ⟨n + 1, hn⟩) (iblk0 V c 1 ⟨n + 1, hn⟩)
                 else k0_pay2 (acc0 c n (Nat.lt_of_succ_lt hn)) (iblk0 V c 0 ⟨n + 1, hn⟩) (iblk0 V c 1 ⟨n + 1, hn⟩)

/-- At a first contraction step the accumulator restarts. -/
theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rfl
  | succ n => exact if_pos h0

/-- At any other step it takes one more product onto what the point before left. -/
theorem acc0_next (c : Dev nD) (t : Fin cfg0.N) (h0 : ¬t.val % 4 = 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-- The invariant before position n: the class's before the first point; afterwards the accumulator at what the
    point before left, beside everything else the class's invariant holds. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 c) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 c) := by
  cases n with
  | zero => exact absurd rfl hz
  | succ n => rfl

/-! ## The proof data -/

/-- The region's proof data on core c: the arrays as the region finds them; after the body each input's buffer at
    its block, the output's at the output payload of the accumulator and the bias block (consulted only where the
    output is live: at the last contraction step); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position modulo 4 says which control
    case it is in; the invariant hands the body the accumulator (at anything before the first point, else at what the
    point before left) and takes it back at this point's value; away from the last contraction step the output
    buffer is handed back untouched, at the last step it holds the output payload. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 16 := lt_of_lt_of_eq t.isLt (show cfg0.N = 16 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [acc0_first V c t h0]
    by_cases hz : t.val = 0
    · rw [PhiS0_castSucc V c t, PhiS0_zero V c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact scr0_A_eq c _ _ _ _ _ _ _ _ _ _ _ _ _ _ _ _ _
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact scr0_A_eq c _ _ _ _ _ _ _ _ _ _ _ _ _ _ _ _ _
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    rw [acc0_next V c t h0]
    rw [PhiS0_castSucc V c t, PhiS0_pos V c _ _ hz]
    by_cases h1 : t.val % 4 = 3
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, acc0_next V c t h0]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact scr0_C_eq c _ _ _ _ _ _ _ _ _ _ _ _ _ _ _ _ _ _
        iexact Hg
      isplitl [Ho]; · iexact Ho
      isplitl [H0]; · iexact H0
      isplitl [H1]; · iexact H1
      isplitl [H2]; · iexact H2
      unfold owns; iexists _; isplitr
      swap; · iexact H3
      ipureintro; exact out0_C_eq c _ _ _ _ _ _ _ _ _ _ _ _ _ _ _ _ _ _
    · have hc1 : ¬cond0_1 (grid0.coords t) := fun h => h1 ((hcond0_1 t).mp h)
      rw [Dat.leavesExact_idle (dat0 V c) 3 t (idleAt0_3 t hc1) (noFlush0_3 t hc1)]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact scr0_B_eq c _ _ _ _ _ _ _ _ _ _ _ _ _ _ _ _ _ _
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point but the first the invariant gives the class's back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.R1KitK.lean ====
/- Region 1 (the masked matmul call, grid 1 × 8 × 4): what the three control cases of its body
   share. The body zeroes its f32 accumulator at the first step of a reduction (k = 0), adds one
   product x·(w ∘ mask) at every step, and at the last step (k = 3) writes accumulator + bias,
   rounded to bf16, to the output block. Here: the two branch conditions in closed form over the
   32 grid points, where the output window is idle, the staging memrefs a point runs on, the
   blocks the input windows hold, and the region invariant with the accumulator split off. -/
import proofs.«125502_j49297634623952_2_alg».proof.Proof.Gen.Kernel.Launch
import proofs.«125502_j49297634623952_2_alg».proof.Proof.Gen.Kernel.Skeleton
import proofs.«125502_j49297634623952_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- window w's block at point t, read off its array as the region finds it -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's buffer holds its block at every point: it is an input no point leaves idle, its
    body leaves the block in place, and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the w window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias window, which is fetched only at the first step of each reduction: at the
    other steps its block index (the output column block) is the one of the step before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "This is the first step of a reduction": the body's test k = 0 on the third grid coordinate, as
    the body computes it. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last step of a reduction": the body's test k = 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first step that is not a last one the body stores nothing into the output block, -/
theorem idleAt1_3_A : ∀ t : Fin cfg1.N, cond1_0 (grid1.coords t) → ¬cond1_1 (grid1.coords t) → cfg1.idle 3 (grid1.coords t) = true := by decide +kernel
/-- and the pipeline does not write the block back there. -/
theorem noFlush1_3_A : ∀ t : Fin cfg1.N, cond1_0 (grid1.coords t) → ¬cond1_1 (grid1.coords t) → (cfg1.win 3).flush t = false := by decide +kernel
/-- Likewise at a step that is neither first nor last. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last step the output block is stored: the window is live. -/
theorem liveAt1_3_C : ∀ t : Fin cfg1.N, ¬cond1_0 (grid1.coords t) → cond1_1 (grid1.coords t) → cfg1.idle 3 (grid1.coords t) = false := by decide +kernel

/-! ## The memrefs a point runs on -/

/-- Each window's current staging memref at point t, spelled as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the call's own, passed beside the windows. -/
abbrev scM1 : Memref sig .tc .vmem S1024x1024 .f32 := Memref.whole cc1_scratch0

/-! ## The region invariant with the accumulator split off -/

/-- the core's scoped buffers that are neither a staging buffer of this call nor its accumulator
    (the other two calls' staging buffers and accumulators), at some contents each -/
abbrev rest1 (c : Dev nD) : sProp 𝕄 :=
  Pipeline.scopedRestBut (Ix := Unit) (Name := ℕ) (U := UR sig nD τ) (Lvl := ℕ) (Val := Elt F) spec1 c [cc1_scratch0]

/-- What the launch hands the region: the accumulator at some contents, the other scoped buffers,
    and the generator register at some state. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole, bigSepL]; try rfl

end Cert.Kernel.Hand

end
-- ==== Proof.R1BodyK.lean ====
/- Region 1: the body's triple in each of its three control cases, with what it leaves named.
   On whole staging memrefs holding the x block, the w block and the bias block, and the
   accumulator at a, one call of the body leaves the inputs as they were and the accumulator at
   a' = step a, where step a is the accumulation payload of (w block, a, x block); at a first step
   the accumulator is zeroed before it is read, so a is the zero payload whatever it held; at a
   last step the output block is left at the output payload of (a', bias block); elsewhere the
   output's buffer is handed back untouched. Every load and store of the body is through the
   whole rectangle of its buffer, so a load reads the contents and a store leaves its payload. -/
import proofs.«125502_j49297634623952_2_alg».proof.Proof.R1KitK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-rectangle loads and stores -/

/-- The zero offsets of a rank-2 rectangle, as the function the library's lemmas ask for. -/
theorem off2_zero : (![0, 0] : Fin 2 → Nat) = fun _ => 0 := by
  funext a; fin_cases a <;> rfl

section Whole

variable {κ : Kind} {sp : Space} {S : Shape} {e : EltTy}

/-- A load through the whole rectangle reads the buffer's contents. -/
theorem readAt_whole (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f := by
  rw [View.readAt_eq_ld, View.ld_unit_zero h]

/-- A store through the whole rectangle, made last, leaves its payload. -/
theorem read_store_whole (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-- A load through the whole rectangle after such a store reads the payload. -/
theorem readCov_store_whole (v : View sig κ sp S e) {off : Fin S.rank → Nat} (h : off = fun _ => 0)
    (inb : ∀ a, off a + S.size a ≤ S.size a) (w : S.Idx → Elt F e) (L : List (View.Piece (Elt F) S e)) :
    v.readCov (⟨Rect.unit off S.size inb, w⟩ :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-! ## The three cases -/

set_option maxHeartbeats 1000000 in
/-- A first step (not a last one): the accumulator, whatever it held, ends at one step from zero;
    the output's buffer is handed back as found. -/
theorem run1_A (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (xi3 : Vec F S1024x1024 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (k1_pay1 (k1_pay4 i) (k1_pay5 i) 16#32 (k1_pay6 i) (k1_pay7 i) (k1_pay8 i) x1 (k1_pay3 (F := F)) x0)) -∗ K ⟨⟩))
      ⊢ wp frame (wpE (defs₀ (F := F)) Variants.none c none) E (cc1__mm_mask2_kernel i arg3 harg3 arg4 harg4 arg5 harg5 arg6 harg6 arg7 harg7) K := by
  simp only [cc1__mm_mask2_kernel_eq_skeleton]; unfold cc1__mm_mask2_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [read_store_whole arg7.view fs off2_zero, readCov_store_whole arg7.view off2_zero,
    readAt_whole arg4.view f1 off2_zero, readAt_whole arg3.view f0 off2_zero]

set_option maxHeartbeats 1000000 in
/-- A step that is neither first nor last: the accumulator moves one step; the output's buffer is
    handed back as found. -/
theorem run1_B (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xi3 : Vec F S1024x1024 .bf16) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (k1_pay1 (k1_pay4 i) (k1_pay5 i) 16#32 (k1_pay6 i) (k1_pay7 i) (k1_pay8 i) x1 xs x0)) -∗ K ⟨⟩))
      ⊢ wp frame (wpE (defs₀ (F := F)) Variants.none c none) E (cc1__mm_mask2_kernel i arg3 harg3 arg4 harg4 arg5 harg5 arg6 harg6 arg7 harg7) K := by
  simp only [cc1__mm_mask2_kernel_eq_skeleton]; unfold cc1__mm_mask2_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_store_whole arg7.view fs off2_zero, readAt_whole arg4.view f1 off2_zero,
    readAt_whole arg7.view fs off2_zero, readAt_whole arg3.view f0 off2_zero]

set_option maxHeartbeats 1000000 in
/-- A last step (not a first one): the accumulator moves one step, and the output block is left
    at the output payload of the new accumulator and the bias block. -/
theorem run1_C (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay2 (k1_pay1 (k1_pay4 i) (k1_pay5 i) 16#32 (k1_pay6 i) (k1_pay7 i) (k1_pay8 i) x1 xs x0) x2)
            ∗ owns (c : Thread nD τ) arg7 fullShare (k1_pay1 (k1_pay4 i) (k1_pay5 i) 16#32 (k1_pay6 i) (k1_pay7 i) (k1_pay8 i) x1 xs x0)) -∗ K ⟨⟩))
      ⊢ wp frame (wpE (defs₀ (F := F)) Variants.none c none) E (cc1__mm_mask2_kernel i arg3 harg3 arg4 harg4 arg5 harg5 arg6 harg6 arg7 harg7) K := by
  simp only [cc1__mm_mask2_kernel_eq_skeleton]; unfold cc1__mm_mask2_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  subst hf0 hf1 hf2 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_store_whole arg6.view f3 off2_zero, readCov_store_whole arg7.view off2_zero,
      readAt_whole arg4.view f1 off2_zero, readAt_whole arg7.view fs off2_zero,
      readAt_whole arg3.view f0 off2_zero, readAt_whole arg5.view f2 off2_zero]
  iexists _; isplitr
  swap; · iexact HS
  ipureintro
  sl_unfold_run_names
  rw [read_store_whole arg7.view fs off2_zero, readAt_whole arg4.view f1 off2_zero,
    readAt_whole arg7.view fs off2_zero, readAt_whole arg3.view f0 off2_zero]

end Cert.Kernel.Hand

end
-- ==== Proof.R1DatK.lean ====
/- Region 1: the pipeline's proof data and its body obligation. The accumulator after the
   body at grid position n is defined by recursion on n: at the first step of a reduction
   (n ≡ 0 mod 4) one accumulation step from the zero block, otherwise one step from what position
   n - 1 left. The region invariant carries the accumulator at that value from one point to the
   next; the three inputs' buffers hold their blocks at every point; the output's buffer holds,
   after a last step (n ≡ 3 mod 4), the output payload of the accumulator and the bias block, and
   is idle elsewhere. The body obligation is the case split first / middle / last step, each case
   one of the three triples of the body. -/
import proofs.«125502_j49297634623952_2_alg».proof.Proof.R1BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The accumulator, point by point -/

/-- the accumulator (scratch arg7) after the body at position n: restarted from zero at a first k, else one more step on what the point before left -/
def acc1 (c : Dev nD) : (n : ℕ) → n < cfg1.N → Vec F S1024x1024 .f32
  | 0, hn => k1_pay1 (k1_pay4 (grid1.coords ⟨0, hn⟩)) (k1_pay5 (grid1.coords ⟨0, hn⟩)) 16#32 (k1_pay6 (grid1.coords ⟨0, hn⟩)) (k1_pay7 (grid1.coords ⟨0, hn⟩)) (k1_pay8 (grid1.coords ⟨0, hn⟩)) (iblk1 V c 1 ⟨0, hn⟩) (k1_pay3 (F := F)) (iblk1 V c 0 ⟨0, hn⟩)
  | n + 1, hn => if (n + 1) % 4 = 0 then k1_pay1 (k1_pay4 (grid1.coords ⟨n + 1, hn⟩)) (k1_pay5 (grid1.coords ⟨n + 1, hn⟩)) 16#32 (k1_pay6 (grid1.coords ⟨n + 1, hn⟩)) (k1_pay7 (grid1.coords ⟨n + 1, hn⟩)) (k1_pay8 (grid1.coords ⟨n + 1, hn⟩)) (iblk1 V c 1 ⟨n + 1, hn⟩) (k1_pay3 (F := F)) (iblk1 V c 0 ⟨n + 1, hn⟩)
                 else k1_pay1 (k1_pay4 (grid1.coords ⟨n + 1, hn⟩)) (k1_pay5 (grid1.coords ⟨n + 1, hn⟩)) 16#32 (k1_pay6 (grid1.coords ⟨n + 1, hn⟩)) (k1_pay7 (grid1.coords ⟨n + 1, hn⟩)) (k1_pay8 (grid1.coords ⟨n + 1, hn⟩)) (iblk1 V c 1 ⟨n + 1, hn⟩) (acc1 c n (Nat.lt_of_succ_lt hn)) (iblk1 V c 0 ⟨n + 1, hn⟩)

/-- At a first step: one step from zero. -/
theorem acc1_first (c : Dev nD) (t : Fin cfg1.N) (h0 : t.val % 4 = 0) :
    acc1 V c t.val t.isLt = k1_pay1 (k1_pay4 (grid1.coords t)) (k1_pay5 (grid1.coords t)) 16#32 (k1_pay6 (grid1.coords t)) (k1_pay7 (grid1.coords t)) (k1_pay8 (grid1.coords t)) (iblk1 V c 1 t) (k1_pay3 (F := F)) (iblk1 V c 0 t) := by
  obtain ⟨n, hn⟩ := t
  cases n with
  | zero => exact rfl
  | succ n => exact (if_pos h0).trans rfl

/-- At any other step: one step from what the point before left. -/
theorem acc1_next (c : Dev nD) (t : Fin cfg1.N) (h0 : ¬t.val % 4 = 0) :
    acc1 V c t.val t.isLt = k1_pay1 (k1_pay4 (grid1.coords t)) (k1_pay5 (grid1.coords t)) 16#32 (k1_pay6 (grid1.coords t)) (k1_pay7 (grid1.coords t)) (k1_pay8 (grid1.coords t)) (iblk1 V c 1 t) (acc1 V c (t.val - 1) (Nat.lt_of_le_of_lt (Nat.sub_le _ _) t.isLt)) (iblk1 V c 0 t) := by
  obtain ⟨n, hn⟩ := t
  cases n with
  | zero => exact (by exfalso; (try dsimp only at h0); exact absurd (Nat.zero_mod _) h0)
  | succ n => exact (if_neg h0).trans rfl

/-! ## The region invariant -/

/-- the invariant before position n: the class's ΦA before the first point, afterwards the scratch at the accumulator the point before left, the other scoped buffers at some contents, and the generator register at some state -/
def PhiS1 (c : Dev nD) : (n : ℕ) → n ≤ cfg1.N → sProp 𝕄
  | 0, _ => Pipeline.ΦA spec1 c
  | n + 1, hn => iprop(iprop(owns (c : Thread nD τ) (Memref.whole cc1_scratch0) fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's value. -/
theorem PhiS1_succ (c : Dev nD) (n : ℕ) (hn : n < cfg1.N) :
    PhiS1 V c (n + 1) hn = iprop(iprop(owns (c : Thread nD τ) (Memref.whole cc1_scratch0) fullShare (acc1 V c n hn) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) (Memref.whole cc1_scratch0) fullShare (acc1 V c (n - 1) (by omega)) ∗ rest1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (acc1 V c t.val t.isLt) (iblk1 V c 2 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay2 (acc1 V c t.val t.isLt) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the position's residue mod 4
    says which case the point is in; the invariant hands the body the accumulator at what the
    point before left (at anything before the first point) and takes it back at this point's
    value; the other scoped buffers, the generator register and the core's owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [acc1_first V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.R2KitK.lean ====
import proofs.«125502_j49297634623952_2_alg».proof.Proof.Gen.Kernel.Launch
import proofs.«125502_j49297634623952_2_alg».proof.Proof.Gen.Kernel.Skeleton
import proofs.«125502_j49297634623952_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: what the body's runs and the proof data share

The kernel of custom_call 2 is a matrix product blocked along the contraction axis: the grid is
(i, j, k) with k innermost, the accumulator lives in a scratch buffer that is zeroed at k = 0,
receives one partial product per point, and is written out with the bias added and the negative part cut off at the last k. -/

/-! ## The two branch conditions, in closed form over the grid -/

/-- The first conditional (zero the accumulator): the contraction coordinate is 0. -/
abbrev cond2_0 (i : grid2.Coords) : Prop :=
  (Scalar.cmpi .ne (Scalar.extui (Scalar.cmpi .eq (BitVec.ofNat 32 (i 2).val) 0#32)) 0#32) = 1#1
/-- It holds exactly at the linear positions ≡ 0 (mod 8): the contraction axis is innermost, of extent 8. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional (write the output block): the contraction coordinate is the last one. -/
abbrev cond2_1 (i : grid2.Coords) : Prop := k2_cond2 i = 1#1
/-- It holds exactly at the positions ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are live -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output is idle away from the last contraction step: nothing is stored into it there, -/
theorem idleAt2_3 : ∀ t : Fin cfg2.N, ¬cond2_1 (grid2.coords t) → cfg2.idle 3 (grid2.coords t) = true := by decide +kernel
/-- and its block is not written back there; -/
theorem noFlush2_3 : ∀ t : Fin cfg2.N, ¬cond2_1 (grid2.coords t) → (cfg2.win 3).flush t = false := by decide +kernel
/-- at the last contraction step it is live. -/
theorem liveAt2_3 : ∀ t : Fin cfg2.N, cond2_1 (grid2.coords t) → cfg2.idle 3 (grid2.coords t) = false := by decide +kernel

/-! ## The memrefs the body is called with -/

/-- Each window's current staging memref at point t, spelled as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
/-- The accumulator: a whole scoped buffer of the call's own, passed beside the windows. -/
abbrev scM2 : Memref sig .tc .vmem S1024x1024 .f32 := Memref.whole cc2_scratch0

/-! ## The class invariant, split at the accumulator -/

/-- Everything the class invariant holds besides the accumulator: the core's other scoped buffers that are no
    staging buffer of this call (the other calls' staging buffers and accumulators), each at some contents, and the
    generator register at some state. The body touches none of it. -/
def rest2 (c : Dev nD) : sProp 𝕄 :=
  iprop(Pipeline.scopedRestBut (Ix := Unit) (Name := ℕ) (U := UR sig nD τ) (Lvl := ℕ) (Val := Elt F) spec2 c [cc2_scratch0]
    ∗ ∃ r, prngReg c r)

/-- The class invariant is the accumulator at some contents beside the rest. -/
theorem PhiA2_eq (c : Dev nD) :
    (Pipeline.ΦA spec2 c : sProp 𝕄) = iprop((∃ d, owns (c : Thread nD τ) scM2 fullShare d) ∗ rest2 c) := by
  unfold Pipeline.ΦA rest2
  rw [Pipeline.scopedRest_split_of_list spec2 c [cc2_scratch0] (by decide) (by decide)]
  simp only [scM2, owns_whole, bigSepL_singleton]
  exact Entails.antisymm Idealize.SL.BI.sep_assoc Idealize.SL.BI.sep_assoc'

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current staging buffer holds the window's block at every point, whether the pipeline fetched it at this
    point or kept it from the one before (then the block index has not moved): for any proof data whose array is
    V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias block is fetched only when the contraction restarts; between restarts its index stands still. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Cert.Kernel.Hand

end
-- ==== Proof.R2BodyK.lean ====
import proofs.«125502_j49297634623952_2_alg».proof.Proof.R2KitK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the kernel body, run once per control case

On whole staging memrefs the body is run symbolically; what its stores leave in the accumulator and in the
output buffer comes out as a list of written pieces, and a covering list of pieces reads back as one function. -/

set_option maxHeartbeats 1000000 in
/-- A MIDDLE contraction step (neither conditional taken): the body loads the accumulator and the two operand
    blocks and stores the accumulator plus their product; the bias block and the output buffer are handed back as
    found. The accumulator's written pieces are the witness the run finds. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The FIRST contraction step (first conditional taken, second not): the body zeroes the accumulator, reads the
    zeros back, and stores zero plus the product of the two operand blocks; bias block and output buffer are handed
    back as found; the accumulator may start at anything. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The LAST contraction step (second conditional taken, first not): the body accumulates as in a middle step, then
    loads the accumulator and the bias block and stores the positive part of their sum, rounded to the output format, over the whole
    output buffer, which may start at anything. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What the pieces read back as -/

/-- The stores of this kernel go through the whole-buffer rectangle at offset zero. -/
theorem hz2 : (![0, 0] : Fin 2 → ℕ) = fun _ => 0 := by
  funext a; fin_cases a <;> rfl

set_option maxHeartbeats 1000000 in
/-- After a middle step the accumulator reads as the step's payload at what it held and the two operand blocks. -/
theorem scr2_B_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32)
    (f : arg7.view.ty.Contents (Elt F)) :
    arg7.view.read (Elt F) (arg7.view.writes (Elt F) f (kernelRun2_B c i arg3 harg3 arg4 harg4 arg5 harg5 arg6 harg6 arg7 harg7 hc0 hc1 x0 x1 x2 xs0).1) = k2_pay2 xs0 x0 x1 := by
  rw [View.read_writes_eq_canon _ _ _ (View.cover_of_tiledL _ S1024x1024.size (by sl_kernel_rfl))]
  unfold kernelRun2_B; dsimp only
  rw [View.canon_unit_zero hz2]
  simp only [View.readAt_eq_ld, Memref.IsWhole.read_unread, View.ld_unit_zero (S := S1024x1024) hz2]

set_option maxHeartbeats 1000000 in
/-- After the first step the accumulator reads as the step's payload at zero and the two operand blocks: the load
    that follows the zeroing store reads the zeros back. -/
theorem scr2_A_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32)
    (f : arg7.view.ty.Contents (Elt F)) :
    arg7.view.read (Elt F) (arg7.view.writes (Elt F) f (kernelRun2_A c i arg3 harg3 arg4 harg4 arg5 harg5 arg6 harg6 arg7 harg7 hc0 hc1 x0 x1 x2).1) = k2_pay2 (k2_pay1 (F := F)) x0 x1 := by
  rw [View.read_writes_eq_canon _ _ _ (View.cover_of_tiledL _ S1024x1024.size (by sl_kernel_rfl))]
  unfold kernelRun2_A; dsimp only
  sl_unfold_run_names
  rw [View.canon_cons_unit_zero hz2]
  simp only [View.readAt_eq_ld, Memref.IsWhole.read_unread, View.ld_unit_zero (S := S1024x1024) hz2]
  exact congrArg (fun a => k2_pay2 a x0 x1) (View.readCov_unit_zero (S := S1024x1024) arg7.view hz2 _ _)

set_option maxHeartbeats 1000000 in
/-- After the last step the accumulator reads as after a middle step, -/
theorem scr2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32)
    (f : arg7.view.ty.Contents (Elt F)) :
    arg7.view.read (Elt F) (arg7.view.writes (Elt F) f (kernelRun2_C c i arg3 harg3 arg4 harg4 arg5 harg5 arg6 harg6 arg7 harg7 hc0 hc1 x0 x1 x2 xs0).2.1) = k2_pay2 xs0 x0 x1 := by
  rw [View.read_writes_eq_canon _ _ _ (View.cover_of_tiledL _ S1024x1024.size (by sl_kernel_rfl))]
  unfold kernelRun2_C; dsimp only
  sl_unfold_run_names
  rw [View.canon_unit_zero hz2]
  simp only [View.readAt_eq_ld, Memref.IsWhole.read_unread, View.ld_unit_zero (S := S1024x1024) hz2]

set_option maxHeartbeats 1000000 in
/-- and the output buffer as the output payload at the new accumulator and the bias block. -/
theorem out2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32)
    (f : arg6.view.ty.Contents (Elt F)) :
    arg6.view.read (Elt F) (arg6.view.writes (Elt F) f (kernelRun2_C c i arg3 harg3 arg4 harg4 arg5 harg5 arg6 harg6 arg7 harg7 hc0 hc1 x0 x1 x2 xs0).1) = k2_pay3 (k2_pay2 xs0 x0 x1) x2 := by
  rw [View.read_writes_eq_canon _ _ _ (View.cover_of_tiledL _ S1024x1024.size (by sl_kernel_rfl))]
  unfold kernelRun2_C; dsimp only
  sl_unfold_run_names
  rw [View.canon_unit_zero hz2]
  simp only [View.readAt_eq_ld, Memref.IsWhole.read_unread, View.ld_unit_zero (S := S1024x1024) hz2, View.ld_unit_zero (S := S1x1024) hz2]
  exact congrArg (fun a => k2_pay3 a x2) (View.readCov_unit_zero (S := S1024x1024) arg7.view hz2 _ _)

end Cert.Kernel.Hand

end
-- ==== Proof.R2DatK.lean ====
import proofs.«125502_j49297634623952_2_alg».proof.Proof.R2BodyK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the proof data and the body obligation

The accumulator is carried from one grid point to the next, so the region's invariant names what it holds:
after position n, the partial sum of the products of the operand blocks since the last restart of the contraction. -/

/-- The accumulator after the body at position n: restarted from zero at a first contraction step, else one more
    step on what the point before left. -/
def acc2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn => if (n + 1) % 8 = 0 then k2_pay2 (k2_pay1 (F := F)) (iblk2 V c 0 ⟨n + 1, hn⟩) (iblk2 V c 1 ⟨n + 1, hn⟩)
                 else k2_pay2 (acc2 c n (Nat.lt_of_succ_lt hn)) (iblk2 V c 0 ⟨n + 1, hn⟩) (iblk2 V c 1 ⟨n + 1, hn⟩)

/-- At a first contraction step the accumulator restarts. -/
theorem acc2_first (c : Dev nD) (t : Fin cfg2.N) (h0 : t.val % 8 = 0) :
    acc2 V c t.val t.isLt = k2_pay2 (k2_pay1 (F := F)) (iblk2 V c 0 t) (iblk2 V c 1 t) := by
  obtain ⟨n, hn⟩ := t
  cases n with
  | zero => rfl
  | succ n => exact if_pos h0

/-- At any other step it takes one more product onto what the point before left. -/
theorem acc2_next (c : Dev nD) (t : Fin cfg2.N) (h0 : ¬t.val % 8 = 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-- The invariant before position n: the class's before the first point; afterwards the accumulator at what the
    point before left, beside everything else the class's invariant holds. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ rest2 c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (acc2 V c n hn) ∗ rest2 c) := rfl

theorem PhiS2_pos (c : Dev nD) (n : ℕ) (h : n ≤ cfg2.N) (hz : n ≠ 0) :
    PhiS2 V c n h = iprop(owns (c : Thread nD τ) scM2 fullShare (acc2 V c (n - 1) (by omega)) ∗ rest2 c) := by
  cases n with
  | zero => exact absurd rfl hz
  | succ n => rfl

/-! ## The proof data -/

/-- The region's proof data on core c: the arrays as the region finds them; after the body each input's buffer at
    its block, the output's at the output payload of the accumulator and the bias block (consulted only where the
    output is live: at the last contraction step); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position modulo 8 says which control
    case it is in; the invariant hands the body the accumulator (at anything before the first point, else at what the
    point before left) and takes it back at this point's value; away from the last contraction step the output
    buffer is handed back untouched, at the last step it holds the output payload. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 16 := lt_of_lt_of_eq t.isLt (show cfg2.N = 16 from N_2)
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [acc2_first V c t h0]
    by_cases hz : t.val = 0
    · rw [PhiS2_castSucc V c t, PhiS2_zero V c _ _ hz, PhiA2_eq]
      iintro ⟨⟨HS0, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact scr2_A_eq c _ _ _ _ _ _ _ _ _ _ _ _ _ _ _ _ _
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS0, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact scr2_A_eq c _ _ _ _ _ _ _ _ _ _ _ _ _ _ _ _ _
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    rw [acc2_next V c t h0]
    rw [PhiS2_castSucc V c t, PhiS2_pos V c _ _ hz]
    by_cases h1 : t.val % 8 = 7
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3, acc2_next V c t h0]
      iintro ⟨⟨HS0, Hg⟩, Ho, ⟨%d0, H0⟩, ⟨%d1, H1⟩, ⟨%d2, H2⟩, ⟨%d3, H3⟩⟩
      iapply ((kernelRun2_C c (grid2.coords t) _ _ _ _ _ _ _ _ _ _ hc0 hc1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact scr2_C_eq c _ _ _ _ _ _ _ _ _ _ _ _ _ _ _ _ _ _
        iexact Hg
      isplitl [Ho]; · iexact Ho
      isplitl [H0]; · iexact H0
      isplitl [H1]; · iexact H1
      isplitl [H2]; · iexact H2
      unfold owns; iexists _; isplitr
      swap; · iexact H3
      ipureintro; exact out2_C_eq c _ _ _ _ _ _ _ _ _ _ _ _ _ _ _ _ _ _
    · have hc1 : ¬cond2_1 (grid2.coords t) := fun h => h1 ((hcond2_1 t).mp h)
      rw [Dat.leavesExact_idle (dat2 V c) 3 t (idleAt2_3 t hc1) (noFlush2_3 t hc1)]
      iintro ⟨⟨HS0, Hg⟩, Ho, ⟨%d0, H0⟩, ⟨%d1, H1⟩, ⟨%d2, H2⟩, ⟨%d3, H3⟩⟩
      iapply ((kernelRun2_B c (grid2.coords t) _ _ _ _ _ _ _ _ _ _ hc0 hc1 (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact scr2_B_eq c _ _ _ _ _ _ _ _ _ _ _ _ _ _ _ _ _ _
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point but the first the invariant gives the class's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, Hg⟩
  isplitl [HS0]
  · iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.FoldK.lean ====
/- The buffer contents between the segments of the program. Between two segments every unscoped buffer of a core is held
   at a named valuation: `W0` the launch memory, then each stretch of host operations applied to the valuation before it
   (`W1`, `W3`, `W5`, `W7`), and at a region's exit the region's four arrays at what its write-backs leave (`W2`, `W4`, `W6`):
   the inputs as entered, the output at the fold of its flushed blocks. -/
import proofs.«125502_j49297634623952_2_alg».proof.Proof.R0DatK
import proofs.«125502_j49297634623952_2_alg».proof.Proof.R1DatK
import proofs.«125502_j49297634623952_2_alg».proof.Proof.R2DatK
import proofs.«125502_j49297634623952_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => have _ := ρ; m (c, b)
/-- After the host operations before the first region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

end Cert.Kernel.Hand

end
-- ==== Proof.AssembleK.lean ====
/- The run of the whole program: the three kernel regions among the four stretches of host operations, as one
   list of segments. Between two segments every unscoped buffer of a core is held at a named valuation `W_j`: the
   launch memory, then each host stretch applied to it, then at a region's exit the region's arrays at what its
   write-backs leave. The program terminates without a fault in a memory that is `W7` on every unscoped buffer. -/
import proofs.«125502_j49297634623952_2_alg».proof.Proof.FoldK
import proofs.«125502_j49297634623952_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`. Its
    arrays are split out of the unscoped buffers and put back at what the write-backs leave; the generator register
    and the scoped rest go into the invariant (the accumulator scratch among them) and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := hin0 (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := hout0 (V1 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at what the write-backs leave; the generator register
    and the scoped rest go into the invariant (the accumulator scratch among them) and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers and put back at what the write-backs leave; the generator register
    and the scoped rest go into the invariant (the accumulator scratch among them) and come back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m ρ 2 c).Φ 0 := hin2 (V5 m ρ) c
    unfold Pipeline.ΦA at h
    iintro ⟨Hp, -, Hr⟩
    iapply h
    isplitl [Hr]; · iexact Hr
    iexact Hp
  hout c := by
    rw [Pipeline.ownSems0_none]
    have h : (pdats m ρ 2 c).Φ (Fin.last _) ⊢ Pipeline.ΦA spec2 c := hout2 (V5 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- Every weakly fair execution of the program from memory `m` terminates, nothing faulting, and the final memory holds
    `W7` on every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.KeepK.lean ====
/- No stretch of host operations writes an argument of the program and no region's array is an argument, so
   every valuation of the fold holds every argument as launched; and a buffer that a later region reads but no
   item in between writes holds, where it is read, what the earlier valuation held. -/
import proofs.«125502_j49297634623952_2_alg».proof.Proof.FoldK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## One item at a time: a stretch of host operations keeps what it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## Kept through a prefix of the fold -/

/-- A buffer that the first stretch does not write and that is no array of region 0 holds at region 0's exit what
    was launched. -/
theorem W2_kept (c : Dev nD) (r : Ref sig .tc) (h0 : r ∉ hostOps0_W) (h1 : ∀ w, Pipeline.arrRef spec0 w ≠ r) :
    W2 m ρ c (Proc.devRef .tc r) = m ((c : Thread nD τ).loc r) :=
  (W2_of_ne m ρ c r h1).trans <| (W1_of m ρ c r h0).trans rfl
/-- … and so on through the second stretch, -/
theorem W3_kept (c : Dev nD) (r : Ref sig .tc) (h0 : r ∉ hostOps0_W) (h1 : ∀ w, Pipeline.arrRef spec0 w ≠ r)
    (h2 : r ∉ hostOps1_W) : W3 m ρ c (Proc.devRef .tc r) = m ((c : Thread nD τ).loc r) :=
  (W3_of m ρ c r h2).trans (W2_kept m ρ c r h0 h1)
/-- region 1, -/
theorem W4_kept (c : Dev nD) (r : Ref sig .tc) (h0 : r ∉ hostOps0_W) (h1 : ∀ w, Pipeline.arrRef spec0 w ≠ r)
    (h2 : r ∉ hostOps1_W) (h3 : ∀ w, Pipeline.arrRef spec1 w ≠ r) :
    W4 m ρ c (Proc.devRef .tc r) = m ((c : Thread nD τ).loc r) :=
  (W4_of_ne m ρ c r h3).trans (W3_kept m ρ c r h0 h1 h2)
/-- the third stretch, -/
theorem W5_kept (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W) :
    W5 m ρ c (Proc.devRef .tc r) = m ((c : Thread nD τ).loc r) :=
  (W5_of m ρ c r h4).trans (W4_kept m ρ c r h0 h1 h2 h3)
/-- region 2, -/
theorem W6_kept (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W)
    (h5 : ∀ w, Pipeline.arrRef spec2 w ≠ r) : W6 m ρ c (Proc.devRef .tc r) = m ((c : Thread nD τ).loc r) :=
  (W6_of_ne m ρ c r h5).trans (W5_kept m ρ c r h0 h1 h2 h3 h4)
/-- and the last stretch. -/
theorem W7_kept (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W)
    (h5 : ∀ w, Pipeline.arrRef spec2 w ≠ r) (h6 : r ∉ hostOps3_W) :
    W7 m ρ c (Proc.devRef .tc r) = m ((c : Thread nD τ).loc r) :=
  (W7_of m ρ c r h6).trans (W6_kept m ρ c r h0 h1 h2 h3 h4 h5)

/-- A buffer the first stretch prepares for a later region, which region 0 and the second stretch leave alone,
    holds at region 1's entry what the first stretch left. -/
theorem W3_from_W1 (c : Dev nD) (r : Ref sig .tc) (h1 : ∀ w, Pipeline.arrRef spec0 w ≠ r) (h2 : r ∉ hostOps1_W) :
    W3 m ρ c (Proc.devRef .tc r) = W1 m ρ c (Proc.devRef .tc r) :=
  (W3_of m ρ c r h2).trans (W2_of_ne m ρ c r h1)
/-- … and, if region 1 and the third stretch leave it alone too, at region 2's entry. -/
theorem W5_from_W1 (c : Dev nD) (r : Ref sig .tc) (h1 : ∀ w, Pipeline.arrRef spec0 w ≠ r) (h2 : r ∉ hostOps1_W)
    (h3 : ∀ w, Pipeline.arrRef spec1 w ≠ r) (h4 : r ∉ hostOps2_W) :
    W5 m ρ c (Proc.devRef .tc r) = W1 m ρ c (Proc.devRef .tc r) :=
  (W5_of m ρ c r h4).trans <| (W4_of_ne m ρ c r h3).trans (W3_from_W1 m ρ c r h1 h2)

/-! ## The arguments at each valuation the regions and the last stretch read them from -/

/-- `main_arg0` holds its launch contents at every valuation of the fold. -/
theorem W2_main_arg0 (c : Dev nD) : W2 m ρ c (Proc.devRef .tc main_arg0) = m ((c : Thread nD τ).loc main_arg0) :=
  W2_kept m ρ c main_arg0 (by decide) (by decide)
theorem W4_main_arg0 (c : Dev nD) : W4 m ρ c (Proc.devRef .tc main_arg0) = m ((c : Thread nD τ).loc main_arg0) :=
  W4_kept m ρ c main_arg0 (by decide) (by decide) (by decide) (by decide)
theorem W6_main_arg0 (c : Dev nD) : W6 m ρ c (Proc.devRef .tc main_arg0) = m ((c : Thread nD τ).loc main_arg0) :=
  W6_kept m ρ c main_arg0 (by decide) (by decide) (by decide) (by decide) (by decide) (by decide)
theorem W7_main_arg0 (c : Dev nD) : W7 m ρ c (Proc.devRef .tc main_arg0) = m ((c : Thread nD τ).loc main_arg0) :=
  W7_kept m ρ c main_arg0 (by decide) (by decide) (by decide) (by decide) (by decide) (by decide) (by decide)

/-- `main_arg1` holds its launch contents at every valuation of the fold. -/
theorem W2_main_arg1 (c : Dev nD) : W2 m ρ c (Proc.devRef .tc main_arg1) = m ((c : Thread nD τ).loc main_arg1) :=
  W2_kept m ρ c main_arg1 (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W6_main_arg1 (c : Dev nD) : W6 m ρ c (Proc.devRef .tc main_arg1) = m ((c : Thread nD τ).loc main_arg1) :=
  W6_kept m ρ c main_arg1 (by decide) (by decide) (by decide) (by decide) (by decide) (by decide)
theorem W7_main_arg1 (c : Dev nD) : W7 m ρ c (Proc.devRef .tc main_arg1) = m ((c : Thread nD τ).loc main_arg1) :=
  W7_kept m ρ c main_arg1 (by decide) (by decide) (by decide) (by decide) (by decide) (by decide) (by decide)

/-- `main_arg2` holds its launch contents at every valuation of the fold. -/
theorem W2_main_arg2 (c : Dev nD) : W2 m ρ c (Proc.devRef .tc main_arg2) = m ((c : Thread nD τ).loc main_arg2) :=
  W2_kept m ρ c main_arg2 (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W6_main_arg2 (c : Dev nD) : W6 m ρ c (Proc.devRef .tc main_arg2) = m ((c : Thread nD τ).loc main_arg2) :=
  W6_kept m ρ c main_arg2 (by decide) (by decide) (by decide) (by decide) (by decide) (by decide)
theorem W7_main_arg2 (c : Dev nD) : W7 m ρ c (Proc.devRef .tc main_arg2) = m ((c : Thread nD τ).loc main_arg2) :=
  W7_kept m ρ c main_arg2 (by decide) (by decide) (by decide) (by decide) (by decide) (by decide) (by decide)

/-- `main_arg3` holds its launch contents at every valuation of the fold. -/
theorem W2_main_arg3 (c : Dev nD) : W2 m ρ c (Proc.devRef .tc main_arg3) = m ((c : Thread nD τ).loc main_arg3) :=
  W2_kept m ρ c main_arg3 (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W6_main_arg3 (c : Dev nD) : W6 m ρ c (Proc.devRef .tc main_arg3) = m ((c : Thread nD τ).loc main_arg3) :=
  W6_kept m ρ c main_arg3 (by decide) (by decide) (by decide) (by decide) (by decide) (by decide)
theorem W7_main_arg3 (c : Dev nD) : W7 m ρ c (Proc.devRef .tc main_arg3) = m ((c : Thread nD τ).loc main_arg3) :=
  W7_kept m ρ c main_arg3 (by decide) (by decide) (by decide) (by decide) (by decide) (by decide) (by decide)

/-- `main_arg4` holds its launch contents at every valuation of the fold. -/
theorem W2_main_arg4 (c : Dev nD) : W2 m ρ c (Proc.devRef .tc main_arg4) = m ((c : Thread nD τ).loc main_arg4) :=
  W2_kept m ρ c main_arg4 (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W6_main_arg4 (c : Dev nD) : W6 m ρ c (Proc.devRef .tc main_arg4) = m ((c : Thread nD τ).loc main_arg4) :=
  W6_kept m ρ c main_arg4 (by decide) (by decide) (by decide) (by decide) (by decide) (by decide)
theorem W7_main_arg4 (c : Dev nD) : W7 m ρ c (Proc.devRef .tc main_arg4) = m ((c : Thread nD τ).loc main_arg4) :=
  W7_kept m ρ c main_arg4 (by decide) (by decide) (by decide) (by decide) (by decide) (by decide) (by decide)

/-- `main_arg5` holds its launch contents at every valuation of the fold. -/
theorem W2_main_arg5 (c : Dev nD) : W2 m ρ c (Proc.devRef .tc main_arg5) = m ((c : Thread nD τ).loc main_arg5) :=
  W2_kept m ρ c main_arg5 (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W6_main_arg5 (c : Dev nD) : W6 m ρ c (Proc.devRef .tc main_arg5) = m ((c : Thread nD τ).loc main_arg5) :=
  W6_kept m ρ c main_arg5 (by decide) (by decide) (by decide) (by decide) (by decide) (by decide)
theorem W7_main_arg5 (c : Dev nD) : W7 m ρ c (Proc.devRef .tc main_arg5) = m ((c : Thread nD τ).loc main_arg5) :=
  W7_kept m ρ c main_arg5 (by decide) (by decide) (by decide) (by decide) (by decide) (by decide) (by decide)

/-- `main_arg6` holds its launch contents at every valuation of the fold. -/
theorem W2_main_arg6 (c : Dev nD) : W2 m ρ c (Proc.devRef .tc main_arg6) = m ((c : Thread nD τ).loc main_arg6) :=
  W2_kept m ρ c main_arg6 (by decide) (by decide)
theorem W4_main_arg6 (c : Dev nD) : W4 m ρ c (Proc.devRef .tc main_arg6) = m ((c : Thread nD τ).loc main_arg6) :=
  W4_kept m ρ c main_arg6 (by decide) (by decide) (by decide) (by decide)
theorem W6_main_arg6 (c : Dev nD) : W6 m ρ c (Proc.devRef .tc main_arg6) = m ((c : Thread nD τ).loc main_arg6) :=
  W6_kept m ρ c main_arg6 (by decide) (by decide) (by decide) (by decide) (by decide) (by decide)
theorem W7_main_arg6 (c : Dev nD) : W7 m ρ c (Proc.devRef .tc main_arg6) = m ((c : Thread nD τ).loc main_arg6) :=
  W7_kept m ρ c main_arg6 (by decide) (by decide) (by decide) (by decide) (by decide) (by decide) (by decide)

/-- `main_arg7` holds its launch contents at every valuation of the fold. -/
theorem W2_main_arg7 (c : Dev nD) : W2 m ρ c (Proc.devRef .tc main_arg7) = m ((c : Thread nD τ).loc main_arg7) :=
  W2_kept m ρ c main_arg7 (by decide) (by decide)
theorem W4_main_arg7 (c : Dev nD) : W4 m ρ c (Proc.devRef .tc main_arg7) = m ((c : Thread nD τ).loc main_arg7) :=
  W4_kept m ρ c main_arg7 (by decide) (by decide) (by decide) (by decide)
theorem W6_main_arg7 (c : Dev nD) : W6 m ρ c (Proc.devRef .tc main_arg7) = m ((c : Thread nD τ).loc main_arg7) :=
  W6_kept m ρ c main_arg7 (by decide) (by decide) (by decide) (by decide) (by decide) (by decide)
theorem W7_main_arg7 (c : Dev nD) : W7 m ρ c (Proc.devRef .tc main_arg7) = m ((c : Thread nD τ).loc main_arg7) :=
  W7_kept m ρ c main_arg7 (by decide) (by decide) (by decide) (by decide) (by decide) (by decide) (by decide)

/-- `main_arg8` holds its launch contents at every valuation of the fold. -/
theorem W2_main_arg8 (c : Dev nD) : W2 m ρ c (Proc.devRef .tc main_arg8) = m ((c : Thread nD τ).loc main_arg8) :=
  W2_kept m ρ c main_arg8 (by decide) (by decide)
theorem W4_main_arg8 (c : Dev nD) : W4 m ρ c (Proc.devRef .tc main_arg8) = m ((c : Thread nD τ).loc main_arg8) :=
  W4_kept m ρ c main_arg8 (by decide) (by decide) (by decide) (by decide)
theorem W6_main_arg8 (c : Dev nD) : W6 m ρ c (Proc.devRef .tc main_arg8) = m ((c : Thread nD τ).loc main_arg8) :=
  W6_kept m ρ c main_arg8 (by decide) (by decide) (by decide) (by decide) (by decide) (by decide)
theorem W7_main_arg8 (c : Dev nD) : W7 m ρ c (Proc.devRef .tc main_arg8) = m ((c : Thread nD τ).loc main_arg8) :=
  W7_kept m ρ c main_arg8 (by decide) (by decide) (by decide) (by decide) (by decide) (by decide) (by decide)

/-- `main_arg9` holds its launch contents at every valuation of the fold. -/
theorem W2_main_arg9 (c : Dev nD) : W2 m ρ c (Proc.devRef .tc main_arg9) = m ((c : Thread nD τ).loc main_arg9) :=
  W2_kept m ρ c main_arg9 (by decide) (by decide)
theorem W4_main_arg9 (c : Dev nD) : W4 m ρ c (Proc.devRef .tc main_arg9) = m ((c : Thread nD τ).loc main_arg9) :=
  W4_kept m ρ c main_arg9 (by decide) (by decide) (by decide) (by decide)
theorem W6_main_arg9 (c : Dev nD) : W6 m ρ c (Proc.devRef .tc main_arg9) = m ((c : Thread nD τ).loc main_arg9) :=
  W6_kept m ρ c main_arg9 (by decide) (by decide) (by decide) (by decide) (by decide) (by decide)
theorem W7_main_arg9 (c : Dev nD) : W7 m ρ c (Proc.devRef .tc main_arg9) = m ((c : Thread nD τ).loc main_arg9) :=
  W7_kept m ρ c main_arg9 (by decide) (by decide) (by decide) (by decide) (by decide) (by decide) (by decide)

/-! ## The prepared weights where the later regions read them -/

/-- The second weight matrix at region 1's entry is what the first stretch left. -/
theorem W3_main_v7 (c : Dev nD) : W3 m ρ c (Proc.devRef .tc main_v7) = W1 m ρ c (Proc.devRef .tc main_v7) :=
  W3_from_W1 m ρ c main_v7 (by decide) (by decide)
/-- The third weight matrix at region 2's entry is what the first stretch left. -/
theorem W5_main_v8 (c : Dev nD) : W5 m ρ c (Proc.devRef .tc main_v8) = W1 m ρ c (Proc.devRef .tc main_v8) :=
  W5_from_W1 m ρ c main_v8 (by decide) (by decide) (by decide) (by decide)
/-- Region 0's output at region 1's entry is what region 0 left. -/
theorem W3_main_v11 (c : Dev nD) : W3 m ρ c (Proc.devRef .tc main_v11) = W2 m ρ c (Proc.devRef .tc main_v11) :=
  W3_of m ρ c main_v11 (by decide)
/-- Region 1's output at region 2's entry is what region 1 left. -/
theorem W5_main_v13 (c : Dev nD) : W5 m ρ c (Proc.devRef .tc main_v13) = W4 m ρ c (Proc.devRef .tc main_v13) :=
  W5_of m ρ c main_v13 (by decide)

end Cert.Kernel.Hand

end
-- ==== Proof.R0Kit.lean ====
import proofs.«125502_j49297634623952_2_alg».proof.Proof.Gen.KernelIdeal.Launch
import proofs.«125502_j49297634623952_2_alg».proof.Proof.Gen.KernelIdeal.Skeleton
import proofs.«125502_j49297634623952_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the body's runs and the proof data share

The kernel of custom_call 0 is a matrix product blocked along the contraction axis: the grid is
(i, j, k) with k innermost, the accumulator lives in a scratch buffer that is zeroed at k = 0,
receives one partial product per point, and is written out with the bias added at the last k. -/

/-! ## The two branch conditions, in closed form over the grid -/

/-- The first conditional (zero the accumulator): the contraction coordinate is 0. -/
abbrev cond0_0 (i : grid0.Coords) : Prop :=
  (Scalar.cmpi .ne (Scalar.extui (Scalar.cmpi .eq (BitVec.ofNat 32 (i 2).val) 0#32)) 0#32) = 1#1
/-- It holds exactly at the linear positions ≡ 0 (mod 4): the contraction axis is innermost, of extent 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional (write the output block): the contraction coordinate is the last one. -/
abbrev cond0_1 (i : grid0.Coords) : Prop := k0_cond2 i = 1#1
/-- It holds exactly at the positions ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are live -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output is idle away from the last contraction step: nothing is stored into it there, -/
theorem idleAt0_3 : ∀ t : Fin cfg0.N, ¬cond0_1 (grid0.coords t) → cfg0.idle 3 (grid0.coords t) = true := by decide +kernel
/-- and its block is not written back there; -/
theorem noFlush0_3 : ∀ t : Fin cfg0.N, ¬cond0_1 (grid0.coords t) → (cfg0.win 3).flush t = false := by decide +kernel
/-- at the last contraction step it is live. -/
theorem liveAt0_3 : ∀ t : Fin cfg0.N, cond0_1 (grid0.coords t) → cfg0.idle 3 (grid0.coords t) = false := by decide +kernel

/-! ## The memrefs the body is called with -/

/-- Each window's current staging memref at point t, spelled as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the call's own, passed beside the windows. -/
abbrev scM0 : Memref sig .tc .vmem S1024x1024 .f32 := Memref.whole cc0_scratch0

/-! ## The class invariant, split at the accumulator -/

/-- Everything the class invariant holds besides the accumulator: the core's other scoped buffers that are no
    staging buffer of this call (the other calls' staging buffers and accumulators), each at some contents, and the
    generator register at some state. The body touches none of it. -/
def rest0 (c : Dev nD) : sProp 𝕄 :=
  iprop(Pipeline.scopedRestBut (Ix := Unit) (Name := ℕ) (U := UR sig nD τ) (Lvl := ℕ) (Val := Elt F) spec0 c [cc0_scratch0]
    ∗ ∃ r, prngReg c r)

/-- The class invariant is the accumulator at some contents beside the rest. -/
theorem PhiA0_eq (c : Dev nD) :
    (Pipeline.ΦA spec0 c : sProp 𝕄) = iprop((∃ d, owns (c : Thread nD τ) scM0 fullShare d) ∗ rest0 c) := by
  unfold Pipeline.ΦA rest0
  rw [Pipeline.scopedRest_split_of_list spec0 c [cc0_scratch0] (by decide) (by decide)]
  simp only [scM0, owns_whole, bigSepL_singleton]
  exact Entails.antisymm Idealize.SL.BI.sep_assoc Idealize.SL.BI.sep_assoc'

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds the window's block at every point, whether the pipeline fetched it at this
    point or kept it from the one before (then the block index has not moved): for any proof data whose array is
    V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias block is fetched only when the contraction restarts; between restarts its index stands still. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.R0Body.lean ====
import proofs.«125502_j49297634623952_2_alg».proof.Proof.R0Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the kernel body, run once per control case

On whole staging memrefs the body is run symbolically; what its stores leave in the accumulator and in the
output buffer comes out as a list of written pieces, and a covering list of pieces reads back as one function. -/

set_option maxHeartbeats 1000000 in
/-- A MIDDLE contraction step (neither conditional taken): the body loads the accumulator and the two operand
    blocks and stores the accumulator plus their product; the bias block and the output buffer are handed back as
    found. The accumulator's written pieces are the witness the run finds. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, fun xi3 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The FIRST contraction step (first conditional taken, second not): the body zeroes the accumulator, reads the
    zeros back, and stores zero plus the product of the two operand blocks; bias block and output buffer are handed
    back as found; the accumulator may start at anything. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, fun xi3 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The LAST contraction step (second conditional taken, first not): the body accumulates as in a middle step, then
    loads the accumulator and the bias block and stores their sum, rounded to the output format, over the whole
    output buffer, which may start at anything. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What the pieces read back as -/

/-- The stores of this kernel go through the whole-buffer rectangle at offset zero. -/
theorem hz0 : (![0, 0] : Fin 2 → ℕ) = fun _ => 0 := by
  funext a; fin_cases a <;> rfl

set_option maxHeartbeats 1000000 in
/-- After a middle step the accumulator reads as the step's payload at what it held and the two operand blocks. -/
theorem scr0_B_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32)
    (f : arg7.view.ty.Contents (Elt F)) :
    arg7.view.read (Elt F) (arg7.view.writes (Elt F) f (kernelRun0_B c i arg3 harg3 arg4 harg4 arg5 harg5 arg6 harg6 arg7 harg7 hc0 hc1 x0 x1 x2 xs0).1) = k0_pay2 xs0 x0 x1 := by
  rw [View.read_writes_eq_canon _ _ _ (View.cover_of_tiledL _ S1024x1024.size (by sl_kernel_rfl))]
  unfold kernelRun0_B; dsimp only
  rw [View.canon_unit_zero hz0]
  simp only [View.readAt_eq_ld, Memref.IsWhole.read_unread, View.ld_unit_zero (S := S1024x1024) hz0]

set_option maxHeartbeats 1000000 in
/-- After the first step the accumulator reads as the step's payload at zero and the two operand blocks: the load
    that follows the zeroing store reads the zeros back. -/
theorem scr0_A_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32)
    (f : arg7.view.ty.Contents (Elt F)) :
    arg7.view.read (Elt F) (arg7.view.writes (Elt F) f (kernelRun0_A c i arg3 harg3 arg4 harg4 arg5 harg5 arg6 harg6 arg7 harg7 hc0 hc1 x0 x1 x2).1) = k0_pay2 (k0_pay1 (F := F)) x0 x1 := by
  rw [View.read_writes_eq_canon _ _ _ (View.cover_of_tiledL _ S1024x1024.size (by sl_kernel_rfl))]
  unfold kernelRun0_A; dsimp only
  sl_unfold_run_names
  rw [View.canon_cons_unit_zero hz0]
  simp only [View.readAt_eq_ld, Memref.IsWhole.read_unread, View.ld_unit_zero (S := S1024x1024) hz0]
  exact congrArg (fun a => k0_pay2 a x0 x1) (View.readCov_unit_zero (S := S1024x1024) arg7.view hz0 _ _)

set_option maxHeartbeats 1000000 in
/-- After the last step the accumulator reads as after a middle step, -/
theorem scr0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32)
    (f : arg7.view.ty.Contents (Elt F)) :
    arg7.view.read (Elt F) (arg7.view.writes (Elt F) f (kernelRun0_C c i arg3 harg3 arg4 harg4 arg5 harg5 arg6 harg6 arg7 harg7 hc0 hc1 x0 x1 x2 xs0).2.1) = k0_pay2 xs0 x0 x1 := by
  rw [View.read_writes_eq_canon _ _ _ (View.cover_of_tiledL _ S1024x1024.size (by sl_kernel_rfl))]
  unfold kernelRun0_C; dsimp only
  sl_unfold_run_names
  rw [View.canon_unit_zero hz0]
  simp only [View.readAt_eq_ld, Memref.IsWhole.read_unread, View.ld_unit_zero (S := S1024x1024) hz0]

set_option maxHeartbeats 1000000 in
/-- and the output buffer as the output payload at the new accumulator and the bias block. -/
theorem out0_C_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32)
    (f : arg6.view.ty.Contents (Elt F)) :
    arg6.view.read (Elt F) (arg6.view.writes (Elt F) f (kernelRun0_C c i arg3 harg3 arg4 harg4 arg5 harg5 arg6 harg6 arg7 harg7 hc0 hc1 x0 x1 x2 xs0).1) = k0_pay3 (k0_pay2 xs0 x0 x1) x2 := by
  rw [View.read_writes_eq_canon _ _ _ (View.cover_of_tiledL _ S1024x1024.size (by sl_kernel_rfl))]
  unfold kernelRun0_C; dsimp only
  sl_unfold_run_names
  rw [View.canon_unit_zero hz0]
  simp only [View.readAt_eq_ld, Memref.IsWhole.read_unread, View.ld_unit_zero (S := S1024x1024) hz0, View.ld_unit_zero (S := S1x1024) hz0]
  exact congrArg (fun a => k0_pay3 a x2) (View.readCov_unit_zero (S := S1024x1024) arg7.view hz0 _ _)

end Cert.KernelIdeal.Hand

end
-- ==== Proof.R0Dat.lean ====
import proofs.«125502_j49297634623952_2_alg».proof.Proof.R0Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the proof data and the body obligation

The accumulator is carried from one grid point to the next, so the region's invariant names what it holds:
after position n, the partial sum of the products of the operand blocks since the last restart of the contraction. -/

/-- The accumulator after the body at position n: restarted from zero at a first contraction step, else one more
    step on what the point before left. -/
def acc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn => if (n + 1) % 4 = 0 then k0_pay2 (k0_pay1 (F := F)) (iblk0 V c 0 ⟨n + 1, hn⟩) (iblk0 V c 1 ⟨n + 1, hn⟩)
                 else k0_pay2 (acc0 c n (Nat.lt_of_succ_lt hn)) (iblk0 V c 0 ⟨n + 1, hn⟩) (iblk0 V c 1 ⟨n + 1, hn⟩)

/-- At a first contraction step the accumulator restarts. -/
theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rfl
  | succ n => exact if_pos h0

/-- At any other step it takes one more product onto what the point before left. -/
theorem acc0_next (c : Dev nD) (t : Fin cfg0.N) (h0 : ¬t.val % 4 = 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-- The invariant before position n: the class's before the first point; afterwards the accumulator at what the
    point before left, beside everything else the class's invariant holds. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 c) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 c) := by
  cases n with
  | zero => exact absurd rfl hz
  | succ n => rfl

/-! ## The proof data -/

/-- The region's proof data on core c: the arrays as the region finds them; after the body each input's buffer at
    its block, the output's at the output payload of the accumulator and the bias block (consulted only where the
    output is live: at the last contraction step); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position modulo 4 says which control
    case it is in; the invariant hands the body the accumulator (at anything before the first point, else at what the
    point before left) and takes it back at this point's value; away from the last contraction step the output
    buffer is handed back untouched, at the last step it holds the output payload. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 16 := lt_of_lt_of_eq t.isLt (show cfg0.N = 16 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [acc0_first V c t h0]
    by_cases hz : t.val = 0
    · rw [PhiS0_castSucc V c t, PhiS0_zero V c _ _ hz, PhiA0_eq]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact scr0_A_eq c _ _ _ _ _ _ _ _ _ _ _ _ _ _ _ _ _
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ hc0 hc1 (iblk0 V c 0 t) (iblk0 V c 1 t) (iblk0 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact scr0_A_eq c _ _ _ _ _ _ _ _ _ _ _ _ _ _ _ _ _
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond0_0 (grid0.coords t) := fun h => h0 ((hcond0_0 t).mp h)
    rw [acc0_next V c t h0]
    rw [PhiS0_castSucc V c t, PhiS0_pos V c _ _ hz]
    by_cases h1 : t.val % 4 = 3
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3, acc0_next V c t h0]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact scr0_C_eq c _ _ _ _ _ _ _ _ _ _ _ _ _ _ _ _ _ _
        iexact Hg
      isplitl [Ho]; · iexact Ho
      isplitl [H0]; · iexact H0
      isplitl [H1]; · iexact H1
      isplitl [H2]; · iexact H2
      unfold owns; iexists _; isplitr
      swap; · iexact H3
      ipureintro; exact out0_C_eq c _ _ _ _ _ _ _ _ _ _ _ _ _ _ _ _ _ _
    · have hc1 : ¬cond0_1 (grid0.coords t) := fun h => h1 ((hcond0_1 t).mp h)
      rw [Dat.leavesExact_idle (dat0 V c) 3 t (idleAt0_3 t hc1) (noFlush0_3 t hc1)]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk0 V c 0 t) (iblk0 V c 1 t) (iblk0 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact scr0_B_eq c _ _ _ _ _ _ _ _ _ _ _ _ _ _ _ _ _ _
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point but the first the invariant gives the class's back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.R1Kit.lean ====
/- Region 1 (the masked matmul call, grid 1 × 8 × 4): what the three control cases of its body
   share. The body zeroes its f32 accumulator at the first step of a reduction (k = 0), adds one
   product x·(w ∘ mask) at every step, and at the last step (k = 3) writes accumulator + bias,
   rounded to bf16, to the output block. Here: the two branch conditions in closed form over the
   32 grid points, where the output window is idle, the staging memrefs a point runs on, the
   blocks the input windows hold, and the region invariant with the accumulator split off. -/
import proofs.«125502_j49297634623952_2_alg».proof.Proof.Gen.KernelIdeal.Launch
import proofs.«125502_j49297634623952_2_alg».proof.Proof.Gen.KernelIdeal.Skeleton
import proofs.«125502_j49297634623952_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- window w's block at point t, read off its array as the region finds it -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's buffer holds its block at every point: it is an input no point leaves idle, its
    body leaves the block in place, and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the w window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the bias window, which is fetched only at the first step of each reduction: at the
    other steps its block index (the output column block) is the one of the step before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- "This is the first step of a reduction": the body's test k = 0 on the third grid coordinate, as
    the body computes it. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last step of a reduction": the body's test k = 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first step that is not a last one the body stores nothing into the output block, -/
theorem idleAt1_3_A : ∀ t : Fin cfg1.N, cond1_0 (grid1.coords t) → ¬cond1_1 (grid1.coords t) → cfg1.idle 3 (grid1.coords t) = true := by decide +kernel
/-- and the pipeline does not write the block back there. -/
theorem noFlush1_3_A : ∀ t : Fin cfg1.N, cond1_0 (grid1.coords t) → ¬cond1_1 (grid1.coords t) → (cfg1.win 3).flush t = false := by decide +kernel
/-- Likewise at a step that is neither first nor last. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last step the output block is stored: the window is live. -/
theorem liveAt1_3_C : ∀ t : Fin cfg1.N, ¬cond1_0 (grid1.coords t) → cond1_1 (grid1.coords t) → cfg1.idle 3 (grid1.coords t) = false := by decide +kernel

/-! ## The memrefs a point runs on -/

/-- Each window's current staging memref at point t, spelled as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the call's own, passed beside the windows. -/
abbrev scM1 : Memref sig .tc .vmem S1024x1024 .f32 := Memref.whole cc1_scratch0

/-! ## The region invariant with the accumulator split off -/

/-- the core's scoped buffers that are neither a staging buffer of this call nor its accumulator
    (the other two calls' staging buffers and accumulators), at some contents each -/
abbrev rest1 (c : Dev nD) : sProp 𝕄 :=
  Pipeline.scopedRestBut (Ix := Unit) (Name := ℕ) (U := UR sig nD τ) (Lvl := ℕ) (Val := Elt F) spec1 c [cc1_scratch0]

/-- What the launch hands the region: the accumulator at some contents, the other scoped buffers,
    and the generator register at some state. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole, bigSepL]; try rfl

end Cert.KernelIdeal.Hand

end
-- ==== Proof.R1Body.lean ====
/- Region 1: the body's triple in each of its three control cases, with what it leaves named.
   On whole staging memrefs holding the x block, the w block and the bias block, and the
   accumulator at a, one call of the body leaves the inputs as they were and the accumulator at
   a' = step a, where step a is the accumulation payload of (w block, a, x block); at a first step
   the accumulator is zeroed before it is read, so a is the zero payload whatever it held; at a
   last step the output block is left at the output payload of (a', bias block); elsewhere the
   output's buffer is handed back untouched. Every load and store of the body is through the
   whole rectangle of its buffer, so a load reads the contents and a store leaves its payload. -/
import proofs.«125502_j49297634623952_2_alg».proof.Proof.R1Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-rectangle loads and stores -/

/-- The zero offsets of a rank-2 rectangle, as the function the library's lemmas ask for. -/
theorem off2_zero : (![0, 0] : Fin 2 → Nat) = fun _ => 0 := by
  funext a; fin_cases a <;> rfl

section Whole

variable {κ : Kind} {sp : Space} {S : Shape} {e : EltTy}

/-- A load through the whole rectangle reads the buffer's contents. -/
theorem readAt_whole (v : View sig κ sp S e) (f : v.ty.Contents (Elt F)) {off : Fin S.rank → Nat} (h : off = fun _ => 0)
    (inb : ∀ a, off a + S.size a ≤ S.size a) :
    v.readAt (Elt F) (Rect.unit off S.size inb).toLoadRect f = v.read (Elt F) f := by
  rw [View.readAt_eq_ld, View.ld_unit_zero h]

/-- A store through the whole rectangle, made last, leaves its payload. -/
theorem read_store_whole (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-- A load through the whole rectangle after such a store reads the payload. -/
theorem readCov_store_whole (v : View sig κ sp S e) {off : Fin S.rank → Nat} (h : off = fun _ => 0)
    (inb : ∀ a, off a + S.size a ≤ S.size a) (w : S.Idx → Elt F e) (L : List (View.Piece (Elt F) S e)) :
    v.readCov (⟨Rect.unit off S.size inb, w⟩ :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-! ## The three cases -/

set_option maxHeartbeats 1000000 in
/-- A first step (not a last one): the accumulator, whatever it held, ends at one step from zero;
    the output's buffer is handed back as found. -/
theorem run1_A (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (xi3 : Vec F S1024x1024 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (k1_pay1 (k1_pay4 i) (k1_pay5 i) 16#32 (k1_pay6 i) (k1_pay7 i) (k1_pay8 i) x1 (k1_pay3 (F := F)) x0)) -∗ K ⟨⟩))
      ⊢ wp frame (wpE (defs₀ (F := F)) Variants.none c none) E (cc1__mm_mask2_kernel i arg3 harg3 arg4 harg4 arg5 harg5 arg6 harg6 arg7 harg7) K := by
  simp only [cc1__mm_mask2_kernel_eq_skeleton]; unfold cc1__mm_mask2_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds, %fs, -, HS⟩, Hk⟩
  subst hf0 hf1 hf2 hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [read_store_whole arg7.view fs off2_zero, readCov_store_whole arg7.view off2_zero,
    readAt_whole arg4.view f1 off2_zero, readAt_whole arg3.view f0 off2_zero]

set_option maxHeartbeats 1000000 in
/-- A step that is neither first nor last: the accumulator moves one step; the output's buffer is
    handed back as found. -/
theorem run1_B (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xi3 : Vec F S1024x1024 .bf16) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (k1_pay1 (k1_pay4 i) (k1_pay5 i) 16#32 (k1_pay6 i) (k1_pay7 i) (k1_pay8 i) x1 xs x0)) -∗ K ⟨⟩))
      ⊢ wp frame (wpE (defs₀ (F := F)) Variants.none c none) E (cc1__mm_mask2_kernel i arg3 harg3 arg4 harg4 arg5 harg5 arg6 harg6 arg7 harg7) K := by
  simp only [cc1__mm_mask2_kernel_eq_skeleton]; unfold cc1__mm_mask2_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_store_whole arg7.view fs off2_zero, readAt_whole arg4.view f1 off2_zero,
    readAt_whole arg7.view fs off2_zero, readAt_whole arg3.view f0 off2_zero]

set_option maxHeartbeats 1000000 in
/-- A last step (not a first one): the accumulator moves one step, and the output block is left
    at the output payload of the new accumulator and the bias block. -/
theorem run1_C (c : Dev nD) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs : Vec F S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay2 (k1_pay1 (k1_pay4 i) (k1_pay5 i) 16#32 (k1_pay6 i) (k1_pay7 i) (k1_pay8 i) x1 xs x0) x2)
            ∗ owns (c : Thread nD τ) arg7 fullShare (k1_pay1 (k1_pay4 i) (k1_pay5 i) 16#32 (k1_pay6 i) (k1_pay7 i) (k1_pay8 i) x1 xs x0)) -∗ K ⟨⟩))
      ⊢ wp frame (wpE (defs₀ (F := F)) Variants.none c none) E (cc1__mm_mask2_kernel i arg3 harg3 arg4 harg4 arg5 harg5 arg6 harg6 arg7 harg7) K := by
  simp only [cc1__mm_mask2_kernel_eq_skeleton]; unfold cc1__mm_mask2_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs, %hfs, HS⟩, Hk⟩
  subst hf0 hf1 hf2 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_store_whole arg6.view f3 off2_zero, readCov_store_whole arg7.view off2_zero,
      readAt_whole arg4.view f1 off2_zero, readAt_whole arg7.view fs off2_zero,
      readAt_whole arg3.view f0 off2_zero, readAt_whole arg5.view f2 off2_zero]
  iexists _; isplitr
  swap; · iexact HS
  ipureintro
  sl_unfold_run_names
  rw [read_store_whole arg7.view fs off2_zero, readAt_whole arg4.view f1 off2_zero,
    readAt_whole arg7.view fs off2_zero, readAt_whole arg3.view f0 off2_zero]

end Cert.KernelIdeal.Hand

end
-- ==== Proof.R1Dat.lean ====
/- Region 1: the pipeline's proof data and its body obligation. The accumulator after the
   body at grid position n is defined by recursion on n: at the first step of a reduction
   (n ≡ 0 mod 4) one accumulation step from the zero block, otherwise one step from what position
   n - 1 left. The region invariant carries the accumulator at that value from one point to the
   next; the three inputs' buffers hold their blocks at every point; the output's buffer holds,
   after a last step (n ≡ 3 mod 4), the output payload of the accumulator and the bias block, and
   is idle elsewhere. The body obligation is the case split first / middle / last step, each case
   one of the three triples of the body. -/
import proofs.«125502_j49297634623952_2_alg».proof.Proof.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The accumulator, point by point -/

/-- the accumulator (scratch arg7) after the body at position n: restarted from zero at a first k, else one more step on what the point before left -/
def acc1 (c : Dev nD) : (n : ℕ) → n < cfg1.N → Vec F S1024x1024 .f32
  | 0, hn => k1_pay1 (k1_pay4 (grid1.coords ⟨0, hn⟩)) (k1_pay5 (grid1.coords ⟨0, hn⟩)) 16#32 (k1_pay6 (grid1.coords ⟨0, hn⟩)) (k1_pay7 (grid1.coords ⟨0, hn⟩)) (k1_pay8 (grid1.coords ⟨0, hn⟩)) (iblk1 V c 1 ⟨0, hn⟩) (k1_pay3 (F := F)) (iblk1 V c 0 ⟨0, hn⟩)
  | n + 1, hn => if (n + 1) % 4 = 0 then k1_pay1 (k1_pay4 (grid1.coords ⟨n + 1, hn⟩)) (k1_pay5 (grid1.coords ⟨n + 1, hn⟩)) 16#32 (k1_pay6 (grid1.coords ⟨n + 1, hn⟩)) (k1_pay7 (grid1.coords ⟨n + 1, hn⟩)) (k1_pay8 (grid1.coords ⟨n + 1, hn⟩)) (iblk1 V c 1 ⟨n + 1, hn⟩) (k1_pay3 (F := F)) (iblk1 V c 0 ⟨n + 1, hn⟩)
                 else k1_pay1 (k1_pay4 (grid1.coords ⟨n + 1, hn⟩)) (k1_pay5 (grid1.coords ⟨n + 1, hn⟩)) 16#32 (k1_pay6 (grid1.coords ⟨n + 1, hn⟩)) (k1_pay7 (grid1.coords ⟨n + 1, hn⟩)) (k1_pay8 (grid1.coords ⟨n + 1, hn⟩)) (iblk1 V c 1 ⟨n + 1, hn⟩) (acc1 c n (Nat.lt_of_succ_lt hn)) (iblk1 V c 0 ⟨n + 1, hn⟩)

/-- At a first step: one step from zero. -/
theorem acc1_first (c : Dev nD) (t : Fin cfg1.N) (h0 : t.val % 4 = 0) :
    acc1 V c t.val t.isLt = k1_pay1 (k1_pay4 (grid1.coords t)) (k1_pay5 (grid1.coords t)) 16#32 (k1_pay6 (grid1.coords t)) (k1_pay7 (grid1.coords t)) (k1_pay8 (grid1.coords t)) (iblk1 V c 1 t) (k1_pay3 (F := F)) (iblk1 V c 0 t) := by
  obtain ⟨n, hn⟩ := t
  cases n with
  | zero => exact rfl
  | succ n => exact (if_pos h0).trans rfl

/-- At any other step: one step from what the point before left. -/
theorem acc1_next (c : Dev nD) (t : Fin cfg1.N) (h0 : ¬t.val % 4 = 0) :
    acc1 V c t.val t.isLt = k1_pay1 (k1_pay4 (grid1.coords t)) (k1_pay5 (grid1.coords t)) 16#32 (k1_pay6 (grid1.coords t)) (k1_pay7 (grid1.coords t)) (k1_pay8 (grid1.coords t)) (iblk1 V c 1 t) (acc1 V c (t.val - 1) (Nat.lt_of_le_of_lt (Nat.sub_le _ _) t.isLt)) (iblk1 V c 0 t) := by
  obtain ⟨n, hn⟩ := t
  cases n with
  | zero => exact (by exfalso; (try dsimp only at h0); exact absurd (Nat.zero_mod _) h0)
  | succ n => exact (if_neg h0).trans rfl

/-! ## The region invariant -/

/-- the invariant before position n: the class's ΦA before the first point, afterwards the scratch at the accumulator the point before left, the other scoped buffers at some contents, and the generator register at some state -/
def PhiS1 (c : Dev nD) : (n : ℕ) → n ≤ cfg1.N → sProp 𝕄
  | 0, _ => Pipeline.ΦA spec1 c
  | n + 1, hn => iprop(iprop(owns (c : Thread nD τ) (Memref.whole cc1_scratch0) fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's value. -/
theorem PhiS1_succ (c : Dev nD) (n : ℕ) (hn : n < cfg1.N) :
    PhiS1 V c (n + 1) hn = iprop(iprop(owns (c : Thread nD τ) (Memref.whole cc1_scratch0) fullShare (acc1 V c n hn) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) (Memref.whole cc1_scratch0) fullShare (acc1 V c (n - 1) (by omega)) ∗ rest1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay2 (acc1 V c t.val t.isLt) (iblk1 V c 2 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay2 (acc1 V c t.val t.isLt) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the position's residue mod 4
    says which case the point is in; the invariant hands the body the accumulator at what the
    point before left (at anything before the first point) and takes it back at this point's
    value; the other scoped buffers, the generator register and the core's owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [acc1_first V c t h0]
      by_cases hz : t.val = 0
      · rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, HR⟩, Hg⟩, Ho, ⟨%d0, H0⟩, ⟨%d1, H1⟩, ⟨%d2, H2⟩, ⟨%d3, H3⟩⟩
        iapply (run1_A c (grid1.coords t) _ _ _ _ _ _ _ _ _ _ ((hcond1_0 t).mpr h0) (fun h => h1 ((hcond1_1 t).mp h)) (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS HR Hg]
        · isplitl [HS HR]
          · isplitl [HS]; · iexact HS
            iexact HR
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.R2Kit.lean ====
import proofs.«125502_j49297634623952_2_alg».proof.Proof.Gen.KernelIdeal.Launch
import proofs.«125502_j49297634623952_2_alg».proof.Proof.Gen.KernelIdeal.Skeleton
import proofs.«125502_j49297634623952_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: what the body's runs and the proof data share

The kernel of custom_call 2 is a matrix product blocked along the contraction axis: the grid is
(i, j, k) with k innermost, the accumulator lives in a scratch buffer that is zeroed at k = 0,
receives one partial product per point, and is written out with the bias added and the negative part cut off at the last k. -/

/-! ## The two branch conditions, in closed form over the grid -/

/-- The first conditional (zero the accumulator): the contraction coordinate is 0. -/
abbrev cond2_0 (i : grid2.Coords) : Prop :=
  (Scalar.cmpi .ne (Scalar.extui (Scalar.cmpi .eq (BitVec.ofNat 32 (i 2).val) 0#32)) 0#32) = 1#1
/-- It holds exactly at the linear positions ≡ 0 (mod 8): the contraction axis is innermost, of extent 8. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional (write the output block): the contraction coordinate is the last one. -/
abbrev cond2_1 (i : grid2.Coords) : Prop := k2_cond2 i = 1#1
/-- It holds exactly at the positions ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are live -/

/-- The three inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output is idle away from the last contraction step: nothing is stored into it there, -/
theorem idleAt2_3 : ∀ t : Fin cfg2.N, ¬cond2_1 (grid2.coords t) → cfg2.idle 3 (grid2.coords t) = true := by decide +kernel
/-- and its block is not written back there; -/
theorem noFlush2_3 : ∀ t : Fin cfg2.N, ¬cond2_1 (grid2.coords t) → (cfg2.win 3).flush t = false := by decide +kernel
/-- at the last contraction step it is live. -/
theorem liveAt2_3 : ∀ t : Fin cfg2.N, cond2_1 (grid2.coords t) → cfg2.idle 3 (grid2.coords t) = false := by decide +kernel

/-! ## The memrefs the body is called with -/

/-- Each window's current staging memref at point t, spelled as the pipeline passes it, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
/-- The accumulator: a whole scoped buffer of the call's own, passed beside the windows. -/
abbrev scM2 : Memref sig .tc .vmem S1024x1024 .f32 := Memref.whole cc2_scratch0

/-! ## The class invariant, split at the accumulator -/

/-- Everything the class invariant holds besides the accumulator: the core's other scoped buffers that are no
    staging buffer of this call (the other calls' staging buffers and accumulators), each at some contents, and the
    generator register at some state. The body touches none of it. -/
def rest2 (c : Dev nD) : sProp 𝕄 :=
  iprop(Pipeline.scopedRestBut (Ix := Unit) (Name := ℕ) (U := UR sig nD τ) (Lvl := ℕ) (Val := Elt F) spec2 c [cc2_scratch0]
    ∗ ∃ r, prngReg c r)

/-- The class invariant is the accumulator at some contents beside the rest. -/
theorem PhiA2_eq (c : Dev nD) :
    (Pipeline.ΦA spec2 c : sProp 𝕄) = iprop((∃ d, owns (c : Thread nD τ) scM2 fullShare d) ∗ rest2 c) := by
  unfold Pipeline.ΦA rest2
  rw [Pipeline.scopedRest_split_of_list spec2 c [cc2_scratch0] (by decide) (by decide)]
  simp only [scM2, owns_whole, bigSepL_singleton]
  exact Entails.antisymm Idealize.SL.BI.sep_assoc Idealize.SL.BI.sep_assoc'

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current staging buffer holds the window's block at every point, whether the pipeline fetched it at this
    point or kept it from the one before (then the block index has not moved): for any proof data whose array is
    V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias block is fetched only when the contraction restarts; between restarts its index stands still. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Cert.KernelIdeal.Hand

end
-- ==== Proof.R2Body.lean ====
import proofs.«125502_j49297634623952_2_alg».proof.Proof.R2Kit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the kernel body, run once per control case

On whole staging memrefs the body is run symbolically; what its stores leave in the accumulator and in the
output buffer comes out as a list of written pieces, and a covering list of pieces reads back as one function. -/

set_option maxHeartbeats 1000000 in
/-- A MIDDLE contraction step (neither conditional taken): the body loads the accumulator and the two operand
    blocks and stores the accumulator plus their product; the bias block and the output buffer are handed back as
    found. The accumulator's written pieces are the witness the run finds. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The FIRST contraction step (first conditional taken, second not): the body zeroes the accumulator, reads the
    zeros back, and stores zero plus the product of the two operand blocks; bias block and output buffer are handed
    back as found; the accumulator may start at anything. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, fun xi3 E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- The LAST contraction step (second conditional taken, first not): the body accumulates as in a middle step, then
    loads the accumulator and the bias block and stores the positive part of their sum, rounded to the output format, over the whole
    output buffer, which may start at anything. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What the pieces read back as -/

/-- The stores of this kernel go through the whole-buffer rectangle at offset zero. -/
theorem hz2 : (![0, 0] : Fin 2 → ℕ) = fun _ => 0 := by
  funext a; fin_cases a <;> rfl

set_option maxHeartbeats 1000000 in
/-- After a middle step the accumulator reads as the step's payload at what it held and the two operand blocks. -/
theorem scr2_B_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32)
    (f : arg7.view.ty.Contents (Elt F)) :
    arg7.view.read (Elt F) (arg7.view.writes (Elt F) f (kernelRun2_B c i arg3 harg3 arg4 harg4 arg5 harg5 arg6 harg6 arg7 harg7 hc0 hc1 x0 x1 x2 xs0).1) = k2_pay2 xs0 x0 x1 := by
  rw [View.read_writes_eq_canon _ _ _ (View.cover_of_tiledL _ S1024x1024.size (by sl_kernel_rfl))]
  unfold kernelRun2_B; dsimp only
  rw [View.canon_unit_zero hz2]
  simp only [View.readAt_eq_ld, Memref.IsWhole.read_unread, View.ld_unit_zero (S := S1024x1024) hz2]

set_option maxHeartbeats 1000000 in
/-- After the first step the accumulator reads as the step's payload at zero and the two operand blocks: the load
    that follows the zeroing store reads the zeros back. -/
theorem scr2_A_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32)
    (f : arg7.view.ty.Contents (Elt F)) :
    arg7.view.read (Elt F) (arg7.view.writes (Elt F) f (kernelRun2_A c i arg3 harg3 arg4 harg4 arg5 harg5 arg6 harg6 arg7 harg7 hc0 hc1 x0 x1 x2).1) = k2_pay2 (k2_pay1 (F := F)) x0 x1 := by
  rw [View.read_writes_eq_canon _ _ _ (View.cover_of_tiledL _ S1024x1024.size (by sl_kernel_rfl))]
  unfold kernelRun2_A; dsimp only
  sl_unfold_run_names
  rw [View.canon_cons_unit_zero hz2]
  simp only [View.readAt_eq_ld, Memref.IsWhole.read_unread, View.ld_unit_zero (S := S1024x1024) hz2]
  exact congrArg (fun a => k2_pay2 a x0 x1) (View.readCov_unit_zero (S := S1024x1024) arg7.view hz2 _ _)

set_option maxHeartbeats 1000000 in
/-- After the last step the accumulator reads as after a middle step, -/
theorem scr2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32)
    (f : arg7.view.ty.Contents (Elt F)) :
    arg7.view.read (Elt F) (arg7.view.writes (Elt F) f (kernelRun2_C c i arg3 harg3 arg4 harg4 arg5 harg5 arg6 harg6 arg7 harg7 hc0 hc1 x0 x1 x2 xs0).2.1) = k2_pay2 xs0 x0 x1 := by
  rw [View.read_writes_eq_canon _ _ _ (View.cover_of_tiledL _ S1024x1024.size (by sl_kernel_rfl))]
  unfold kernelRun2_C; dsimp only
  sl_unfold_run_names
  rw [View.canon_unit_zero hz2]
  simp only [View.readAt_eq_ld, Memref.IsWhole.read_unread, View.ld_unit_zero (S := S1024x1024) hz2]

set_option maxHeartbeats 1000000 in
/-- and the output buffer as the output payload at the new accumulator and the bias block. -/
theorem out2_C_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32)
    (f : arg6.view.ty.Contents (Elt F)) :
    arg6.view.read (Elt F) (arg6.view.writes (Elt F) f (kernelRun2_C c i arg3 harg3 arg4 harg4 arg5 harg5 arg6 harg6 arg7 harg7 hc0 hc1 x0 x1 x2 xs0).1) = k2_pay3 (k2_pay2 xs0 x0 x1) x2 := by
  rw [View.read_writes_eq_canon _ _ _ (View.cover_of_tiledL _ S1024x1024.size (by sl_kernel_rfl))]
  unfold kernelRun2_C; dsimp only
  sl_unfold_run_names
  rw [View.canon_unit_zero hz2]
  simp only [View.readAt_eq_ld, Memref.IsWhole.read_unread, View.ld_unit_zero (S := S1024x1024) hz2, View.ld_unit_zero (S := S1x1024) hz2]
  exact congrArg (fun a => k2_pay3 a x2) (View.readCov_unit_zero (S := S1024x1024) arg7.view hz2 _ _)

end Cert.KernelIdeal.Hand

end
-- ==== Proof.R2Dat.lean ====
import proofs.«125502_j49297634623952_2_alg».proof.Proof.R2Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the proof data and the body obligation

The accumulator is carried from one grid point to the next, so the region's invariant names what it holds:
after position n, the partial sum of the products of the operand blocks since the last restart of the contraction. -/

/-- The accumulator after the body at position n: restarted from zero at a first contraction step, else one more
    step on what the point before left. -/
def acc2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn => if (n + 1) % 8 = 0 then k2_pay2 (k2_pay1 (F := F)) (iblk2 V c 0 ⟨n + 1, hn⟩) (iblk2 V c 1 ⟨n + 1, hn⟩)
                 else k2_pay2 (acc2 c n (Nat.lt_of_succ_lt hn)) (iblk2 V c 0 ⟨n + 1, hn⟩) (iblk2 V c 1 ⟨n + 1, hn⟩)

/-- At a first contraction step the accumulator restarts. -/
theorem acc2_first (c : Dev nD) (t : Fin cfg2.N) (h0 : t.val % 8 = 0) :
    acc2 V c t.val t.isLt = k2_pay2 (k2_pay1 (F := F)) (iblk2 V c 0 t) (iblk2 V c 1 t) := by
  obtain ⟨n, hn⟩ := t
  cases n with
  | zero => rfl
  | succ n => exact if_pos h0

/-- At any other step it takes one more product onto what the point before left. -/
theorem acc2_next (c : Dev nD) (t : Fin cfg2.N) (h0 : ¬t.val % 8 = 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-- The invariant before position n: the class's before the first point; afterwards the accumulator at what the
    point before left, beside everything else the class's invariant holds. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ rest2 c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (acc2 V c n hn) ∗ rest2 c) := rfl

theorem PhiS2_pos (c : Dev nD) (n : ℕ) (h : n ≤ cfg2.N) (hz : n ≠ 0) :
    PhiS2 V c n h = iprop(owns (c : Thread nD τ) scM2 fullShare (acc2 V c (n - 1) (by omega)) ∗ rest2 c) := by
  cases n with
  | zero => exact absurd rfl hz
  | succ n => rfl

/-! ## The proof data -/

/-- The region's proof data on core c: the arrays as the region finds them; after the body each input's buffer at
    its block, the output's at the output payload of the accumulator and the bias block (consulted only where the
    output is live: at the last contraction step); the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (acc2 V c t.val t.isLt) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position modulo 8 says which control
    case it is in; the invariant hands the body the accumulator (at anything before the first point, else at what the
    point before left) and takes it back at this point's value; away from the last contraction step the output
    buffer is handed back untouched, at the last step it holds the output payload. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 16 := lt_of_lt_of_eq t.isLt (show cfg2.N = 16 from N_2)
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [acc2_first V c t h0]
    by_cases hz : t.val = 0
    · rw [PhiS2_castSucc V c t, PhiS2_zero V c _ _ hz, PhiA2_eq]
      iintro ⟨⟨HS0, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact scr2_A_eq c _ _ _ _ _ _ _ _ _ _ _ _ _ _ _ _ _
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨HS0, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg]
      · isplitl [HS0]
        · unfold owns; iexists _; isplitr
          swap; · iexact HS0
          ipureintro; exact scr2_A_eq c _ _ _ _ _ _ _ _ _ _ _ _ _ _ _ _ _
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    rw [acc2_next V c t h0]
    rw [PhiS2_castSucc V c t, PhiS2_pos V c _ _ hz]
    by_cases h1 : t.val % 8 = 7
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3, acc2_next V c t h0]
      iintro ⟨⟨HS0, Hg⟩, Ho, ⟨%d0, H0⟩, ⟨%d1, H1⟩, ⟨%d2, H2⟩, ⟨%d3, H3⟩⟩
      iapply ((kernelRun2_C c (grid2.coords t) _ _ _ _ _ _ _ _ _ _ hc0 hc1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact scr2_C_eq c _ _ _ _ _ _ _ _ _ _ _ _ _ _ _ _ _ _
        iexact Hg
      isplitl [Ho]; · iexact Ho
      isplitl [H0]; · iexact H0
      isplitl [H1]; · iexact H1
      isplitl [H2]; · iexact H2
      unfold owns; iexists _; isplitr
      swap; · iexact H3
      ipureintro; exact out2_C_eq c _ _ _ _ _ _ _ _ _ _ _ _ _ _ _ _ _ _
    · have hc1 : ¬cond2_1 (grid2.coords t) := fun h => h1 ((hcond2_1 t).mp h)
      rw [Dat.leavesExact_idle (dat2 V c) 3 t (idleAt2_3 t hc1) (noFlush2_3 t hc1)]
      iintro ⟨⟨HS0, Hg⟩, Ho, ⟨%d0, H0⟩, ⟨%d1, H1⟩, ⟨%d2, H2⟩, ⟨%d3, H3⟩⟩
      iapply ((kernelRun2_B c (grid2.coords t) _ _ _ _ _ _ _ _ _ _ hc0 hc1 (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact scr2_B_eq c _ _ _ _ _ _ _ _ _ _ _ _ _ _ _ _ _ _
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point but the first the invariant gives the class's back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, Hg⟩
  isplitl [HS0]
  · iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.Fold.lean ====
/- The buffer contents between the segments of the program. Between two segments every unscoped buffer of a core is held
   at a named valuation: `W0` the launch memory, then each stretch of host operations applied to the valuation before it
   (`W1`, `W3`, `W5`, `W7`), and at a region's exit the region's four arrays at what its write-backs leave (`W2`, `W4`, `W6`):
   the inputs as entered, the output at the fold of its flushed blocks. -/
import proofs.«125502_j49297634623952_2_alg».proof.Proof.R0Dat
import proofs.«125502_j49297634623952_2_alg».proof.Proof.R1Dat
import proofs.«125502_j49297634623952_2_alg».proof.Proof.R2Dat
import proofs.«125502_j49297634623952_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => have _ := ρ; m (c, b)
/-- After the host operations before the first region. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host operations `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

end Cert.KernelIdeal.Hand

end
-- ==== Proof.Assemble.lean ====
/- The run of the whole program: the three kernel regions among the four stretches of host operations, as one
   list of segments. Between two segments every unscoped buffer of a core is held at a named valuation `W_j`: the
   launch memory, then each host stretch applied to it, then at a region's exit the region's arrays at what its
   write-backs leave. The program terminates without a fault in a memory that is `W7` on every unscoped buffer. -/
import proofs.«125502_j49297634623952_2_alg».proof.Proof.Fold
import proofs.«125502_j49297634623952_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`. Its
    arrays are split out of the unscoped buffers and put back at what the write-backs leave; the generator register
    and the scoped rest go into the invariant (the accumulator scratch among them) and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := hin0 (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := hout0 (V1 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers and put back at what the write-backs leave; the generator register
    and the scoped rest go into the invariant (the accumulator scratch among them) and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers and put back at what the write-backs leave; the generator register
    and the scoped rest go into the invariant (the accumulator scratch among them) and come back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m ρ 2 c).Φ 0 := hin2 (V5 m ρ) c
    unfold Pipeline.ΦA at h
    iintro ⟨Hp, -, Hr⟩
    iapply h
    isplitl [Hr]; · iexact Hr
    iexact Hp
  hout c := by
    rw [Pipeline.ownSems0_none]
    have h : (pdats m ρ 2 c).Φ (Fin.last _) ⊢ Pipeline.ΦA spec2 c := hout2 (V5 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- Every weakly fair execution of the program from memory `m` terminates, nothing faulting, and the final memory holds
    `W7` on every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.Keep.lean ====
/- No stretch of host operations writes an argument of the program and no region's array is an argument, so
   every valuation of the fold holds every argument as launched; and a buffer that a later region reads but no
   item in between writes holds, where it is read, what the earlier valuation held. -/
import proofs.«125502_j49297634623952_2_alg».proof.Proof.Fold

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## One item at a time: a stretch of host operations keeps what it does not write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## Kept through a prefix of the fold -/

/-- A buffer that the first stretch does not write and that is no array of region 0 holds at region 0's exit what
    was launched. -/
theorem W2_kept (c : Dev nD) (r : Ref sig .tc) (h0 : r ∉ hostOps0_W) (h1 : ∀ w, Pipeline.arrRef spec0 w ≠ r) :
    W2 m ρ c (Proc.devRef .tc r) = m ((c : Thread nD τ).loc r) :=
  (W2_of_ne m ρ c r h1).trans <| (W1_of m ρ c r h0).trans rfl
/-- … and so on through the second stretch, -/
theorem W3_kept (c : Dev nD) (r : Ref sig .tc) (h0 : r ∉ hostOps0_W) (h1 : ∀ w, Pipeline.arrRef spec0 w ≠ r)
    (h2 : r ∉ hostOps1_W) : W3 m ρ c (Proc.devRef .tc r) = m ((c : Thread nD τ).loc r) :=
  (W3_of m ρ c r h2).trans (W2_kept m ρ c r h0 h1)
/-- region 1, -/
theorem W4_kept (c : Dev nD) (r : Ref sig .tc) (h0 : r ∉ hostOps0_W) (h1 : ∀ w, Pipeline.arrRef spec0 w ≠ r)
    (h2 : r ∉ hostOps1_W) (h3 : ∀ w, Pipeline.arrRef spec1 w ≠ r) :
    W4 m ρ c (Proc.devRef .tc r) = m ((c : Thread nD τ).loc r) :=
  (W4_of_ne m ρ c r h3).trans (W3_kept m ρ c r h0 h1 h2)
/-- the third stretch, -/
theorem W5_kept (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W) :
    W5 m ρ c (Proc.devRef .tc r) = m ((c : Thread nD τ).loc r) :=
  (W5_of m ρ c r h4).trans (W4_kept m ρ c r h0 h1 h2 h3)
/-- region 2, -/
theorem W6_kept (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W)
    (h5 : ∀ w, Pipeline.arrRef spec2 w ≠ r) : W6 m ρ c (Proc.devRef .tc r) = m ((c : Thread nD τ).loc r) :=
  (W6_of_ne m ρ c r h5).trans (W5_kept m ρ c r h0 h1 h2 h3 h4)
/-- and the last stretch. -/
theorem W7_kept (c : Dev nD) (r : Ref sig .tc) (h0 : r ∉ hostOps0_W) (h1 : ∀ w, Pipeline.arrRef spec0 w ≠ r)
    (h2 : r ∉ hostOps1_W) (h3 : ∀ w, Pipeline.arrRef spec1 w ≠ r) (h4 : r ∉ hostOps2_W)
    (h5 : ∀ w, Pipeline.arrRef spec2 w ≠ r) (h6 : r ∉ hostOps3_W) :
    W7 m ρ c (Proc.devRef .tc r) = m ((c : Thread nD τ).loc r) :=
  (W7_of m ρ c r h6).trans (W6_kept m ρ c r h0 h1 h2 h3 h4 h5)

/-- A buffer the first stretch prepares for a later region, which region 0 and the second stretch leave alone,
    holds at region 1's entry what the first stretch left. -/
theorem W3_from_W1 (c : Dev nD) (r : Ref sig .tc) (h1 : ∀ w, Pipeline.arrRef spec0 w ≠ r) (h2 : r ∉ hostOps1_W) :
    W3 m ρ c (Proc.devRef .tc r) = W1 m ρ c (Proc.devRef .tc r) :=
  (W3_of m ρ c r h2).trans (W2_of_ne m ρ c r h1)
/-- … and, if region 1 and the third stretch leave it alone too, at region 2's entry. -/
theorem W5_from_W1 (c : Dev nD) (r : Ref sig .tc) (h1 : ∀ w, Pipeline.arrRef spec0 w ≠ r) (h2 : r ∉ hostOps1_W)
    (h3 : ∀ w, Pipeline.arrRef spec1 w ≠ r) (h4 : r ∉ hostOps2_W) :
    W5 m ρ c (Proc.devRef .tc r) = W1 m ρ c (Proc.devRef .tc r) :=
  (W5_of m ρ c r h4).trans <| (W4_of_ne m ρ c r h3).trans (W3_from_W1 m ρ c r h1 h2)

/-! ## The arguments at each valuation the regions and the last stretch read them from -/

/-- `main_arg0` holds its launch contents at every valuation of the fold. -/
theorem W2_main_arg0 (c : Dev nD) : W2 m ρ c (Proc.devRef .tc main_arg0) = m ((c : Thread nD τ).loc main_arg0) :=
  W2_kept m ρ c main_arg0 (by decide) (by decide)
theorem W4_main_arg0 (c : Dev nD) : W4 m ρ c (Proc.devRef .tc main_arg0) = m ((c : Thread nD τ).loc main_arg0) :=
  W4_kept m ρ c main_arg0 (by decide) (by decide) (by decide) (by decide)
theorem W6_main_arg0 (c : Dev nD) : W6 m ρ c (Proc.devRef .tc main_arg0) = m ((c : Thread nD τ).loc main_arg0) :=
  W6_kept m ρ c main_arg0 (by decide) (by decide) (by decide) (by decide) (by decide) (by decide)
theorem W7_main_arg0 (c : Dev nD) : W7 m ρ c (Proc.devRef .tc main_arg0) = m ((c : Thread nD τ).loc main_arg0) :=
  W7_kept m ρ c main_arg0 (by decide) (by decide) (by decide) (by decide) (by decide) (by decide) (by decide)

/-- `main_arg1` holds its launch contents at every valuation of the fold. -/
theorem W2_main_arg1 (c : Dev nD) : W2 m ρ c (Proc.devRef .tc main_arg1) = m ((c : Thread nD τ).loc main_arg1) :=
  W2_kept m ρ c main_arg1 (by decide) (by decide)
theorem W4_main_arg1 (c : Dev nD) : W4 m ρ c (Proc.devRef .tc main_arg1) = m ((c : Thread nD τ).loc main_arg1) :=
  W4_kept m ρ c main_arg1 (by decide) (by decide) (by decide) (by decide)
theorem W6_main_arg1 (c : Dev nD) : W6 m ρ c (Proc.devRef .tc main_arg1) = m ((c : Thread nD τ).loc main_arg1) :=
  W6_kept m ρ c main_arg1 (by decide) (by decide) (by decide) (by decide) (by decide) (by decide)
theorem W7_main_arg1 (c : Dev nD) : W7 m ρ c (Proc.devRef .tc main_arg1) = m ((c : Thread nD τ).loc main_arg1) :=
  W7_kept m ρ c main_arg1 (by decide) (by decide) (by decide) (by decide) (by decide) (by decide) (by decide)

/-- `main_arg2` holds its launch contents at every valuation of the fold. -/
theorem W2_main_arg2 (c : Dev nD) : W2 m ρ c (Proc.devRef .tc main_arg2) = m ((c : Thread nD τ).loc main_arg2) :=
  W2_kept m ρ c main_arg2 (by decide) (by decide)
theorem W4_main_arg2 (c : Dev nD) : W4 m ρ c (Proc.devRef .tc main_arg2) = m ((c : Thread nD τ).loc main_arg2) :=
  W4_kept m ρ c main_arg2 (by decide) (by decide) (by decide) (by decide)
theorem W6_main_arg2 (c : Dev nD) : W6 m ρ c (Proc.devRef .tc main_arg2) = m ((c : Thread nD τ).loc main_arg2) :=
  W6_kept m ρ c main_arg2 (by decide) (by decide) (by decide) (by decide) (by decide) (by decide)
theorem W7_main_arg2 (c : Dev nD) : W7 m ρ c (Proc.devRef .tc main_arg2) = m ((c : Thread nD τ).loc main_arg2) :=
  W7_kept m ρ c main_arg2 (by decide) (by decide) (by decide) (by decide) (by decide) (by decide) (by decide)

/-- `main_arg3` holds its launch contents at every valuation of the fold. -/
theorem W2_main_arg3 (c : Dev nD) : W2 m ρ c (Proc.devRef .tc main_arg3) = m ((c : Thread nD τ).loc main_arg3) :=
  W2_kept m ρ c main_arg3 (by decide) (by decide)
theorem W4_main_arg3 (c : Dev nD) : W4 m ρ c (Proc.devRef .tc main_arg3) = m ((c : Thread nD τ).loc main_arg3) :=
  W4_kept m ρ c main_arg3 (by decide) (by decide) (by decide) (by decide)
theorem W6_main_arg3 (c : Dev nD) : W6 m ρ c (Proc.devRef .tc main_arg3) = m ((c : Thread nD τ).loc main_arg3) :=
  W6_kept m ρ c main_arg3 (by decide) (by decide) (by decide) (by decide) (by decide) (by decide)
theorem W7_main_arg3 (c : Dev nD) : W7 m ρ c (Proc.devRef .tc main_arg3) = m ((c : Thread nD τ).loc main_arg3) :=
  W7_kept m ρ c main_arg3 (by decide) (by decide) (by decide) (by decide) (by decide) (by decide) (by decide)

/-- `main_arg4` holds its launch contents at every valuation of the fold. -/
theorem W2_main_arg4 (c : Dev nD) : W2 m ρ c (Proc.devRef .tc main_arg4) = m ((c : Thread nD τ).loc main_arg4) :=
  W2_kept m ρ c main_arg4 (by decide) (by decide)
theorem W4_main_arg4 (c : Dev nD) : W4 m ρ c (Proc.devRef .tc main_arg4) = m ((c : Thread nD τ).loc main_arg4) :=
  W4_kept m ρ c main_arg4 (by decide) (by decide) (by decide) (by decide)
theorem W6_main_arg4 (c : Dev nD) : W6 m ρ c (Proc.devRef .tc main_arg4) = m ((c : Thread nD τ).loc main_arg4) :=
  W6_kept m ρ c main_arg4 (by decide) (by decide) (by decide) (by decide) (by decide) (by decide)
theorem W7_main_arg4 (c : Dev nD) : W7 m ρ c (Proc.devRef .tc main_arg4) = m ((c : Thread nD τ).loc main_arg4) :=
  W7_kept m ρ c main_arg4 (by decide) (by decide) (by decide) (by decide) (by decide) (by decide) (by decide)

/-- `main_arg5` holds its launch contents at every valuation of the fold. -/
theorem W2_main_arg5 (c : Dev nD) : W2 m ρ c (Proc.devRef .tc main_arg5) = m ((c : Thread nD τ).loc main_arg5) :=
  W2_kept m ρ c main_arg5 (by decide) (by decide)
theorem W4_main_arg5 (c : Dev nD) : W4 m ρ c (Proc.devRef .tc main_arg5) = m ((c : Thread nD τ).loc main_arg5) :=
  W4_kept m ρ c main_arg5 (by decide) (by decide) (by decide) (by decide)
theorem W6_main_arg5 (c : Dev nD) : W6 m ρ c (Proc.devRef .tc main_arg5) = m ((c : Thread nD τ).loc main_arg5) :=
  W6_kept m ρ c main_arg5 (by decide) (by decide) (by decide) (by decide) (by decide) (by decide)
theorem W7_main_arg5 (c : Dev nD) : W7 m ρ c (Proc.devRef .tc main_arg5) = m ((c : Thread nD τ).loc main_arg5) :=
  W7_kept m ρ c main_arg5 (by decide) (by decide) (by decide) (by decide) (by decide) (by decide) (by decide)

/-- `main_arg6` holds its launch contents at every valuation of the fold. -/
theorem W2_main_arg6 (c : Dev nD) : W2 m ρ c (Proc.devRef .tc main_arg6) = m ((c : Thread nD τ).loc main_arg6) :=
  W2_kept m ρ c main_arg6 (by decide) (by decide)
theorem W4_main_arg6 (c : Dev nD) : W4 m ρ c (Proc.devRef .tc main_arg6) = m ((c : Thread nD τ).loc main_arg6) :=
  W4_kept m ρ c main_arg6 (by decide) (by decide) (by decide) (by decide)
theorem W6_main_arg6 (c : Dev nD) : W6 m ρ c (Proc.devRef .tc main_arg6) = m ((c : Thread nD τ).loc main_arg6) :=
  W6_kept m ρ c main_arg6 (by decide) (by decide) (by decide) (by decide) (by decide) (by decide)
theorem W7_main_arg6 (c : Dev nD) : W7 m ρ c (Proc.devRef .tc main_arg6) = m ((c : Thread nD τ).loc main_arg6) :=
  W7_kept m ρ c main_arg6 (by decide) (by decide) (by decide) (by decide) (by decide) (by decide) (by decide)

/-- `main_arg7` holds its launch contents at every valuation of the fold. -/
theorem W2_main_arg7 (c : Dev nD) : W2 m ρ c (Proc.devRef .tc main_arg7) = m ((c : Thread nD τ).loc main_arg7) :=
  W2_kept m ρ c main_arg7 (by decide) (by decide)
theorem W4_main_arg7 (c : Dev nD) : W4 m ρ c (Proc.devRef .tc main_arg7) = m ((c : Thread nD τ).loc main_arg7) :=
  W4_kept m ρ c main_arg7 (by decide) (by decide) (by decide) (by decide)
theorem W6_main_arg7 (c : Dev nD) : W6 m ρ c (Proc.devRef .tc main_arg7) = m ((c : Thread nD τ).loc main_arg7) :=
  W6_kept m ρ c main_arg7 (by decide) (by decide) (by decide) (by decide) (by decide) (by decide)
theorem W7_main_arg7 (c : Dev nD) : W7 m ρ c (Proc.devRef .tc main_arg7) = m ((c : Thread nD τ).loc main_arg7) :=
  W7_kept m ρ c main_arg7 (by decide) (by decide) (by decide) (by decide) (by decide) (by decide) (by decide)

/-- `main_arg8` holds its launch contents at every valuation of the fold. -/
theorem W2_main_arg8 (c : Dev nD) : W2 m ρ c (Proc.devRef .tc main_arg8) = m ((c : Thread nD τ).loc main_arg8) :=
  W2_kept m ρ c main_arg8 (by decide) (by decide)
theorem W4_main_arg8 (c : Dev nD) : W4 m ρ c (Proc.devRef .tc main_arg8) = m ((c : Thread nD τ).loc main_arg8) :=
  W4_kept m ρ c main_arg8 (by decide) (by decide) (by decide) (by decide)
theorem W6_main_arg8 (c : Dev nD) : W6 m ρ c (Proc.devRef .tc main_arg8) = m ((c : Thread nD τ).loc main_arg8) :=
  W6_kept m ρ c main_arg8 (by decide) (by decide) (by decide) (by decide) (by decide) (by decide)
theorem W7_main_arg8 (c : Dev nD) : W7 m ρ c (Proc.devRef .tc main_arg8) = m ((c : Thread nD τ).loc main_arg8) :=
  W7_kept m ρ c main_arg8 (by decide) (by decide) (by decide) (by decide) (by decide) (by decide) (by decide)

/-- `main_arg9` holds its launch contents at every valuation of the fold. -/
theorem W2_main_arg9 (c : Dev nD) : W2 m ρ c (Proc.devRef .tc main_arg9) = m ((c : Thread nD τ).loc main_arg9) :=
  W2_kept m ρ c main_arg9 (by decide) (by decide)
theorem W4_main_arg9 (c : Dev nD) : W4 m ρ c (Proc.devRef .tc main_arg9) = m ((c : Thread nD τ).loc main_arg9) :=
  W4_kept m ρ c main_arg9 (by decide) (by decide) (by decide) (by decide)
theorem W6_main_arg9 (c : Dev nD) : W6 m ρ c (Proc.devRef .tc main_arg9) = m ((c : Thread nD τ).loc main_arg9) :=
  W6_kept m ρ c main_arg9 (by decide) (by decide) (by decide) (by decide) (by decide) (by decide)
theorem W7_main_arg9 (c : Dev nD) : W7 m ρ c (Proc.devRef .tc main_arg9) = m ((c : Thread nD τ).loc main_arg9) :=
  W7_kept m ρ c main_arg9 (by decide) (by decide) (by decide) (by decide) (by decide) (by decide) (by decide)

/-! ## The prepared weights where the later regions read them -/

/-- The second weight matrix at region 1's entry is what the first stretch left. -/
theorem W3_main_v7 (c : Dev nD) : W3 m ρ c (Proc.devRef .tc main_v7) = W1 m ρ c (Proc.devRef .tc main_v7) :=
  W3_from_W1 m ρ c main_v7 (by decide) (by decide)
/-- The third weight matrix at region 2's entry is what the first stretch left. -/
theorem W5_main_v8 (c : Dev nD) : W5 m ρ c (Proc.devRef .tc main_v8) = W1 m ρ c (Proc.devRef .tc main_v8) :=
  W5_from_W1 m ρ c main_v8 (by decide) (by decide) (by decide) (by decide)
/-- Region 0's output at region 1's entry is what region 0 left. -/
theorem W3_main_v11 (c : Dev nD) : W3 m ρ c (Proc.devRef .tc main_v11) = W2 m ρ c (Proc.devRef .tc main_v11) :=
  W3_of m ρ c main_v11 (by decide)
/-- Region 1's output at region 2's entry is what region 1 left. -/
theorem W5_main_v13 (c : Dev nD) : W5 m ρ c (Proc.devRef .tc main_v13) = W4 m ρ c (Proc.devRef .tc main_v13) :=
  W5_of m ρ c main_v13 (by decide)

end Cert.KernelIdeal.Hand

end
-- ==== Proof.KIdx0.lean ====
/- Region 0's windows, read as coordinates. At grid point t (k = t % 4, j = t / 4) the x window holds block (0, k) of
   its array, the w window block (k, j), the bias window block (0, j) and the output window block (0, j); an element
   of a block sits in the array at block index × 1024 + its own coordinate. The output's blocks at the last k cover
   the output array. -/
import proofs.«125502_j49297634623952_2_alg».proof.Proof.Gen.KernelIdeal.Points
import proofs.«125502_j49297634623952_2_alg».proof.Proof.Gen.KernelIdeal.Launch
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

/-- The printed index maps of region 0, decided over the grid. -/
theorem idx0 : ∀ t : Fin cfg0.N, win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The x block at point t, entry (p, l), is the array's entry (p, 1024·k + l). -/
theorem blk0_0_read (A : (⟨S1024x4096, .bf16⟩ : BufTy).Contents (Elt F)) (t : Fin cfg0.N) (p l : Fin 1024)
    (h : 1024 * (t.val % 4) + l.val < 4096) :
    ((cfg0.win 0).blk t).view.read (Elt F) A (ix2 p l) = A (ix2 p ⟨1024 * (t.val % 4) + l.val, h⟩) := by
  obtain ⟨e0, e1, -⟩ := idx0 t
  show A (((cfg0.win 0).blk t).view.emb (ix2 p l)) = _
  refine congrArg A ?_
  funext a; apply Fin.ext
  match a with
  | ⟨0, _⟩ => show win0_0.index t (0 : Fin 2) * 1024 + 1 * p.val = p.val; omega
  | ⟨1, _⟩ => show win0_0.index t (1 : Fin 2) * 1024 + 1 * l.val = 1024 * (t.val % 4) + l.val; omega

/-- The w block at point t, entry (l, q), is the array's entry (1024·k + l, 1024·j + q). -/
theorem blk0_1_read (A : (⟨S4096x4096, .bf16⟩ : BufTy).Contents (Elt F)) (t : Fin cfg0.N) (l q : Fin 1024)
    (h : 1024 * (t.val % 4) + l.val < 4096) (h' : 1024 * (t.val / 4) + q.val < 4096) :
    ((cfg0.win 1).blk t).view.read (Elt F) A (ix2 l q) = A (ix2 ⟨1024 * (t.val % 4) + l.val, h⟩ ⟨1024 * (t.val / 4) + q.val, h'⟩) := by
  obtain ⟨-, -, e0, e1, -⟩ := idx0 t
  show A (((cfg0.win 1).blk t).view.emb (ix2 l q)) = _
  refine congrArg A ?_
  funext a; apply Fin.ext
  match a with
  | ⟨0, _⟩ => show win0_1.index t (0 : Fin 2) * 1024 + 1 * l.val = 1024 * (t.val % 4) + l.val; omega
  | ⟨1, _⟩ => show win0_1.index t (1 : Fin 2) * 1024 + 1 * q.val = 1024 * (t.val / 4) + q.val; omega

/-- The bias block at point t, entry (0, q), is the row's entry (0, 1024·j + q). -/
theorem blk0_2_read (A : (⟨S1x4096, .f32⟩ : BufTy).Contents (Elt F)) (t : Fin cfg0.N) (z : Fin 1) (q : Fin 1024)
    (h' : 1024 * (t.val / 4) + q.val < 4096) :
    ((cfg0.win 2).blk t).view.read (Elt F) A (ix2 z q) = A (ix2 (0 : Fin 1) ⟨1024 * (t.val / 4) + q.val, h'⟩) := by
  obtain ⟨-, -, -, -, e0, e1, -⟩ := idx0 t
  show A (((cfg0.win 2).blk t).view.emb (ix2 z q)) = _
  refine congrArg A ?_
  funext a; apply Fin.ext
  match a with
  | ⟨0, _⟩ => show win0_2.index t (0 : Fin 2) * 1 + 1 * z.val = 0; have := z.isLt; omega
  | ⟨1, _⟩ => show win0_2.index t (1 : Fin 2) * 1024 + 1 * q.val = 1024 * (t.val / 4) + q.val; omega

/-- An index of the output array is in point t's block iff each coordinate is in the block's range on its axis. -/
theorem mem_blk0_3 (t : Fin cfg0.N) (i : S1024x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v11).slice (win0_3.rect t)).set ↔ _
  rw [View.set_slice_whole, Rect.mem_set_unit]
  exact Iff.rfl

/-- Every index of the output array lies in the block of a point at the last k. -/
theorem cover0_3 (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  have hN : grid0.N = 16 := N_0
  obtain ⟨t, ht⟩ : ∃ t : Fin cfg0.N, t.val = 4 * ((i 1).val / 1024) + 3 :=
    ⟨⟨4 * ((i 1).val / 1024) + 3, by show _ < grid0.N; omega⟩, rfl⟩
  refine ⟨t, (flush0_3 t).mpr (by omega), ?_⟩
  rw [mem_blk0_3]
  obtain ⟨-, -, -, -, -, -, e0, e1⟩ := idx0 t
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output block at point t, entry (p, q), is the output array's entry (p, 1024·j + q). -/
theorem blk0_3_read (A : (⟨S1024x4096, .bf16⟩ : BufTy).Contents (Elt F)) (t : Fin cfg0.N) (p q : Fin 1024)
    (h' : 1024 * (t.val / 4) + q.val < 4096) :
    ((cfg0.win 3).blk t).view.read (Elt F) A (ix2 p q) = A (ix2 p ⟨1024 * (t.val / 4) + q.val, h'⟩) := by
  obtain ⟨-, -, -, -, -, -, e0, e1⟩ := idx0 t
  show A (((cfg0.win 3).blk t).view.emb (ix2 p q)) = _
  refine congrArg A ?_
  funext a; apply Fin.ext
  match a with
  | ⟨0, _⟩ => show win0_3.index t (0 : Fin 2) * 1024 + 1 * p.val = p.val; omega
  | ⟨1, _⟩ => show win0_3.index t (1 : Fin 2) * 1024 + 1 * q.val = 1024 * (t.val / 4) + q.val; omega

end Cert.KernelIdeal.Hand

end
-- ==== Proof.PayVal0.lean ====
import proofs.«125502_j49297634623952_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

/-!
# The three matmul kernels' payloads read at an index

Each of the kernels accumulates a product of two 1024 × 1024 blocks into a 1024 × 1024 block of
extended reals. Read at the ideal values, and at the index `(p, q)`:

* the block the accumulator starts from is `0` everywhere;
* one accumulation step adds to the accumulator the inner product of row `p` of the left block with
  column `q` of the right block, `∑ l, x (p, l) * w (l, q)`;
* the last step adds the bias row's entry at column `q` (and, for the kernel that ends in a
  rectifier, takes the maximum with `0`); the change of float format that follows is the identity
  on extended reals.
-/

noncomputable section

open scoped BigOperators

namespace Cert.KernelIdeal.PayVal

open Idealize.ShloMosaic Idealize.ShloMosaic.ValueIdx Cert.KernelIdeal Cert.KernelIdeal.Gen

/-! ## The 1024 × 1024 by 1024 × 1024 product at an index -/

/-- The left operand's index at output index `i` and contraction index `k` has `i`'s row … -/
theorem lhsIdx_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
/-- … and the contraction coordinate as its column. -/
theorem lhsIdx_col (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
/-- The right operand's index has the contraction coordinate as its row … -/
theorem rhsIdx_row (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
/-- … and `i`'s column. -/
theorem rhsIdx_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The matrix product into the zero accumulator, at `(p, q)`: the inner product of the left operand's row `p`
    with the right operand's column `q`. -/
theorem matmul_zero_apply (x w : FVec Ideal S1024x1024 .bf16) (p q : Fin 1024) :
    matmul dot_S1024x1024_S1024x1024_S1024x1024_1_0_0_1_n_n none x w (constant (F := Ideal) S1024x1024 .f32 0x00000000#32) (ix2 p q)
      = ∑ l : Fin 1024, x (ix2 p l) * w (ix2 l q) := by
  refine (Ideal.matmul_constant_zero_apply dot_S1024x1024_S1024x1024_S1024x1024_1_0_0_1_n_n none x w (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact lhsIdx_row _ _
      | ⟨1, _⟩ => exact (lhsIdx_col _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (rhsIdx_row _ _).trans hk
      | ⟨1, _⟩ => exact rhsIdx_col _ _)
  rw [el, er]

/-! ## The first kernel -/

/-- The block the accumulator starts from is zero everywhere. -/
theorem k0_pay1_apply (p q : Fin 1024) : (k0_pay1 (F := Ideal)) (ix2 p q) = 0 :=
  (congrFun (shapeCast_self (broadcast S1024x1024 (Scalar.ofBits (F := Ideal) .f32 0x00000000#32))
    shapeCasts_S1024x1024_S1024x1024) (ix2 p q)).trans Ideal.ofBits_zero_f32

/-- One accumulation step: the accumulator plus the inner product of row `p` of `x` with column `q` of `w`. -/
theorem k0_pay2_apply (acc : FVec Ideal S1024x1024 .f32) (x w : FVec Ideal S1024x1024 .bf16) (p q : Fin 1024) :
    k0_pay2 acc x w (ix2 p q) = acc (ix2 p q) + ∑ l : Fin 1024, x (ix2 p l) * w (ix2 l q) := by
  have e : k0_pay2 acc x w
      = addf acc (matmul dot_S1024x1024_S1024x1024_S1024x1024_1_0_0_1_n_n none x w (constant (F := Ideal) S1024x1024 .f32 0x00000000#32)) := by
    unfold k0_pay2
    simp only [shapeCast_self]
  rw [e, addf_apply, matmul_zero_apply]

/-- The last step: the accumulator plus the bias row's entry at the column. -/
theorem k0_pay3_apply (acc : FVec Ideal S1024x1024 .f32) (b : FVec Ideal S1x1024 .f32) (p q : Fin 1024) :
    (k0_pay3 (F := Ideal) acc b (ix2 p q) : EReal) = acc (ix2 p q) + b (ix2 (0 : Fin 1) q) := by
  have e : k0_pay3 acc b
      = truncf .bf16 (addf acc (broadcastTo S1024x1024 b broadcasts_S1x1024_S1024x1024)) bitsLt_bf16_f32 := by
    unfold k0_pay3
    simp only [shapeCast_self]
  rw [e, truncf_apply, addf_apply, broadcastTo_1b_ab_apply]

/-! ## The third kernel -/

/-- The block the accumulator starts from is zero everywhere. -/
theorem k2_pay1_apply (p q : Fin 1024) : (k2_pay1 (F := Ideal)) (ix2 p q) = 0 :=
  (congrFun (shapeCast_self (broadcast S1024x1024 (Scalar.ofBits (F := Ideal) .f32 0x00000000#32))
    shapeCasts_S1024x1024_S1024x1024) (ix2 p q)).trans Ideal.ofBits_zero_f32

/-- One accumulation step: the accumulator plus the inner product of row `p` of `x` with column `q` of `w`. -/
theorem k2_pay2_apply (acc : FVec Ideal S1024x1024 .f32) (x w : FVec Ideal S1024x1024 .bf16) (p q : Fin 1024) :
    k2_pay2 acc x w (ix2 p q) = acc (ix2 p q) + ∑ l : Fin 1024, x (ix2 p l) * w (ix2 l q) := by
  have e : k2_pay2 acc x w
      = addf acc (matmul dot_S1024x1024_S1024x1024_S1024x1024_1_0_0_1_n_n none x w (constant (F := Ideal) S1024x1024 .f32 0x00000000#32)) := by
    unfold k2_pay2
    simp only [shapeCast_self]
  rw [e, addf_apply, matmul_zero_apply]

/-- The last step: the accumulator plus the bias row's entry at the column, then the maximum with zero. -/
theorem k2_pay3_apply (acc : FVec Ideal S1024x1024 .f32) (b : FVec Ideal S1x1024 .f32) (p q : Fin 1024) :
    (k2_pay3 (F := Ideal) acc b (ix2 p q) : EReal) = max (acc (ix2 p q) + b (ix2 (0 : Fin 1) q)) 0 := by
  have e : k2_pay3 acc b
      = truncf .bf16 (maximumf (addf acc (broadcastTo S1024x1024 b broadcasts_S1x1024_S1024x1024))
          (broadcast S1024x1024 (Scalar.ofBits (F := Ideal) .f32 0x00000000#32))) bitsLt_bf16_f32 := by
    unfold k2_pay3
    simp only [shapeCast_self]
  rw [e, truncf_apply, maximumf_apply, addf_apply, broadcastTo_1b_ab_apply, broadcast_apply]
  exact congrArg (max _) Ideal.ofBits_zero_f32

end Cert.KernelIdeal.PayVal
-- ==== Proof.LibBlockSum.lean ====
import Mathlib.Data.EReal.Inv
import Mathlib.Data.Fintype.BigOperators
import Mathlib.Algebra.BigOperators.Fin
import Mathlib.Logic.Equiv.Fin.Basic

/-!
# A blocked accumulation is one whole sum

A sum over `nb * B` consecutive indices, computed block by block — each block's partial sum added to a
running accumulator that starts from zero — is the sum over all the indices. Stated on the extended
reals, where addition is commutative and associative and `0 + x = x`; nothing here needs the terms to be
finite.
-/

open scoped BigOperators

namespace Cert.Lib

/-- A sum over `nb * B` consecutive indices is the sum, over the `nb` blocks of `B` consecutive indices,
    of each block's sum: index `k` is `kb * B + l` for its block `kb` and its place `l` inside the block. -/
theorem sum_blocks (nb B : ℕ) (f : ℕ → EReal) :
    ∑ k : Fin (nb * B), f k.val = ∑ kb : Fin nb, ∑ l : Fin B, f (kb.val * B + l.val) := by
  rw [← Equiv.sum_comp finProdFinEquiv (fun k : Fin (nb * B) => f k.val), Fintype.sum_prod_type]
  refine Finset.sum_congr rfl fun kb _ => Finset.sum_congr rfl fun l _ => ?_
  show f (l.val + B * kb.val) = f (kb.val * B + l.val)
  rw [Nat.add_comm, Nat.mul_comm]

/-- An accumulator that starts from `0 + S 0` and adds `S (n + 1)` at step `n + 1` holds, after step `n`,
    the sum of `S` over the steps `0, …, n`. -/
theorem acc_eq_sum (S a : ℕ → EReal) (h0 : a 0 = 0 + S 0) (hs : ∀ n, a (n + 1) = a n + S (n + 1)) (n : ℕ) :
    a n = ∑ kb ∈ Finset.range (n + 1), S kb := by
  induction n with
  | zero => rw [h0, zero_add, Finset.sum_range_one]
  | succ n ih => rw [hs, ih, Finset.sum_range_succ _ (n + 1)]

/-- A sum over `Fin n` of a function of the index's value is the sum over `Finset.range n`. -/
theorem sum_fin_eq_range (n : ℕ) (S : ℕ → EReal) : ∑ kb : Fin n, S kb.val = ∑ kb ∈ Finset.range n, S kb :=
  (Finset.sum_range S).symm

end Cert.Lib
-- ==== Proof.KVal0.lean ====
/- What region 0 leaves in its output array, at the ideal instance: the accumulator after the last k of a column block
   is the fold of the K steps, each adding that step's block product, so entry (p, o) of the output array is the whole
   dot product of row p of the left array with column o of the right one, plus the bias row's entry o. -/
import proofs.«125502_j49297634623952_2_alg».proof.Proof.R0Dat
import proofs.«125502_j49297634623952_2_alg».proof.Proof.KIdx0
import proofs.«125502_j49297634623952_2_alg».proof.Proof.PayVal0
import proofs.«125502_j49297634623952_2_alg».proof.Proof.LibBlockSum
import proofs.«125502_j49297634623952_2_alg».proof.Proof.Gen.KernelIdeal.Skeleton
import proofs.«125502_j49297634623952_2_alg».proof.Proof.Gen.KernelIdeal.Launch
import proofs.«125502_j49297634623952_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window BodyObligation cellOf)
open Cert.KernelIdeal Cert.KernelIdeal.Gen
open scoped BigOperators

variable (V : (c : Dev nD) → (b : Ref sig .tc) → Buf (Elt Ideal) ((c : Thread nD τ).loc b)) (c : Dev nD)

/-- The region's three input arrays as it finds them, and its blocks at a point, with their literal types. -/
abbrev XA0 : (⟨S1024x4096, .bf16⟩ : BufTy).Contents (Elt Ideal) := V c (Pipeline.arrRef spec0 0)
abbrev WA0 : (⟨S4096x4096, .bf16⟩ : BufTy).Contents (Elt Ideal) := V c (Pipeline.arrRef spec0 1)
abbrev BA0 : (⟨S1x4096, .f32⟩ : BufTy).Contents (Elt Ideal) := V c (Pipeline.arrRef spec0 2)
abbrev xb0 (t : Fin cfg0.N) : FVec Ideal S1024x1024 .bf16 := iblk0 V c 0 t
abbrev wb0 (t : Fin cfg0.N) : FVec Ideal S1024x1024 .bf16 := iblk0 V c 1 t
abbrev bb0 (t : Fin cfg0.N) : FVec Ideal S1x1024 .f32 := iblk0 V c 2 t

/-- The whole-array function region 0 computes: entry (p, o) is the dot product of row p of `X` with column o of `Wt`, plus
    entry o of the bias row. -/
def G0 (X : (⟨S1024x4096, .bf16⟩ : BufTy).Contents (Elt Ideal)) (Wt : (⟨S4096x4096, .bf16⟩ : BufTy).Contents (Elt Ideal))
    (Bv : (⟨S1x4096, .f32⟩ : BufTy).Contents (Elt Ideal)) : (⟨S1024x4096, .bf16⟩ : BufTy).Contents (Elt Ideal) :=
  fun i => ((∑ k : Fin 4096, (X (ix2 (⟨(i 0).val, idx2_lt0 i⟩ : Fin 1024) k) : EReal) * (Wt (ix2 k (⟨(i 1).val, idx2_lt1 i⟩ : Fin 4096)) : EReal))
      + (Bv (ix2 (0 : Fin 1) (⟨(i 1).val, idx2_lt1 i⟩ : Fin 4096)) : EReal) : EReal)

/-- One step's addend at block entry (p, q): row p of the step's x block times column q of its w block. -/
def msum0 (t : Fin cfg0.N) (p q : Fin 1024) : EReal :=
  ∑ l : Fin 1024, xb0 V c t (ix2 p l) * wb0 V c t (ix2 l q)

/-- The same as a function of every natural (zero past the grid), at a block index. -/
def M0 (n : ℕ) (i : S1024x1024.Idx) : EReal :=
  if h : n < cfg0.N then msum0 V c ⟨n, h⟩ ⟨(i 0).val, idx2_lt0 i⟩ ⟨(i 1).val, idx2_lt1 i⟩ else 0

theorem M0_ix2 (n : ℕ) (h : n < cfg0.N) (p q : Fin 1024) : M0 V c n (ix2 p q) = msum0 V c ⟨n, h⟩ p q := by
  unfold M0; rw [dif_pos h]

/-- The accumulator restarts at a first k … -/
theorem acc0_reset (n : ℕ) (h : n < cfg0.N) (hn : n % 4 = 0) :
    acc0 V c n h = k0_pay2 (k0_pay1 (F := Ideal)) (iblk0 V c 0 ⟨n, h⟩) (iblk0 V c 1 ⟨n, h⟩) := by
  cases n with
  | zero => rfl
  | succ n => exact if_pos hn
/-- … and steps from the point before otherwise. -/
theorem acc0_step (n : ℕ) (h : n + 1 < cfg0.N) (hn : ¬(n + 1) % 4 = 0) :
    acc0 V c (n + 1) h = k0_pay2 (acc0 V c n (Nat.lt_of_succ_lt h)) (iblk0 V c 0 ⟨n + 1, h⟩) (iblk0 V c 1 ⟨n + 1, h⟩) :=
  if_neg hn

/-- At any point the accumulator is the zero block plus the addends of the points of its run so far. -/
theorem acc0_apply (t : Fin cfg0.N) (p q : Fin 1024) :
    (acc0 V c t.val t.isLt : FVec Ideal S1024x1024 .f32) (ix2 p q) = 0 + ∑ s ∈ Finset.range (t.val % 4 + 1), M0 V c (4 * (t.val / 4) + s) (ix2 p q) := by
  have h' : 4 * (t.val / 4) + t.val % 4 < cfg0.N := by rw [Nat.div_add_mod]; exact t.isLt
  rw [Pipeline.eq_accAt_of_mod (acc0 V c) 4
    (fun n h => k0_pay2 (k0_pay1 (F := Ideal)) (iblk0 V c 0 ⟨n, h⟩) (iblk0 V c 1 ⟨n, h⟩))
    (fun n h a => k0_pay2 a (iblk0 V c 0 ⟨n, h⟩) (iblk0 V c 1 ⟨n, h⟩))
    (acc0_reset V c) (acc0_step V c) (by decide) t.val t.isLt h']
  refine Pipeline.accAt_add_apply (ι := S1024x1024.Idx) (β := EReal) _ _ (fun _ => 0) (M0 V c) (4 * (t.val / 4)) 3 ?_ ?_
    (t.val % 4) (by omega) h' (ix2 p q)
  · intro h i
    obtain ⟨p, q, rfl⟩ : ∃ (p q : Fin 1024), i = ix2 p q := ⟨i 0, i 1, eq_ix2 i⟩
    rw [M0_ix2 V c _ h]
    exact (PayVal.k0_pay2_apply _ _ _ p q).trans (congrArg (· + _) (PayVal.k0_pay1_apply p q))
  · intro n h a i _ _
    obtain ⟨p, q, rfl⟩ : ∃ (p q : Fin 1024), i = ix2 p q := ⟨i 0, i 1, eq_ix2 i⟩
    rw [M0_ix2 V c _ h]
    exact PayVal.k0_pay2_apply a _ _ p q

/-- The K addends of a run are the whole dot product, block by block. -/
theorem M0_sum (t : Fin cfg0.N) (p q : Fin 1024) (ho : 1024 * (t.val / 4) + q.val < 4096) :
    ∑ s ∈ Finset.range 4, M0 V c (4 * (t.val / 4) + s) (ix2 p q)
      = ∑ k : Fin 4096, XA0 V c (ix2 p k) * WA0 V c (ix2 k (⟨1024 * (t.val / 4) + q.val, ho⟩ : Fin 4096)) := by
  have hN : grid0.N = 16 := N_0
  have htN : t.val < 16 := lt_of_lt_of_eq t.isLt hN
  let f : ℕ → EReal := fun k => if h : k < 4096 then
    XA0 V c (ix2 p (⟨k, h⟩ : Fin 4096)) * WA0 V c (ix2 (⟨k, h⟩ : Fin 4096) (⟨1024 * (t.val / 4) + q.val, ho⟩ : Fin 4096)) else 0
  have hR : (∑ k : Fin 4096, XA0 V c (ix2 p k) * WA0 V c (ix2 k (⟨1024 * (t.val / 4) + q.val, ho⟩ : Fin 4096)))
      = ∑ k : Fin (4 * 1024), f k.val :=
    Finset.sum_congr rfl fun k _ => by show _ = dite _ _ _; rw [dif_pos k.isLt]
  rw [hR, Cert.Lib.sum_blocks 4 1024 f, Finset.sum_range]
  refine Finset.sum_congr rfl fun kb _ => ?_
  have hkb : kb.val < 4 := kb.isLt
  have hn : 4 * (t.val / 4) + kb.val < cfg0.N := by show _ < grid0.N; omega
  rw [M0_ix2 V c _ hn]
  unfold msum0
  refine Finset.sum_congr rfl fun l _ => ?_
  have hl : l.val < 1024 := l.isLt
  have hk : kb.val * 1024 + l.val < 4096 := by omega
  have h1 : 1024 * ((4 * (t.val / 4) + kb.val) % 4) + l.val < 4096 := by omega
  have h2 : 1024 * ((4 * (t.val / 4) + kb.val) / 4) + q.val < 4096 := by omega
  show _ = dite _ _ _
  rw [dif_pos hk]
  have ex : xb0 V c ⟨_, hn⟩ (ix2 p l) = XA0 V c (ix2 p (⟨kb.val * 1024 + l.val, hk⟩ : Fin 4096)) :=
    (blk0_0_read (F := Ideal) (XA0 V c) ⟨_, hn⟩ p l h1).trans
      (congrArg (XA0 V c) (congrArg (ix2 p) (Fin.ext (by show 1024 * ((4 * (t.val / 4) + kb.val) % 4) + l.val = kb.val * 1024 + l.val; omega))))
  have ew : wb0 V c ⟨_, hn⟩ (ix2 l q) = WA0 V c (ix2 (⟨kb.val * 1024 + l.val, hk⟩ : Fin 4096) (⟨1024 * (t.val / 4) + q.val, ho⟩ : Fin 4096)) :=
    (blk0_1_read (F := Ideal) (WA0 V c) ⟨_, hn⟩ l q h1 h2).trans
      (congrArg (WA0 V c) (congrArg₂ ix2 (Fin.ext (by show 1024 * ((4 * (t.val / 4) + kb.val) % 4) + l.val = kb.val * 1024 + l.val; omega))
        (Fin.ext (by show 1024 * ((4 * (t.val / 4) + kb.val) / 4) + q.val = 1024 * (t.val / 4) + q.val; omega))))
  rw [ex, ew]

/-- What a point at the last k writes back is its block of `G0` of the arrays as the region finds them. -/
theorem flushed0_eq (t : Fin cfg0.N) (hf : (cfg0.win 3).flush t = true) :
    (dat0 V c).flushed 3 t = ((cfg0.win 3).blk t).view.read (Elt Ideal) (G0 (XA0 V c) (WA0 V c) (BA0 V c)) := by
  show (cfg0.win 3).cut (grid0.coords t) ((dat0 V c).after 3 t) = _
  rw [after0_3]
  funext j
  obtain ⟨p, q, rfl⟩ : ∃ (p q : Fin 1024), j = ix2 p q := ⟨j 0, j 1, eq_ix2 j⟩
  have hl : t.val % 4 = 3 := (flush0_3 t).mp hf
  have hN : grid0.N = 16 := N_0
  have htN : t.val < 16 := lt_of_lt_of_eq t.isLt hN
  have ho : 1024 * (t.val / 4) + q.val < 4096 := by have := q.isLt; omega
  rw [blk0_3_read (F := Ideal) _ t p q ho]
  show (k0_pay3 (F := Ideal) (acc0 V c t.val t.isLt) (bb0 V c t) (ix2 p q) : EReal) = _
  rw [PayVal.k0_pay3_apply, acc0_apply V c t p q, hl, M0_sum V c t p q ho, zero_add,
    show bb0 V c t (ix2 (0 : Fin 1) q) = BA0 V c (ix2 (0 : Fin 1) (⟨1024 * (t.val / 4) + q.val, ho⟩ : Fin 4096)) from
      blk0_2_read (F := Ideal) (BA0 V c) t (0 : Fin 1) q ho]
  rfl

/-- The output array after the region: `G0` of the region's three input arrays as it finds them. -/
theorem final0 : (dat0 V c).arrAt 3 cfg0.N = G0 (XA0 V c) (WA0 V c) (BA0 V c) :=
  (dat0 V c).arrAt_eq_of_cover 3 _ (fun t hf => flushed0_eq V c t hf) cover0_3

end Cert.KernelIdeal.Hand

end
-- ==== Proof.KIdx1.lean ====
/- Region 1's windows, read as coordinates. At grid point t (k = t % 4, j = t / 4) the x window holds block (0, k) of
   its array, the w window block (k, j), the bias window block (0, j) and the output window block (0, j); an element
   of a block sits in the array at block index × 1024 + its own coordinate. The output's blocks at the last k cover
   the output array. -/
import proofs.«125502_j49297634623952_2_alg».proof.Proof.Gen.KernelIdeal.Points
import proofs.«125502_j49297634623952_2_alg».proof.Proof.Gen.KernelIdeal.Launch
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

/-- The printed index maps of region 1, decided over the grid. -/
theorem idx1 : ∀ t : Fin cfg1.N, win1_0.index t (0 : Fin 2) = 0 ∧ win1_0.index t (1 : Fin 2) = t.val % 4
    ∧ win1_1.index t (0 : Fin 2) = t.val % 4 ∧ win1_1.index t (1 : Fin 2) = t.val / 4
    ∧ win1_2.index t (0 : Fin 2) = 0 ∧ win1_2.index t (1 : Fin 2) = t.val / 4
    ∧ win1_3.index t (0 : Fin 2) = 0 ∧ win1_3.index t (1 : Fin 2) = t.val / 4 :=
  (by decide +kernel : ∀ t : Fin grid1.N, _)

/-- The x block at point t, entry (p, l), is the array's entry (p, 1024·k + l). -/
theorem blk1_0_read (A : (⟨S1024x4096, .bf16⟩ : BufTy).Contents (Elt F)) (t : Fin cfg1.N) (p l : Fin 1024)
    (h : 1024 * (t.val % 4) + l.val < 4096) :
    ((cfg1.win 0).blk t).view.read (Elt F) A (ix2 p l) = A (ix2 p ⟨1024 * (t.val % 4) + l.val, h⟩) := by
  obtain ⟨e0, e1, -⟩ := idx1 t
  show A (((cfg1.win 0).blk t).view.emb (ix2 p l)) = _
  refine congrArg A ?_
  funext a; apply Fin.ext
  match a with
  | ⟨0, _⟩ => show win1_0.index t (0 : Fin 2) * 1024 + 1 * p.val = p.val; omega
  | ⟨1, _⟩ => show win1_0.index t (1 : Fin 2) * 1024 + 1 * l.val = 1024 * (t.val % 4) + l.val; omega

/-- The w block at point t, entry (l, q), is the array's entry (1024·k + l, 1024·j + q). -/
theorem blk1_1_read (A : (⟨S4096x8192, .bf16⟩ : BufTy).Contents (Elt F)) (t : Fin cfg1.N) (l q : Fin 1024)
    (h : 1024 * (t.val % 4) + l.val < 4096) (h' : 1024 * (t.val / 4) + q.val < 8192) :
    ((cfg1.win 1).blk t).view.read (Elt F) A (ix2 l q) = A (ix2 ⟨1024 * (t.val % 4) + l.val, h⟩ ⟨1024 * (t.val / 4) + q.val, h'⟩) := by
  obtain ⟨-, -, e0, e1, -⟩ := idx1 t
  show A (((cfg1.win 1).blk t).view.emb (ix2 l q)) = _
  refine congrArg A ?_
  funext a; apply Fin.ext
  match a with
  | ⟨0, _⟩ => show win1_1.index t (0 : Fin 2) * 1024 + 1 * l.val = 1024 * (t.val % 4) + l.val; omega
  | ⟨1, _⟩ => show win1_1.index t (1 : Fin 2) * 1024 + 1 * q.val = 1024 * (t.val / 4) + q.val; omega

/-- The bias block at point t, entry (0, q), is the row's entry (0, 1024·j + q). -/
theorem blk1_2_read (A : (⟨S1x8192, .f32⟩ : BufTy).Contents (Elt F)) (t : Fin cfg1.N) (z : Fin 1) (q : Fin 1024)
    (h' : 1024 * (t.val / 4) + q.val < 8192) :
    ((cfg1.win 2).blk t).view.read (Elt F) A (ix2 z q) = A (ix2 (0 : Fin 1) ⟨1024 * (t.val / 4) + q.val, h'⟩) := by
  obtain ⟨-, -, -, -, e0, e1, -⟩ := idx1 t
  show A (((cfg1.win 2).blk t).view.emb (ix2 z q)) = _
  refine congrArg A ?_
  funext a; apply Fin.ext
  match a with
  | ⟨0, _⟩ => show win1_2.index t (0 : Fin 2) * 1 + 1 * z.val = 0; have := z.isLt; omega
  | ⟨1, _⟩ => show win1_2.index t (1 : Fin 2) * 1024 + 1 * q.val = 1024 * (t.val / 4) + q.val; omega

/-- An index of the output array is in point t's block iff each coordinate is in the block's range on its axis. -/
theorem mem_blk1_3 (t : Fin cfg1.N) (i : S1024x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v13).slice (win1_3.rect t)).set ↔ _
  rw [View.set_slice_whole, Rect.mem_set_unit]
  exact Iff.rfl

/-- Every index of the output array lies in the block of a point at the last k. -/
theorem cover1_3 (i : S1024x8192.Idx) :
    ∃ t : Fin cfg1.N, (cfg1.win 3).flush t = true ∧ i ∈ ((cfg1.win 3).blk t).view.set := by
  have hi0 : (i 0).val < 1024 := (i 0).isLt
  have hi1 : (i 1).val < 8192 := (i 1).isLt
  have hN : grid1.N = 32 := N_1
  obtain ⟨t, ht⟩ : ∃ t : Fin cfg1.N, t.val = 4 * ((i 1).val / 1024) + 3 :=
    ⟨⟨4 * ((i 1).val / 1024) + 3, by show _ < grid1.N; omega⟩, rfl⟩
  refine ⟨t, (flush1_3 t).mpr (by omega), ?_⟩
  rw [mem_blk1_3]
  obtain ⟨-, -, -, -, -, -, e0, e1⟩ := idx1 t
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output block at point t, entry (p, q), is the output array's entry (p, 1024·j + q). -/
theorem blk1_3_read (A : (⟨S1024x8192, .bf16⟩ : BufTy).Contents (Elt F)) (t : Fin cfg1.N) (p q : Fin 1024)
    (h' : 1024 * (t.val / 4) + q.val < 8192) :
    ((cfg1.win 3).blk t).view.read (Elt F) A (ix2 p q) = A (ix2 p ⟨1024 * (t.val / 4) + q.val, h'⟩) := by
  obtain ⟨-, -, -, -, -, -, e0, e1⟩ := idx1 t
  show A (((cfg1.win 3).blk t).view.emb (ix2 p q)) = _
  refine congrArg A ?_
  funext a; apply Fin.ext
  match a with
  | ⟨0, _⟩ => show win1_3.index t (0 : Fin 2) * 1024 + 1 * p.val = p.val; omega
  | ⟨1, _⟩ => show win1_3.index t (1 : Fin 2) * 1024 + 1 * q.val = 1024 * (t.val / 4) + q.val; omega

/-- The grid coordinates of region 1 at point t: k = t % 4 on the reduction axis, j = t / 4 on the column axis. -/
theorem coords1 : ∀ t : Fin cfg1.N, (grid1.coords t 2).val = t.val % 4 ∧ (grid1.coords t 1).val = t.val / 4 :=
  (by decide +kernel : ∀ t : Fin grid1.N, _)

end Cert.KernelIdeal.Hand

end
-- ==== Proof.PayVal1.lean ====
import proofs.«125502_j49297634623952_2_alg».proof.Proof.Gen.KernelIdeal.Skeleton
import proofs.«125502_j49297634623952_2_alg».proof.Proof.PayVal0
import Idealize.ShloMosaic.Lib.ValueIdx
import Idealize.ShloMosaic.Lib.Pipeline.Value
import Idealize.ShloMosaic.Lib.ValueLayout
import Idealize.ShloMosaic.PureOps.Ideal.Laws

/-!
# The masked matmul kernel's payloads read at an index

The second kernel multiplies the right block by a 0/1 mask before the product. Entry (l, q) of the block
at grid point i = (i₀, i₁, i₂) sits at global row r = 1024·i₂ + l and global column c = 1024·i₁ + q, and the
mask keeps it exactly when ⌊r / 8⌋ = ⌊c / 16⌋. The two quotients are computed on 32-bit words by a signed
division rounded toward zero followed by the usual correction to floor division; on the nonnegative
operands met here (r < 4096, c < 8192) that is the naturals' division. The comparison's bit, widened and
converted to a float, is the indicator of the equation. Read at the ideal values and at the index (p, q):

* the block the accumulator starts from is 0 everywhere;
* one accumulation step adds ∑ l, x (p, l) * (w (l, q) * [⌊r / 8⌋ = ⌊c / 16⌋]) to the accumulator;
* the last step adds the bias row's entry at column q; the change of float format is the identity.
-/

noncomputable section

namespace Cert.KernelIdeal.PayVal1

open Idealize.ShloMosaic Idealize.ShloMosaic.ValueIdx Cert.KernelIdeal Cert.KernelIdeal.Gen

/-! ## Words of small naturals

A natural below 2^31 and its 32-bit word determine each other, the word is nonnegative as a signed
integer, and on such words the signed division and remainder are the naturals' division and remainder. -/

theorem toNat_word (n : Nat) (hn : n < 2 ^ 31) : (BitVec.ofNat 32 n).toNat = n := by
  rw [BitVec.toNat_ofNat]; omega

theorem toInt_word (n : Nat) (hn : n < 2 ^ 31) : (BitVec.ofNat 32 n).toInt = (n : Int) := by
  rw [BitVec.toInt_eq_toNat_of_lt (by rw [toNat_word n hn]; omega), toNat_word n hn]

theorem msb_word (n : Nat) (hn : n < 2 ^ 31) : (BitVec.ofNat 32 n).msb = false := by
  rw [BitVec.msb_eq_false_iff_two_mul_lt, toNat_word n hn]; omega

/-- A positive divisor below 2^31 is not at the signed division's corner. -/
theorem not_corner (n d : Nat) (hd : 0 < d) (hd' : d < 2 ^ 31) :
    ¬ IntOp.SDivCorner (BitVec.ofNat 32 n) (BitVec.ofNat 32 d) := by
  have hdn : (BitVec.ofNat 32 d).toNat = d := toNat_word d hd'
  rintro (h | ⟨_, h⟩)
  · have := congrArg BitVec.toNat h; rw [hdn] at this; simp at this; omega
  · have := congrArg BitVec.toNat h; rw [hdn] at this; simp at this; omega

/-- The signed quotient of two such words is the word of the naturals' quotient. -/
theorem divsi_word (n d : Nat) (hn : n < 2 ^ 31) (hd : 0 < d) (hd' : d < 2 ^ 31) :
    IntOp.divsi .vector (BitVec.ofNat 32 n) (BitVec.ofNat 32 d) = BitVec.ofNat 32 (n / d) := by
  unfold IntOp.divsi
  rw [if_neg (not_corner n d hd hd'), BitVec.sdiv_eq, msb_word n hn, msb_word d hd']
  apply BitVec.eq_of_toNat_eq
  show (BitVec.ofNat 32 n / BitVec.ofNat 32 d).toNat = _
  rw [BitVec.toNat_udiv, toNat_word n hn, toNat_word d hd',
    toNat_word (n / d) (lt_of_le_of_lt (Nat.div_le_self n d) hn)]

/-- The signed remainder of two such words is the word of the naturals' remainder. -/
theorem remsi_word (n d : Nat) (hn : n < 2 ^ 31) (hd : 0 < d) (hd' : d < 2 ^ 31) :
    IntOp.remsi .vector (BitVec.ofNat 32 n) (BitVec.ofNat 32 d) = BitVec.ofNat 32 (n % d) := by
  unfold IntOp.remsi
  rw [if_neg (not_corner n d hd hd'), BitVec.srem_eq, msb_word n hn, msb_word d hd']
  apply BitVec.eq_of_toNat_eq
  show (BitVec.ofNat 32 n % BitVec.ofNat 32 d).toNat = _
  rw [BitVec.toNat_umod, toNat_word n hn, toNat_word d hd',
    toNat_word (n % d) (lt_of_le_of_lt (Nat.mod_le n d) hn)]

/-- "Greater than zero", signed, on such a word is the naturals' "positive". -/
theorem sgt_word (n : Nat) (hn : n < 2 ^ 31) :
    IntOp.cmpi .sgt (BitVec.ofNat 32 n) 0#32 = BitVec.ofBool (decide (0 < n)) := by
  show BitVec.ofBool ((0#32).slt (BitVec.ofNat 32 n)) = _
  rw [BitVec.slt_eq_decide, toInt_word n hn]
  congr 1
  simp

/-- "Less than zero", signed, never holds of such a word. -/
theorem slt_word (n : Nat) (hn : n < 2 ^ 31) : IntOp.cmpi .slt (BitVec.ofNat 32 n) 0#32 = 0#1 := by
  show BitVec.ofBool ((BitVec.ofNat 32 n).slt 0#32) = _
  rw [BitVec.slt_eq_decide, toInt_word n hn]
  have h : decide ((n : Int) < (0#32).toInt) = false := by simp
  rw [h]; rfl

/-- THE FLOOR DIVISION CHAIN on a nonnegative dividend. The printed chain takes the quotient rounded toward
    zero and lowers it by one exactly when the operands' signs differ and the remainder is not zero; the
    dividend's sign word is 0 or 1, the positive divisor's sign word sd is 1, so the two differ only at a zero
    dividend, whose remainder is zero: the correction never applies, and the quotient is the naturals'. -/
theorem floordiv_word (n d : Nat) (hn : n < 2 ^ 31) (hd : 0 < d) (hd' : d < 2 ^ 31) (sd : BitVec 32) (hsd : sd = 1#32) :
    Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32)))
          sd)
        (IntOp.cmpi .ne (IntOp.remsi .vector (BitVec.ofNat 32 n) (BitVec.ofNat 32 d)) 0#32))
      (IntOp.subi (IntOp.divsi .vector (BitVec.ofNat 32 n) (BitVec.ofNat 32 d)) 1#32)
      (IntOp.divsi .vector (BitVec.ofNat 32 n) (BitVec.ofNat 32 d)) = BitVec.ofNat 32 (n / d) := by
  subst hsd
  rw [sgt_word n hn, slt_word n hn, remsi_word n d hn hd hd', divsi_word n d hn hd hd']
  have hc : IntOp.andi
      (IntOp.cmpi .ne (IntOp.subi (BitVec.setWidth 32 (BitVec.ofBool (decide (0 < n)))) (BitVec.setWidth 32 0#1)) 1#32)
      (IntOp.cmpi .ne (BitVec.ofNat 32 (n % d)) 0#32) = 0#1 := by
    rcases Nat.eq_zero_or_pos n with h0 | hpos
    · subst h0
      rw [Nat.zero_mod]
      show _ &&& (0#1 : BitVec 1) = 0#1
      exact BitVec.and_zero
    · rw [decide_eq_true hpos]
      show (0#1 : BitVec 1) &&& _ = 0#1
      exact BitVec.zero_and
  rw [hc, select_zero]

/-- The word of a block offset plus a coordinate. -/
theorem offset_word (b c : Nat) :
    IntOp.addi (Scalar.muli (BitVec.ofNat 32 b) 1024#32) (BitVec.ofNat 32 c) = BitVec.ofNat 32 (1024 * b + c) := by
  show BitVec.ofNat 32 b * BitVec.ofNat 32 1024 + BitVec.ofNat 32 c = _
  rw [BitVec.ofNat_mul_ofNat, BitVec.ofNat_add_ofNat, Nat.mul_comm]

/-- Equality of two such words, widened and converted to a float at the ideal instance, is the indicator of
    the naturals' equality. -/
theorem mask_word (a b : Nat) (ha : a < 2 ^ 31) (hb : b < 2 ^ 31) :
    FloatOps.sitofp (F := Ideal) .f32 (BitVec.setWidth 32 (IntOp.cmpi .eq (BitVec.ofNat 32 a) (BitVec.ofNat 32 b)))
      = if a = b then (1 : EReal) else 0 := by
  show (((BitVec.setWidth 32 (BitVec.ofBool (BitVec.ofNat 32 a == BitVec.ofNat 32 b))).toInt : ℝ) : EReal) = _
  by_cases h : a = b
  · subst h
    have h1 : (BitVec.setWidth 32 (BitVec.ofBool true)).toInt = 1 := by decide
    rw [if_pos rfl, beq_self_eq_true, h1]
    simp
  · have hne : (BitVec.ofNat 32 a == BitVec.ofNat 32 b) = false := by
      rw [beq_eq_false_iff_ne]
      intro hh
      apply h
      have := congrArg BitVec.toNat hh
      rwa [toNat_word a ha, toNat_word b hb] at this
    have h0 : (BitVec.setWidth 32 (BitVec.ofBool false)).toInt = 0 := by decide
    rw [if_neg h, hne, h0]
    simp

/-! ## The integer vectors at an index -/

/-- A column vector broadcast along the rows reads its row's entry. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The global column of entry q of the block at grid point i, as a word. -/
theorem k1_pay4_apply (i : grid1.Coords) (z : Fin 1) (q : Fin 1024) :
    k1_pay4 i (ix2 z q) = BitVec.ofNat 32 (1024 * (i 1).val + q.val) := by
  unfold k1_pay4
  simp only [addi, broadcast, iota]
  refine Eq.trans ?_ (offset_word (i 1).val q.val)
  congr 2
  show 0 * 1024 + q.val = q.val
  omega

/-- The row vector: the word of the global row's floor quotient by 8. -/
theorem k1_pay5_apply (i : grid1.Coords) (l : Fin 1024) (z : Fin 1) :
    k1_pay5 i (ix2 l z) = BitVec.ofNat 32 ((1024 * (i 2).val + l.val) / 8) := by
  have h2 : (i 2).val < 4 := (i 2).isLt
  have hl : l.val < 1024 := l.isLt
  have hx : IntOp.addi (Scalar.muli (BitVec.ofNat 32 (i 2).val) 1024#32)
      (BitVec.ofNat 32 (List.foldl (fun n a => n * ![1024, 1] a + ((ix2 l z a : Fin _) : Nat)) 0 [0]))
      = BitVec.ofNat 32 (1024 * (i 2).val + l.val) := by
    refine Eq.trans ?_ (offset_word (i 2).val l.val)
    congr 2
    show 0 * 1024 + l.val = l.val
    omega
  unfold k1_pay5
  simp only [select, cmpi, andi, subi, divsi, remsi, addi, extui, broadcast, iota]
  rw [hx]
  exact floordiv_word _ 8 (by omega) (by omega) (by omega) _ (by decide)

/-- The column vector after the sign correction: the word of the global column's floor quotient by 16. -/
theorem col_floor_apply (i : grid1.Coords) (z : Fin 1) (q : Fin 1024) :
    select
      (andi
        (cmpi .ne (subi (k1_pay7 i) (extui 32 (k1_pay8 i) natLt_1_32))
          (broadcast S1x1024
            (Scalar.subi (Scalar.extui (Scalar.cmpi .sgt 16#32 0#32)) (Scalar.extui (Scalar.cmpi .slt 16#32 0#32)))))
        (cmpi .ne (remsi (k1_pay4 i) (broadcast S1x1024 16#32)) (broadcast S1x1024 0#32)))
      (subi (k1_pay6 i) (broadcast S1x1024 1#32)) (k1_pay6 i) (ix2 z q)
      = BitVec.ofNat 32 ((1024 * (i 1).val + q.val) / 16) := by
  have h1 : (i 1).val < 8 := (i 1).isLt
  have hq : q.val < 1024 := q.isLt
  unfold k1_pay6 k1_pay7 k1_pay8
  simp only [select, cmpi, andi, subi, divsi, remsi, extui, broadcast]
  rw [k1_pay4_apply]
  exact floordiv_word _ 16 (by omega) (by omega) (by omega) _ (by decide)

/-! ## The payloads at an index -/

/-- The block the accumulator starts from is zero everywhere. -/
theorem k1_pay3_apply (p q : Fin 1024) : (k1_pay3 (F := Ideal)) (ix2 p q) = 0 :=
  (congrFun (shapeCast_self (broadcast S1024x1024 (Scalar.ofBits (F := Ideal) .f32 0x00000000#32))
    shapeCasts_S1024x1024_S1024x1024) (ix2 p q)).trans Ideal.ofBits_zero_f32

/-- One accumulation step of the masked kernel: the accumulator plus the inner product of row p of x with
    column q of w, each entry (l, q) of w kept exactly when the global row 1024·i₂ + l and the global column
    1024·i₁ + q fall in the same 8 × 16 tile, and replaced by zero otherwise. -/
theorem k1_pay1_apply (i : grid1.Coords) (w : FVec Ideal S1024x1024 .bf16) (acc : FVec Ideal S1024x1024 .f32)
    (x : FVec Ideal S1024x1024 .bf16) (p q : Fin 1024) :
    k1_pay1 (F := Ideal) (k1_pay4 i) (k1_pay5 i) 16#32 (k1_pay6 i) (k1_pay7 i) (k1_pay8 i) w acc x (ix2 p q)
      = acc (ix2 p q) + ∑ l : Fin 1024, x (ix2 p l) * (w (ix2 l q) *
          (if (1024 * (i 2).val + l.val) / 8 = (1024 * (i 1).val + q.val) / 16 then (1 : EReal) else 0)) := by
  have h1 : (i 1).val < 8 := (i 1).isLt
  have h2 : (i 2).val < 4 := (i 2).isLt
  have hq : q.val < 1024 := q.isLt
  unfold k1_pay1
  simp only [shapeCast_self]
  rw [addf_apply, PayVal.matmul_zero_apply]
  refine congrArg (acc (ix2 p q) + ·) (Finset.sum_congr rfl fun l _ => ?_)
  have hl : l.val < 1024 := l.isLt
  rw [mulf_apply, truncf_apply, sitofp_apply, extui_apply]
  refine congrArg (fun t => x (ix2 p l) * (w (ix2 l q) * t)) ?_
  show FloatOps.sitofp (F := Ideal) .f32 (BitVec.setWidth 32 (IntOp.cmpi .eq
    (broadcastTo S1024x1024 (k1_pay5 i) broadcasts_S1024x1_S1024x1024 (ix2 l q))
    (broadcastTo S1024x1024 _ broadcasts_S1x1024_S1024x1024 (ix2 l q)))) = _
  rw [broadcastTo_a1_ab_apply, broadcastTo_1b_ab_apply, k1_pay5_apply, col_floor_apply]
  exact mask_word _ _ (by omega) (by omega)

/-- The last step: the accumulator plus the bias row's entry at the column. -/
theorem k1_pay2_apply (acc : FVec Ideal S1024x1024 .f32) (b : FVec Ideal S1x1024 .f32) (p q : Fin 1024) :
    (k1_pay2 (F := Ideal) acc b (ix2 p q) : EReal) = acc (ix2 p q) + b (ix2 (0 : Fin 1) q) := by
  have e : k1_pay2 acc b
      = truncf .bf16 (addf acc (broadcastTo S1024x1024 b broadcasts_S1x1024_S1024x1024)) bitsLt_bf16_f32 := by
    unfold k1_pay2
    simp only [shapeCast_self]
  rw [e, truncf_apply, addf_apply, broadcastTo_1b_ab_apply]

end Cert.KernelIdeal.PayVal1
end
-- ==== Proof.KVal1.lean ====
/- What region 1 leaves in its output array, at the ideal instance: the accumulator after the last k of a column block
   is the fold of the K steps, each adding that step's block product, so entry (p, o) of the output array is the whole
   dot product of row p of the left array with column o of the right one, plus the bias row's entry o. -/
import proofs.«125502_j49297634623952_2_alg».proof.Proof.R1Dat
import proofs.«125502_j49297634623952_2_alg».proof.Proof.KIdx1
import proofs.«125502_j49297634623952_2_alg».proof.Proof.PayVal1
import proofs.«125502_j49297634623952_2_alg».proof.Proof.LibBlockSum
import proofs.«125502_j49297634623952_2_alg».proof.Proof.Gen.KernelIdeal.Skeleton
import proofs.«125502_j49297634623952_2_alg».proof.Proof.Gen.KernelIdeal.Launch
import proofs.«125502_j49297634623952_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window BodyObligation cellOf)
open Cert.KernelIdeal Cert.KernelIdeal.Gen
open scoped BigOperators

variable (V : (c : Dev nD) → (b : Ref sig .tc) → Buf (Elt Ideal) ((c : Thread nD τ).loc b)) (c : Dev nD)

/-- The region's three input arrays as it finds them, and its blocks at a point, with their literal types. -/
abbrev XA1 : (⟨S1024x4096, .bf16⟩ : BufTy).Contents (Elt Ideal) := V c (Pipeline.arrRef spec1 0)
abbrev WA1 : (⟨S4096x8192, .bf16⟩ : BufTy).Contents (Elt Ideal) := V c (Pipeline.arrRef spec1 1)
abbrev BA1 : (⟨S1x8192, .f32⟩ : BufTy).Contents (Elt Ideal) := V c (Pipeline.arrRef spec1 2)
abbrev xb1 (t : Fin cfg1.N) : FVec Ideal S1024x1024 .bf16 := iblk1 V c 0 t
abbrev wb1 (t : Fin cfg1.N) : FVec Ideal S1024x1024 .bf16 := iblk1 V c 1 t
abbrev bb1 (t : Fin cfg1.N) : FVec Ideal S1x1024 .f32 := iblk1 V c 2 t

/-- The whole-array function region 1 computes: entry (p, o) is the dot product of row p of `X` with column o of `Wt` masked to its diagonal blocks, plus
    entry o of the bias row. -/
def G1 (X : (⟨S1024x4096, .bf16⟩ : BufTy).Contents (Elt Ideal)) (Wt : (⟨S4096x8192, .bf16⟩ : BufTy).Contents (Elt Ideal))
    (Bv : (⟨S1x8192, .f32⟩ : BufTy).Contents (Elt Ideal)) : (⟨S1024x8192, .bf16⟩ : BufTy).Contents (Elt Ideal) :=
  fun i => ((∑ k : Fin 4096, (X (ix2 (⟨(i 0).val, idx2_lt0 i⟩ : Fin 1024) k) : EReal) * ((Wt (ix2 k (⟨(i 1).val, idx2_lt1 i⟩ : Fin 8192)) : EReal) * (if k.val / 8 = (i 1).val / 16 then (1 : EReal) else 0)))
      + (Bv (ix2 (0 : Fin 1) (⟨(i 1).val, idx2_lt1 i⟩ : Fin 8192)) : EReal) : EReal)

/-- One step's addend at block entry (p, q): row p of the step's x block times column q of its w block under the mask. -/
def msum1 (t : Fin cfg1.N) (p q : Fin 1024) : EReal :=
  ∑ l : Fin 1024, xb1 V c t (ix2 p l) * (wb1 V c t (ix2 l q) * (if (1024 * (grid1.coords t 2).val + l.val) / 8 = (1024 * (grid1.coords t 1).val + q.val) / 16 then (1 : EReal) else 0))

/-- The same as a function of every natural (zero past the grid), at a block index. -/
def M1 (n : ℕ) (i : S1024x1024.Idx) : EReal :=
  if h : n < cfg1.N then msum1 V c ⟨n, h⟩ ⟨(i 0).val, idx2_lt0 i⟩ ⟨(i 1).val, idx2_lt1 i⟩ else 0

theorem M1_ix2 (n : ℕ) (h : n < cfg1.N) (p q : Fin 1024) : M1 V c n (ix2 p q) = msum1 V c ⟨n, h⟩ p q := by
  unfold M1; rw [dif_pos h]

/-- The accumulator restarts at a first k … -/
theorem acc1_reset (n : ℕ) (h : n < cfg1.N) (hn : n % 4 = 0) :
    acc1 V c n h = k1_pay1 (k1_pay4 (grid1.coords ⟨n, h⟩)) (k1_pay5 (grid1.coords ⟨n, h⟩)) 16#32 (k1_pay6 (grid1.coords ⟨n, h⟩)) (k1_pay7 (grid1.coords ⟨n, h⟩)) (k1_pay8 (grid1.coords ⟨n, h⟩)) (iblk1 V c 1 ⟨n, h⟩) (k1_pay3 (F := Ideal)) (iblk1 V c 0 ⟨n, h⟩) := by
  cases n with
  | zero => rfl
  | succ n => exact if_pos hn
/-- … and steps from the point before otherwise. -/
theorem acc1_step (n : ℕ) (h : n + 1 < cfg1.N) (hn : ¬(n + 1) % 4 = 0) :
    acc1 V c (n + 1) h = k1_pay1 (k1_pay4 (grid1.coords ⟨n + 1, h⟩)) (k1_pay5 (grid1.coords ⟨n + 1, h⟩)) 16#32 (k1_pay6 (grid1.coords ⟨n + 1, h⟩)) (k1_pay7 (grid1.coords ⟨n + 1, h⟩)) (k1_pay8 (grid1.coords ⟨n + 1, h⟩)) (iblk1 V c 1 ⟨n + 1, h⟩) (acc1 V c n (Nat.lt_of_succ_lt h)) (iblk1 V c 0 ⟨n + 1, h⟩) :=
  if_neg hn

/-- At any point the accumulator is the zero block plus the addends of the points of its run so far. -/
theorem acc1_apply (t : Fin cfg1.N) (p q : Fin 1024) :
    (acc1 V c t.val t.isLt : FVec Ideal S1024x1024 .f32) (ix2 p q) = 0 + ∑ s ∈ Finset.range (t.val % 4 + 1), M1 V c (4 * (t.val / 4) + s) (ix2 p q) := by
  have h' : 4 * (t.val / 4) + t.val % 4 < cfg1.N := by rw [Nat.div_add_mod]; exact t.isLt
  rw [Pipeline.eq_accAt_of_mod (acc1 V c) 4
    (fun n h => k1_pay1 (k1_pay4 (grid1.coords ⟨n, h⟩)) (k1_pay5 (grid1.coords ⟨n, h⟩)) 16#32 (k1_pay6 (grid1.coords ⟨n, h⟩)) (k1_pay7 (grid1.coords ⟨n, h⟩)) (k1_pay8 (grid1.coords ⟨n, h⟩)) (iblk1 V c 1 ⟨n, h⟩) (k1_pay3 (F := Ideal)) (iblk1 V c 0 ⟨n, h⟩))
    (fun n h a => k1_pay1 (k1_pay4 (grid1.coords ⟨n, h⟩)) (k1_pay5 (grid1.coords ⟨n, h⟩)) 16#32 (k1_pay6 (grid1.coords ⟨n, h⟩)) (k1_pay7 (grid1.coords ⟨n, h⟩)) (k1_pay8 (grid1.coords ⟨n, h⟩)) (iblk1 V c 1 ⟨n, h⟩) a (iblk1 V c 0 ⟨n, h⟩))
    (acc1_reset V c) (acc1_step V c) (by decide) t.val t.isLt h']
  refine Pipeline.accAt_add_apply (ι := S1024x1024.Idx) (β := EReal) _ _ (fun _ => 0) (M1 V c) (4 * (t.val / 4)) 3 ?_ ?_
    (t.val % 4) (by omega) h' (ix2 p q)
  · intro h i
    obtain ⟨p, q, rfl⟩ : ∃ (p q : Fin 1024), i = ix2 p q := ⟨i 0, i 1, eq_ix2 i⟩
    rw [M1_ix2 V c _ h]
    exact (PayVal1.k1_pay1_apply _ _ _ _ p q).trans (congrArg (· + _) (PayVal1.k1_pay3_apply p q))
  · intro n h a i _ _
    obtain ⟨p, q, rfl⟩ : ∃ (p q : Fin 1024), i = ix2 p q := ⟨i 0, i 1, eq_ix2 i⟩
    rw [M1_ix2 V c _ h]
    exact PayVal1.k1_pay1_apply _ _ a _ p q

/-- The K addends of a run are the whole dot product, block by block. -/
theorem M1_sum (t : Fin cfg1.N) (p q : Fin 1024) (ho : 1024 * (t.val / 4) + q.val < 8192) :
    ∑ s ∈ Finset.range 4, M1 V c (4 * (t.val / 4) + s) (ix2 p q)
      = ∑ k : Fin 4096, XA1 V c (ix2 p k) * (WA1 V c (ix2 k (⟨1024 * (t.val / 4) + q.val, ho⟩ : Fin 8192)) * (if k.val / 8 = (1024 * (t.val / 4) + q.val) / 16 then (1 : EReal) else 0)) := by
  have hN : grid1.N = 32 := N_1
  have htN : t.val < 32 := lt_of_lt_of_eq t.isLt hN
  let f : ℕ → EReal := fun k => if h : k < 4096 then
    XA1 V c (ix2 p (⟨k, h⟩ : Fin 4096)) * (WA1 V c (ix2 (⟨k, h⟩ : Fin 4096) (⟨1024 * (t.val / 4) + q.val, ho⟩ : Fin 8192)) * (if k / 8 = (1024 * (t.val / 4) + q.val) / 16 then (1 : EReal) else 0)) else 0
  have hR : (∑ k : Fin 4096, XA1 V c (ix2 p k) * (WA1 V c (ix2 k (⟨1024 * (t.val / 4) + q.val, ho⟩ : Fin 8192)) * (if k.val / 8 = (1024 * (t.val / 4) + q.val) / 16 then (1 : EReal) else 0)))
      = ∑ k : Fin (4 * 1024), f k.val :=
    Finset.sum_congr rfl fun k _ => by show _ = dite _ _ _; rw [dif_pos k.isLt]
  rw [hR, Cert.Lib.sum_blocks 4 1024 f, Finset.sum_range]
  refine Finset.sum_congr rfl fun kb _ => ?_
  have hkb : kb.val < 4 := kb.isLt
  have hn : 4 * (t.val / 4) + kb.val < cfg1.N := by show _ < grid1.N; omega
  rw [M1_ix2 V c _ hn]
  unfold msum1
  refine Finset.sum_congr rfl fun l _ => ?_
  have hl : l.val < 1024 := l.isLt
  have hk : kb.val * 1024 + l.val < 4096 := by omega
  have h1 : 1024 * ((4 * (t.val / 4) + kb.val) % 4) + l.val < 4096 := by omega
  have h2 : 1024 * ((4 * (t.val / 4) + kb.val) / 4) + q.val < 8192 := by omega
  show _ = dite _ _ _
  rw [dif_pos hk]
  have ex : xb1 V c ⟨_, hn⟩ (ix2 p l) = XA1 V c (ix2 p (⟨kb.val * 1024 + l.val, hk⟩ : Fin 4096)) :=
    (blk1_0_read (F := Ideal) (XA1 V c) ⟨_, hn⟩ p l h1).trans
      (congrArg (XA1 V c) (congrArg (ix2 p) (Fin.ext (by show 1024 * ((4 * (t.val / 4) + kb.val) % 4) + l.val = kb.val * 1024 + l.val; omega))))
  have ew : wb1 V c ⟨_, hn⟩ (ix2 l q) = WA1 V c (ix2 (⟨kb.val * 1024 + l.val, hk⟩ : Fin 4096) (⟨1024 * (t.val / 4) + q.val, ho⟩ : Fin 8192)) :=
    (blk1_1_read (F := Ideal) (WA1 V c) ⟨_, hn⟩ l q h1 h2).trans
      (congrArg (WA1 V c) (congrArg₂ ix2 (Fin.ext (by show 1024 * ((4 * (t.val / 4) + kb.val) % 4) + l.val = kb.val * 1024 + l.val; omega))
        (Fin.ext (by show 1024 * ((4 * (t.val / 4) + kb.val) / 4) + q.val = 1024 * (t.val / 4) + q.val; omega))))
  rw [ex, ew]
  obtain ⟨g1, g2⟩ := coords1 ⟨_, hn⟩
  have em : ((1024 * (grid1.coords ⟨_, hn⟩ 2).val + l.val) / 8 = (1024 * (grid1.coords ⟨_, hn⟩ 1).val + q.val) / 16)
      ↔ ((kb.val * 1024 + l.val) / 8 = (1024 * (t.val / 4) + q.val) / 16) := by
    rw [g1, g2]
    have a1 : (4 * (t.val / 4) + kb.val) % 4 = kb.val := by omega
    have a2 : (4 * (t.val / 4) + kb.val) / 4 = t.val / 4 := by omega
    show (1024 * ((4 * (t.val / 4) + kb.val) % 4) + l.val) / 8 = (1024 * ((4 * (t.val / 4) + kb.val) / 4) + q.val) / 16 ↔ _
    rw [a1, a2, Nat.mul_comm 1024 kb.val]
  rw [if_congr em rfl rfl]

/-- What a point at the last k writes back is its block of `G1` of the arrays as the region finds them. -/
theorem flushed1_eq (t : Fin cfg1.N) (hf : (cfg1.win 3).flush t = true) :
    (dat1 V c).flushed 3 t = ((cfg1.win 3).blk t).view.read (Elt Ideal) (G1 (XA1 V c) (WA1 V c) (BA1 V c)) := by
  show (cfg1.win 3).cut (grid1.coords t) ((dat1 V c).after 3 t) = _
  rw [after1_3]
  funext j
  obtain ⟨p, q, rfl⟩ : ∃ (p q : Fin 1024), j = ix2 p q := ⟨j 0, j 1, eq_ix2 j⟩
  have hl : t.val % 4 = 3 := (flush1_3 t).mp hf
  have hN : grid1.N = 32 := N_1
  have htN : t.val < 32 := lt_of_lt_of_eq t.isLt hN
  have ho : 1024 * (t.val / 4) + q.val < 8192 := by have := q.isLt; omega
  rw [blk1_3_read (F := Ideal) _ t p q ho]
  show (k1_pay2 (F := Ideal) (acc1 V c t.val t.isLt) (bb1 V c t) (ix2 p q) : EReal) = _
  rw [PayVal1.k1_pay2_apply, acc1_apply V c t p q, hl, M1_sum V c t p q ho, zero_add,
    show bb1 V c t (ix2 (0 : Fin 1) q) = BA1 V c (ix2 (0 : Fin 1) (⟨1024 * (t.val / 4) + q.val, ho⟩ : Fin 8192)) from
      blk1_2_read (F := Ideal) (BA1 V c) t (0 : Fin 1) q ho]
  rfl

/-- The output array after the region: `G1` of the region's three input arrays as it finds them. -/
theorem final1 : (dat1 V c).arrAt 3 cfg1.N = G1 (XA1 V c) (WA1 V c) (BA1 V c) :=
  (dat1 V c).arrAt_eq_of_cover 3 _ (fun t hf => flushed1_eq V c t hf) cover1_3

end Cert.KernelIdeal.Hand

end
-- ==== Proof.KIdx2.lean ====
/- Region 2's windows, read as coordinates. At grid point t (k = t % 8, j = t / 8) the x window holds block (0, k) of
   its array, the w window block (k, j), the bias window block (0, j) and the output window block (0, j); an element
   of a block sits in the array at block index × 1024 + its own coordinate. The output's blocks at the last k cover
   the output array. -/
import proofs.«125502_j49297634623952_2_alg».proof.Proof.Gen.KernelIdeal.Points
import proofs.«125502_j49297634623952_2_alg».proof.Proof.Gen.KernelIdeal.Launch
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]

/-- The printed index maps of region 2, decided over the grid. -/
theorem idx2 : ∀ t : Fin cfg2.N, win2_0.index t (0 : Fin 2) = 0 ∧ win2_0.index t (1 : Fin 2) = t.val % 8
    ∧ win2_1.index t (0 : Fin 2) = t.val % 8 ∧ win2_1.index t (1 : Fin 2) = t.val / 8
    ∧ win2_2.index t (0 : Fin 2) = 0 ∧ win2_2.index t (1 : Fin 2) = t.val / 8
    ∧ win2_3.index t (0 : Fin 2) = 0 ∧ win2_3.index t (1 : Fin 2) = t.val / 8 :=
  (by decide +kernel : ∀ t : Fin grid2.N, _)

/-- The x block at point t, entry (p, l), is the array's entry (p, 1024·k + l). -/
theorem blk2_0_read (A : (⟨S1024x8192, .bf16⟩ : BufTy).Contents (Elt F)) (t : Fin cfg2.N) (p l : Fin 1024)
    (h : 1024 * (t.val % 8) + l.val < 8192) :
    ((cfg2.win 0).blk t).view.read (Elt F) A (ix2 p l) = A (ix2 p ⟨1024 * (t.val % 8) + l.val, h⟩) := by
  obtain ⟨e0, e1, -⟩ := idx2 t
  show A (((cfg2.win 0).blk t).view.emb (ix2 p l)) = _
  refine congrArg A ?_
  funext a; apply Fin.ext
  match a with
  | ⟨0, _⟩ => show win2_0.index t (0 : Fin 2) * 1024 + 1 * p.val = p.val; omega
  | ⟨1, _⟩ => show win2_0.index t (1 : Fin 2) * 1024 + 1 * l.val = 1024 * (t.val % 8) + l.val; omega

/-- The w block at point t, entry (l, q), is the array's entry (1024·k + l, 1024·j + q). -/
theorem blk2_1_read (A : (⟨S8192x2048, .bf16⟩ : BufTy).Contents (Elt F)) (t : Fin cfg2.N) (l q : Fin 1024)
    (h : 1024 * (t.val % 8) + l.val < 8192) (h' : 1024 * (t.val / 8) + q.val < 2048) :
    ((cfg2.win 1).blk t).view.read (Elt F) A (ix2 l q) = A (ix2 ⟨1024 * (t.val % 8) + l.val, h⟩ ⟨1024 * (t.val / 8) + q.val, h'⟩) := by
  obtain ⟨-, -, e0, e1, -⟩ := idx2 t
  show A (((cfg2.win 1).blk t).view.emb (ix2 l q)) = _
  refine congrArg A ?_
  funext a; apply Fin.ext
  match a with
  | ⟨0, _⟩ => show win2_1.index t (0 : Fin 2) * 1024 + 1 * l.val = 1024 * (t.val % 8) + l.val; omega
  | ⟨1, _⟩ => show win2_1.index t (1 : Fin 2) * 1024 + 1 * q.val = 1024 * (t.val / 8) + q.val; omega

/-- The bias block at point t, entry (0, q), is the row's entry (0, 1024·j + q). -/
theorem blk2_2_read (A : (⟨S1x2048, .f32⟩ : BufTy).Contents (Elt F)) (t : Fin cfg2.N) (z : Fin 1) (q : Fin 1024)
    (h' : 1024 * (t.val / 8) + q.val < 2048) :
    ((cfg2.win 2).blk t).view.read (Elt F) A (ix2 z q) = A (ix2 (0 : Fin 1) ⟨1024 * (t.val / 8) + q.val, h'⟩) := by
  obtain ⟨-, -, -, -, e0, e1, -⟩ := idx2 t
  show A (((cfg2.win 2).blk t).view.emb (ix2 z q)) = _
  refine congrArg A ?_
  funext a; apply Fin.ext
  match a with
  | ⟨0, _⟩ => show win2_2.index t (0 : Fin 2) * 1 + 1 * z.val = 0; have := z.isLt; omega
  | ⟨1, _⟩ => show win2_2.index t (1 : Fin 2) * 1024 + 1 * q.val = 1024 * (t.val / 8) + q.val; omega

/-- An index of the output array is in point t's block iff each coordinate is in the block's range on its axis. -/
theorem mem_blk2_3 (t : Fin cfg2.N) (i : S1024x2048.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v15).slice (win2_3.rect t)).set ↔ _
  rw [View.set_slice_whole, Rect.mem_set_unit]
  exact Iff.rfl

/-- Every index of the output array lies in the block of a point at the last k. -/
theorem cover2_3 (i : S1024x2048.Idx) :
    ∃ t : Fin cfg2.N, (cfg2.win 3).flush t = true ∧ i ∈ ((cfg2.win 3).blk t).view.set := by
  have hi0 : (i 0).val < 1024 := (i 0).isLt
  have hi1 : (i 1).val < 2048 := (i 1).isLt
  have hN : grid2.N = 16 := N_2
  obtain ⟨t, ht⟩ : ∃ t : Fin cfg2.N, t.val = 8 * ((i 1).val / 1024) + 7 :=
    ⟨⟨8 * ((i 1).val / 1024) + 7, by show _ < grid2.N; omega⟩, rfl⟩
  refine ⟨t, (flush2_3 t).mpr (by omega), ?_⟩
  rw [mem_blk2_3]
  obtain ⟨-, -, -, -, -, -, e0, e1⟩ := idx2 t
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output block at point t, entry (p, q), is the output array's entry (p, 1024·j + q). -/
theorem blk2_3_read (A : (⟨S1024x2048, .bf16⟩ : BufTy).Contents (Elt F)) (t : Fin cfg2.N) (p q : Fin 1024)
    (h' : 1024 * (t.val / 8) + q.val < 2048) :
    ((cfg2.win 3).blk t).view.read (Elt F) A (ix2 p q) = A (ix2 p ⟨1024 * (t.val / 8) + q.val, h'⟩) := by
  obtain ⟨-, -, -, -, -, -, e0, e1⟩ := idx2 t
  show A (((cfg2.win 3).blk t).view.emb (ix2 p q)) = _
  refine congrArg A ?_
  funext a; apply Fin.ext
  match a with
  | ⟨0, _⟩ => show win2_3.index t (0 : Fin 2) * 1024 + 1 * p.val = p.val; omega
  | ⟨1, _⟩ => show win2_3.index t (1 : Fin 2) * 1024 + 1 * q.val = 1024 * (t.val / 8) + q.val; omega

end Cert.KernelIdeal.Hand

end
-- ==== Proof.KVal2.lean ====
/- What region 2 leaves in its output array, at the ideal instance: the accumulator after the last k of a column block
   is the fold of the K steps, each adding that step's block product, so entry (p, o) of the output array is the whole
   dot product of row p of the left array with column o of the right one, plus the bias row's entry o. -/
import proofs.«125502_j49297634623952_2_alg».proof.Proof.R2Dat
import proofs.«125502_j49297634623952_2_alg».proof.Proof.KIdx2
import proofs.«125502_j49297634623952_2_alg».proof.Proof.PayVal0
import proofs.«125502_j49297634623952_2_alg».proof.Proof.LibBlockSum
import proofs.«125502_j49297634623952_2_alg».proof.Proof.Gen.KernelIdeal.Skeleton
import proofs.«125502_j49297634623952_2_alg».proof.Proof.Gen.KernelIdeal.Launch
import proofs.«125502_j49297634623952_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window BodyObligation cellOf)
open Cert.KernelIdeal Cert.KernelIdeal.Gen
open scoped BigOperators

variable (V : (c : Dev nD) → (b : Ref sig .tc) → Buf (Elt Ideal) ((c : Thread nD τ).loc b)) (c : Dev nD)

/-- The region's three input arrays as it finds them, and its blocks at a point, with their literal types. -/
abbrev XA2 : (⟨S1024x8192, .bf16⟩ : BufTy).Contents (Elt Ideal) := V c (Pipeline.arrRef spec2 0)
abbrev WA2 : (⟨S8192x2048, .bf16⟩ : BufTy).Contents (Elt Ideal) := V c (Pipeline.arrRef spec2 1)
abbrev BA2 : (⟨S1x2048, .f32⟩ : BufTy).Contents (Elt Ideal) := V c (Pipeline.arrRef spec2 2)
abbrev xb2 (t : Fin cfg2.N) : FVec Ideal S1024x1024 .bf16 := iblk2 V c 0 t
abbrev wb2 (t : Fin cfg2.N) : FVec Ideal S1024x1024 .bf16 := iblk2 V c 1 t
abbrev bb2 (t : Fin cfg2.N) : FVec Ideal S1x1024 .f32 := iblk2 V c 2 t

/-- The whole-array function region 2 computes: entry (p, o) is the dot product of row p of `X` with column o of `Wt`, plus
    entry o of the bias row, floored at zero. -/
def G2 (X : (⟨S1024x8192, .bf16⟩ : BufTy).Contents (Elt Ideal)) (Wt : (⟨S8192x2048, .bf16⟩ : BufTy).Contents (Elt Ideal))
    (Bv : (⟨S1x2048, .f32⟩ : BufTy).Contents (Elt Ideal)) : (⟨S1024x2048, .bf16⟩ : BufTy).Contents (Elt Ideal) :=
  fun i => (max ((∑ k : Fin 8192, (X (ix2 (⟨(i 0).val, idx2_lt0 i⟩ : Fin 1024) k) : EReal) * (Wt (ix2 k (⟨(i 1).val, idx2_lt1 i⟩ : Fin 2048)) : EReal))
      + (Bv (ix2 (0 : Fin 1) (⟨(i 1).val, idx2_lt1 i⟩ : Fin 2048)) : EReal)) 0 : EReal)

/-- One step's addend at block entry (p, q): row p of the step's x block times column q of its w block. -/
def msum2 (t : Fin cfg2.N) (p q : Fin 1024) : EReal :=
  ∑ l : Fin 1024, xb2 V c t (ix2 p l) * wb2 V c t (ix2 l q)

/-- The same as a function of every natural (zero past the grid), at a block index. -/
def M2 (n : ℕ) (i : S1024x1024.Idx) : EReal :=
  if h : n < cfg2.N then msum2 V c ⟨n, h⟩ ⟨(i 0).val, idx2_lt0 i⟩ ⟨(i 1).val, idx2_lt1 i⟩ else 0

theorem M2_ix2 (n : ℕ) (h : n < cfg2.N) (p q : Fin 1024) : M2 V c n (ix2 p q) = msum2 V c ⟨n, h⟩ p q := by
  unfold M2; rw [dif_pos h]

/-- The accumulator restarts at a first k … -/
theorem acc2_reset (n : ℕ) (h : n < cfg2.N) (hn : n % 8 = 0) :
    acc2 V c n h = k2_pay2 (k2_pay1 (F := Ideal)) (iblk2 V c 0 ⟨n, h⟩) (iblk2 V c 1 ⟨n, h⟩) := by
  cases n with
  | zero => rfl
  | succ n => exact if_pos hn
/-- … and steps from the point before otherwise. -/
theorem acc2_step (n : ℕ) (h : n + 1 < cfg2.N) (hn : ¬(n + 1) % 8 = 0) :
    acc2 V c (n + 1) h = k2_pay2 (acc2 V c n (Nat.lt_of_succ_lt h)) (iblk2 V c 0 ⟨n + 1, h⟩) (iblk2 V c 1 ⟨n + 1, h⟩) :=
  if_neg hn

/-- At any point the accumulator is the zero block plus the addends of the points of its run so far. -/
theorem acc2_apply (t : Fin cfg2.N) (p q : Fin 1024) :
    (acc2 V c t.val t.isLt : FVec Ideal S1024x1024 .f32) (ix2 p q) = 0 + ∑ s ∈ Finset.range (t.val % 8 + 1), M2 V c (8 * (t.val / 8) + s) (ix2 p q) := by
  have h' : 8 * (t.val / 8) + t.val % 8 < cfg2.N := by rw [Nat.div_add_mod]; exact t.isLt
  rw [Pipeline.eq_accAt_of_mod (acc2 V c) 8
    (fun n h => k2_pay2 (k2_pay1 (F := Ideal)) (iblk2 V c 0 ⟨n, h⟩) (iblk2 V c 1 ⟨n, h⟩))
    (fun n h a => k2_pay2 a (iblk2 V c 0 ⟨n, h⟩) (iblk2 V c 1 ⟨n, h⟩))
    (acc2_reset V c) (acc2_step V c) (by decide) t.val t.isLt h']
  refine Pipeline.accAt_add_apply (ι := S1024x1024.Idx) (β := EReal) _ _ (fun _ => 0) (M2 V c) (8 * (t.val / 8)) 7 ?_ ?_
    (t.val % 8) (by omega) h' (ix2 p q)
  · intro h i
    obtain ⟨p, q, rfl⟩ : ∃ (p q : Fin 1024), i = ix2 p q := ⟨i 0, i 1, eq_ix2 i⟩
    rw [M2_ix2 V c _ h]
    exact (PayVal.k2_pay2_apply _ _ _ p q).trans (congrArg (· + _) (PayVal.k2_pay1_apply p q))
  · intro n h a i _ _
    obtain ⟨p, q, rfl⟩ : ∃ (p q : Fin 1024), i = ix2 p q := ⟨i 0, i 1, eq_ix2 i⟩
    rw [M2_ix2 V c _ h]
    exact PayVal.k2_pay2_apply a _ _ p q

/-- The K addends of a run are the whole dot product, block by block. -/
theorem M2_sum (t : Fin cfg2.N) (p q : Fin 1024) (ho : 1024 * (t.val / 8) + q.val < 2048) :
    ∑ s ∈ Finset.range 8, M2 V c (8 * (t.val / 8) + s) (ix2 p q)
      = ∑ k : Fin 8192, XA2 V c (ix2 p k) * WA2 V c (ix2 k (⟨1024 * (t.val / 8) + q.val, ho⟩ : Fin 2048)) := by
  have hN : grid2.N = 16 := N_2
  have htN : t.val < 16 := lt_of_lt_of_eq t.isLt hN
  let f : ℕ → EReal := fun k => if h : k < 8192 then
    XA2 V c (ix2 p (⟨k, h⟩ : Fin 8192)) * WA2 V c (ix2 (⟨k, h⟩ : Fin 8192) (⟨1024 * (t.val / 8) + q.val, ho⟩ : Fin 2048)) else 0
  have hR : (∑ k : Fin 8192, XA2 V c (ix2 p k) * WA2 V c (ix2 k (⟨1024 * (t.val / 8) + q.val, ho⟩ : Fin 2048)))
      = ∑ k : Fin (8 * 1024), f k.val :=
    Finset.sum_congr rfl fun k _ => by show _ = dite _ _ _; rw [dif_pos k.isLt]
  rw [hR, Cert.Lib.sum_blocks 8 1024 f, Finset.sum_range]
  refine Finset.sum_congr rfl fun kb _ => ?_
  have hkb : kb.val < 8 := kb.isLt
  have hn : 8 * (t.val / 8) + kb.val < cfg2.N := by show _ < grid2.N; omega
  rw [M2_ix2 V c _ hn]
  unfold msum2
  refine Finset.sum_congr rfl fun l _ => ?_
  have hl : l.val < 1024 := l.isLt
  have hk : kb.val * 1024 + l.val < 8192 := by omega
  have h1 : 1024 * ((8 * (t.val / 8) + kb.val) % 8) + l.val < 8192 := by omega
  have h2 : 1024 * ((8 * (t.val / 8) + kb.val) / 8) + q.val < 2048 := by omega
  show _ = dite _ _ _
  rw [dif_pos hk]
  have ex : xb2 V c ⟨_, hn⟩ (ix2 p l) = XA2 V c (ix2 p (⟨kb.val * 1024 + l.val, hk⟩ : Fin 8192)) :=
    (blk2_0_read (F := Ideal) (XA2 V c) ⟨_, hn⟩ p l h1).trans
      (congrArg (XA2 V c) (congrArg (ix2 p) (Fin.ext (by show 1024 * ((8 * (t.val / 8) + kb.val) % 8) + l.val = kb.val * 1024 + l.val; omega))))
  have ew : wb2 V c ⟨_, hn⟩ (ix2 l q) = WA2 V c (ix2 (⟨kb.val * 1024 + l.val, hk⟩ : Fin 8192) (⟨1024 * (t.val / 8) + q.val, ho⟩ : Fin 2048)) :=
    (blk2_1_read (F := Ideal) (WA2 V c) ⟨_, hn⟩ l q h1 h2).trans
      (congrArg (WA2 V c) (congrArg₂ ix2 (Fin.ext (by show 1024 * ((8 * (t.val / 8) + kb.val) % 8) + l.val = kb.val * 1024 + l.val; omega))
        (Fin.ext (by show 1024 * ((8 * (t.val / 8) + kb.val) / 8) + q.val = 1024 * (t.val / 8) + q.val; omega))))
  rw [ex, ew]

/-- What a point at the last k writes back is its block of `G2` of the arrays as the region finds them. -/
theorem flushed2_eq (t : Fin cfg2.N) (hf : (cfg2.win 3).flush t = true) :
    (dat2 V c).flushed 3 t = ((cfg2.win 3).blk t).view.read (Elt Ideal) (G2 (XA2 V c) (WA2 V c) (BA2 V c)) := by
  show (cfg2.win 3).cut (grid2.coords t) ((dat2 V c).after 3 t) = _
  rw [after2_3]
  funext j
  obtain ⟨p, q, rfl⟩ : ∃ (p q : Fin 1024), j = ix2 p q := ⟨j 0, j 1, eq_ix2 j⟩
  have hl : t.val % 8 = 7 := (flush2_3 t).mp hf
  have hN : grid2.N = 16 := N_2
  have htN : t.val < 16 := lt_of_lt_of_eq t.isLt hN
  have ho : 1024 * (t.val / 8) + q.val < 2048 := by have := q.isLt; omega
  rw [blk2_3_read (F := Ideal) _ t p q ho]
  show (k2_pay3 (F := Ideal) (acc2 V c t.val t.isLt) (bb2 V c t) (ix2 p q) : EReal) = _
  rw [PayVal.k2_pay3_apply, acc2_apply V c t p q, hl, M2_sum V c t p q ho, zero_add,
    show bb2 V c t (ix2 (0 : Fin 1) q) = BA2 V c (ix2 (0 : Fin 1) (⟨1024 * (t.val / 8) + q.val, ho⟩ : Fin 2048)) from
      blk2_2_read (F := Ideal) (BA2 V c) t (0 : Fin 1) q ho]
  rfl

/-- The output array after the region: `G2` of the region's three input arrays as it finds them. -/
theorem final2 : (dat2 V c).arrAt 3 cfg2.N = G2 (XA2 V c) (WA2 V c) (BA2 V c) :=
  (dat2 V c).arrAt_eq_of_cover 3 _ (fun t hf => flushed2_eq V c t hf) cover2_3

end Cert.KernelIdeal.Hand

end
-- ==== Proof.KHost.lean ====
import proofs.«125502_j49297634623952_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HostVal

open Cert.KernelIdeal Cert.KernelIdeal.Gen Idealize.ShloMosaic Idealize.ShloMosaic.TcCoe Idealize.ShloMosaic.StableHlo Idealize.ShloMosaic.ValueIdx

variable (W : Valuation τ sig (Elt Ideal))

/-!
# The host operations of the kernel's program, read at an index

Around its three matrix-product kernels the program prepares their operands with a few array
operations and finishes with a last, small matrix product. For any contents `W` of the buffers before a
stretch of these operations, the buffers the kernels read hold afterwards, at the ideal values:

* the three large operands unchanged (a change of float format is the identity on extended reals);
* the first weight matrix times the mask, whose column `o` repeats column `o / 8` of the integer
  mask array (the array is broadcast along a new last axis of length 8 and the three axes read as two);
* each bias vector as a one-row matrix;
* the last product: row `p` of the left operand against column `u` of the right one, plus the bias entry
  at `u`.
-/

/-! ## Layout operations at an index -/

section Layout
variable {α : Type}

/-- The three axes `[4096, 512, 8]` read as `[4096, 4096]`: entry `(k, o)` is the operand's `(k, o / 8, o % 8)`. -/
theorem cast32_apply (v : S4096x512x8.Idx → α) (k o : Fin 4096) :
    shapeCast S4096x4096 v shapeCasts_S4096x512x8_S4096x4096 (ix2 k o)
      = v (ix3 k (⟨o.val / 8, by omega⟩ : Fin 512) (⟨o.val % 8, by omega⟩ : Fin 8)) :=
  shapeCast_apply v shapeCasts_S4096x512x8_S4096x4096 _ _ (by
    rw [Shape.rowMajor_val_three, Shape.rowMajor_val_two]
    show (k.val * 512 + o.val / 8) * 8 + o.val % 8 = k.val * 4096 + o.val
    omega)

/-- The two axes `[4096, 4096]` read as `[4096, 512, 8]`: entry `(k, o / 8, o % 8)` is the operand's `(k, o)`. -/
theorem cast23_apply (v : S4096x4096.Idx → α) (k o : Fin 4096) :
    shapeCast S4096x512x8 v shapeCasts_S4096x4096_S4096x512x8
        (ix3 k (⟨o.val / 8, by omega⟩ : Fin 512) (⟨o.val % 8, by omega⟩ : Fin 8))
      = v (ix2 k o) :=
  shapeCast_apply v shapeCasts_S4096x4096_S4096x512x8 _ _ (by
    rw [Shape.rowMajor_val_three, Shape.rowMajor_val_two]
    show k.val * 4096 + o.val = (k.val * 512 + o.val / 8) * 8 + o.val % 8
    omega)

/-- A `[4096, 512, 1]` array broadcast along its last axis to length 8 reads, at `(a, b, c)`, the operand's `(a, b, 0)`. -/
theorem bcast3_apply (v : S4096x512x1.Idx → α) (a : Fin 4096) (b : Fin 512) (c : Fin 8) :
    broadcastInDim S4096x512x8 ![0, 1, 2] bcast_S4096x512x1_S4096x512x8_0_1_2 v (ix3 a b c) = v (ix3 a b (0 : Fin 1)) :=
  broadcastInDim_apply _ bcast_S4096x512x1_S4096x512x8_0_1_2 v _ _ (fun ax => match ax with
    | ⟨0, _⟩ => by show a.val = if (4096 : Nat) = 1 then 0 else a.val; rw [if_neg (by decide)]
    | ⟨1, _⟩ => by show b.val = if (512 : Nat) = 1 then 0 else b.val; rw [if_neg (by decide)]
    | ⟨2, _⟩ => by show 0 = if (1 : Nat) = 1 then 0 else c.val; rw [if_pos rfl])

/-- A `[4096, 512]` array given a last axis of length one reads, at `(a, b, z)`, the operand's `(a, b)`. -/
theorem bcast2_apply (v : S4096x512.Idx → α) (a : Fin 4096) (b : Fin 512) (z : Fin 1) :
    broadcastInDim S4096x512x1 ![0, 1] bcast_S4096x512_S4096x512x1_0_1 v (ix3 a b z) = v (ix2 a b) :=
  broadcastInDim_apply _ bcast_S4096x512_S4096x512x1_0_1 v _ _ (fun ax => match ax with
    | ⟨0, _⟩ => by show a.val = if (4096 : Nat) = 1 then 0 else a.val; rw [if_neg (by decide)]
    | ⟨1, _⟩ => by show b.val = if (512 : Nat) = 1 then 0 else b.val; rw [if_neg (by decide)])

/-- A vector of length 4 as a one-row matrix reads, at `(z, u)`, the vector's entry `u`. -/
theorem bcastRow_apply (v : S4.Idx → α) (z : Fin 1) (u : Fin 4) :
    broadcastInDim S1x4 ![1] bcast_S4_S1x4_1 v (ix2 z u) = v (ix1 u) :=
  broadcastInDim_apply _ bcast_S4_S1x4_1 v _ _ (fun ax => match ax with
    | ⟨0, _⟩ => by show u.val = if (4 : Nat) = 1 then 0 else u.val; rw [if_neg (by decide)])

/-- A one-row matrix `[1, 4]` broadcast over 1024 rows reads, at `(p, u)`, its one row at `u`. -/
theorem bcastRows_apply (v : S1x4.Idx → α) (p : Fin 1024) (u : Fin 4) :
    broadcastInDim S1024x4 ![0, 1] bcast_S1x4_S1024x4_0_1 v (ix2 p u) = v (ix2 (0 : Fin 1) u) :=
  broadcastInDim_apply _ bcast_S1x4_S1024x4_0_1 v _ _ (fun ax => match ax with
    | ⟨0, _⟩ => by show 0 = if (1 : Nat) = 1 then 0 else p.val; rw [if_pos rfl]
    | ⟨1, _⟩ => by show u.val = if (4 : Nat) = 1 then 0 else u.val; rw [if_neg (by decide)])

end Layout

/-! ## The last matrix product at an index -/

/-- The left operand's index at output index `i` and contraction index `k` has `i`'s row … -/
theorem lhsIdx_row (i : S1024x4.Idx) (k : dot_S1024x2048_S2048x4_S1024x4_1_0_0_1_n_n.contr.Idx) :
    (dot_S1024x2048_S2048x4_S1024x4_1_0_0_1_n_n.lhsIdx i k 0).val = (i 0).val := by
  unfold DotDims.lhsIdx
  rw [dif_neg (show ¬(0 : Fin S1024x2048.rank) ∈ dot_S1024x2048_S2048x4_S1024x4_1_0_0_1_n_n.lhsBatch by decide),
    dif_pos (show (0 : Fin S1024x2048.rank) ∈ dot_S1024x2048_S2048x4_S1024x4_1_0_0_1_n_n.lhsNonContracting by decide)]
  rfl
/-- … and the contraction coordinate as its column. -/
theorem lhsIdx_col (i : S1024x4.Idx) (k : dot_S1024x2048_S2048x4_S1024x4_1_0_0_1_n_n.contr.Idx) :
    (dot_S1024x2048_S2048x4_S1024x4_1_0_0_1_n_n.lhsIdx i k 1).val = (k ⟨0, by decide⟩).val :=
  dot_S1024x2048_S2048x4_S1024x4_1_0_0_1_n_n.lhsIdx_val_of_single rfl i k
/-- The right operand's index has the contraction coordinate as its row … -/
theorem rhsIdx_row (i : S1024x4.Idx) (k : dot_S1024x2048_S2048x4_S1024x4_1_0_0_1_n_n.contr.Idx) :
    (dot_S1024x2048_S2048x4_S1024x4_1_0_0_1_n_n.rhsIdx i k 0).val = (k ⟨0, by decide⟩).val :=
  dot_S1024x2048_S2048x4_S1024x4_1_0_0_1_n_n.rhsIdx_val_of_single rfl i k
/-- … and `i`'s column. -/
theorem rhsIdx_col (i : S1024x4.Idx) (k : dot_S1024x2048_S2048x4_S1024x4_1_0_0_1_n_n.contr.Idx) :
    (dot_S1024x2048_S2048x4_S1024x4_1_0_0_1_n_n.rhsIdx i k 1).val = (i 1).val := by
  unfold DotDims.rhsIdx
  rw [dif_neg (show ¬(1 : Fin S2048x4.rank) ∈ dot_S1024x2048_S2048x4_S1024x4_1_0_0_1_n_n.rhsBatch by decide),
    dif_pos (show (1 : Fin S2048x4.rank) ∈ dot_S1024x2048_S2048x4_S1024x4_1_0_0_1_n_n.rhsNonContracting by decide)]
  rfl

/-- The `[1024, 2048]` by `[2048, 4]` product at `(p, u)`: row `p` of the left operand against column `u` of the
    right one. -/
theorem dot_apply (y : FVec Ideal S1024x2048 .f32) (x : FVec Ideal S2048x4 .f32) (p : Fin 1024) (u : Fin 4) :
    Host.dotGeneral dot_S1024x2048_S2048x4_S1024x4_1_0_0_1_n_n none y x (ix2 p u) = ∑ k : Fin 2048, y (ix2 p k) * x (ix2 k u) := by
  refine (Ideal.dotGeneral_apply dot_S1024x2048_S2048x4_S1024x4_1_0_0_1_n_n none .single y x (ix2 p u)).trans ?_
  rw [← Equiv.sum_comp (contrEquiv1 dot_S1024x2048_S2048x4_S1024x4_1_0_0_1_n_n 2048 rfl rfl).symm]
  refine Finset.sum_congr rfl fun k _ => ?_
  have hk := contrEquiv1_symm_val dot_S1024x2048_S2048x4_S1024x4_1_0_0_1_n_n 2048 rfl rfl k
  have el : dot_S1024x2048_S2048x4_S1024x4_1_0_0_1_n_n.lhsIdx (ix2 p u)
      ((contrEquiv1 dot_S1024x2048_S2048x4_S1024x4_1_0_0_1_n_n 2048 rfl rfl).symm k) = ix2 p k :=
    funext fun a => Fin.ext (by
      match a with
      | ⟨0, _⟩ => exact lhsIdx_row _ _
      | ⟨1, _⟩ => exact (lhsIdx_col _ _).trans hk)
  have er : dot_S1024x2048_S2048x4_S1024x4_1_0_0_1_n_n.rhsIdx (ix2 p u)
      ((contrEquiv1 dot_S1024x2048_S2048x4_S1024x4_1_0_0_1_n_n 2048 rfl rfl).symm k) = ix2 k u :=
    funext fun a => Fin.ext (by
      match a with
      | ⟨0, _⟩ => exact (rhsIdx_row _ _).trans hk
      | ⟨1, _⟩ => exact rhsIdx_col _ _)
  rw [el, er]

/-! ## The operations' terms at an index, over plain vectors -/

/-- The masked first weight matrix at `(k, o)`: the weight there times the mask's entry `(k, o / 8)`. -/
theorem maskedWeight_apply (x2 : FVec Ideal S4096x4096 .f32) (x1 : IVec S4096x512 32) (k o : Fin 4096) :
    (truncf .bf16
        (shapeCast S4096x4096
          (mulf (shapeCast S4096x512x8 x2 shapeCasts_S4096x4096_S4096x512x8)
            (broadcastInDim S4096x512x8 ![0, 1, 2] bcast_S4096x512x1_S4096x512x8_0_1_2
              (broadcastInDim S4096x512x1 ![0, 1] bcast_S4096x512_S4096x512x1_0_1 (sitofp (F := Ideal) .f32 x1))))
          shapeCasts_S4096x512x8_S4096x4096) bitsLt_bf16_f32 : FVec Ideal S4096x4096 .bf16) (ix2 k o)
      = x2 (ix2 k o) * FloatOps.sitofp (F := Ideal) .f32 (x1 (ix2 k (⟨o.val / 8, by omega⟩ : Fin 512))) := by
  rw [truncf_apply, cast32_apply, mulf_apply, cast23_apply, bcast3_apply, bcast2_apply, sitofp_apply]

/-- The last product plus its bias at `(p, u)`. -/
theorem lastStage_apply (y : FVec Ideal S1024x2048 .bf16) (x8 : FVec Ideal S2048x4 .f32) (x9 : FVec Ideal S4 .f32)
    (p : Fin 1024) (u : Fin 4) :
    addf (Host.dotGeneral dot_S1024x2048_S2048x4_S1024x4_1_0_0_1_n_n none (extf .f32 y bitsLt_bf16_f32) x8)
        (broadcastInDim S1024x4 ![0, 1] bcast_S1x4_S1024x4_0_1 (broadcastInDim S1x4 ![1] bcast_S4_S1x4_1 x9)) (ix2 p u)
      = (∑ k : Fin 2048, (y (ix2 p k) : EReal) * x8 (ix2 k u)) + x9 (ix1 u) := by
  rw [addf_apply, dot_apply, bcastRows_apply, bcastRow_apply]
  rfl

/-! ## The buffers after each stretch of host operations

A buffer's entry has a type that only computes to the extended reals, so the products and sums below are
written with their type spelt out. -/

/-- The left operand of the first product: the first argument, unchanged. -/
theorem ops0_v9 (i : S1024x4096.Idx) :
    (StableHlo.after hostOps0 W (Proc.devRef .tc main_v9) i : EReal) = W (Proc.devRef .tc main_arg0) i := by
  after_results
  rfl

/-- The second weight matrix, unchanged. -/
theorem ops0_v7 (i : S4096x8192.Idx) :
    (StableHlo.after hostOps0 W (Proc.devRef .tc main_v7) i : EReal) = W (Proc.devRef .tc main_arg4) i := by
  after_results
  rfl

/-- The third weight matrix, unchanged. -/
theorem ops0_v8 (i : S8192x2048.Idx) :
    (StableHlo.after hostOps0 W (Proc.devRef .tc main_v8) i : EReal) = W (Proc.devRef .tc main_arg6) i := by
  after_results
  rfl

/-- The masked first weight matrix. -/
theorem ops0_v6 (k o : Fin 4096) :
    (StableHlo.after hostOps0 W (Proc.devRef .tc main_v6) (ix2 k o) : EReal)
      = @HMul.hMul EReal EReal EReal _ (W (Proc.devRef .tc main_arg2) (ix2 k o))
          (FloatOps.sitofp (F := Ideal) .f32 (W (Proc.devRef .tc main_arg1) (ix2 k (⟨o.val / 8, by omega⟩ : Fin 512)))) := by
  after_results
  exact maskedWeight_apply (W (Proc.devRef .tc main_arg2)) (W (Proc.devRef .tc main_arg1)) k o

/-- The first bias as a one-row matrix. -/
theorem ops0_v10 (z : Fin 1) (o : Fin 4096) :
    (StableHlo.after hostOps0 W (Proc.devRef .tc main_v10) (ix2 z o) : EReal) = W (Proc.devRef .tc main_arg3) (ix1 o) := by
  after_results
  exact shapeCast_a_1a_apply (W (Proc.devRef .tc main_arg3)) shapeCasts_S4096_S1x4096 z o

/-- The second bias as a one-row matrix. -/
theorem ops1_v12 (z : Fin 1) (o : Fin 8192) :
    (StableHlo.after hostOps1 W (Proc.devRef .tc main_v12) (ix2 z o) : EReal) = W (Proc.devRef .tc main_arg5) (ix1 o) := by
  after_results
  exact shapeCast_a_1a_apply (W (Proc.devRef .tc main_arg5)) shapeCasts_S8192_S1x8192 z o

/-- The third bias as a one-row matrix. -/
theorem ops2_v14 (z : Fin 1) (o : Fin 2048) :
    (StableHlo.after hostOps2 W (Proc.devRef .tc main_v14) (ix2 z o) : EReal) = W (Proc.devRef .tc main_arg7) (ix1 o) := by
  after_results
  exact shapeCast_a_1a_apply (W (Proc.devRef .tc main_arg7)) shapeCasts_S2048_S1x2048 z o

/-- The program's result: the last product plus its bias. -/
theorem ops3_v20 (p : Fin 1024) (u : Fin 4) :
    (StableHlo.after hostOps3 W (Proc.devRef .tc main_v20) (ix2 p u) : EReal)
      = @HAdd.hAdd EReal EReal EReal _
          (∑ k : Fin 2048, @HMul.hMul EReal EReal EReal _ (W (Proc.devRef .tc main_v15) (ix2 p k)) (W (Proc.devRef .tc main_arg8) (ix2 k u)))
          (W (Proc.devRef .tc main_arg9) (ix1 u)) := by
  after_results
  exact lastStage_apply (W (Proc.devRef .tc main_v15)) (W (Proc.devRef .tc main_arg8)) (W (Proc.devRef .tc main_arg9)) p u

end Cert.KernelIdeal.HostVal
-- ==== Proof.RefStages.lean ====
import proofs.«125502_j49297634623952_2_alg».proof.Proof.Gen.ReferenceIdeal.Read
import Idealize.ShloMosaic.Lib.IdealHost

/-!
# The reference's four layers read at an index

The reference computes four dense layers. At the ideal values, and with every layout operation composed
away, each layer's output element is a plain sum over the contraction coordinate plus the bias entry:

* layer 1 multiplies the weights by a mask that repeats every column of a [4096, 512] integer array eight
  times: column o of the mask reads column o / 8 of that array;
* layer 2 multiplies the weights by the Kronecker product of the 512 × 512 identity with an 8 × 16 block of
  ones: its entry (k, c) is 1 when k / 8 = c / 16 and 0 otherwise;
* layer 3 is followed by a maximum with zero;
* layer 4 is plain.
-/

noncomputable section

namespace Cert.ReferenceIdeal.RefValue

open Cert.ReferenceIdeal Cert.ReferenceIdeal.Read Idealize.ShloMosaic Idealize.ShloMosaic.ValueIdx

variable (x0 : (⟨S1024x4096, .f32⟩ : BufTy).Contents (Elt Ideal)) (x1 : (⟨S4096x512, .i32⟩ : BufTy).Contents (Elt Ideal))
  (x2 : (⟨S4096x4096, .f32⟩ : BufTy).Contents (Elt Ideal)) (x3 : (⟨S4096, .f32⟩ : BufTy).Contents (Elt Ideal))
  (x4 : (⟨S4096x8192, .f32⟩ : BufTy).Contents (Elt Ideal)) (x5 : (⟨S8192, .f32⟩ : BufTy).Contents (Elt Ideal))
  (x6 : (⟨S8192x2048, .f32⟩ : BufTy).Contents (Elt Ideal)) (x7 : (⟨S2048, .f32⟩ : BufTy).Contents (Elt Ideal))
  (x8 : (⟨S2048x4, .f32⟩ : BufTy).Contents (Elt Ideal)) (x9 : (⟨S4, .f32⟩ : BufTy).Contents (Elt Ideal))

/-- Layer 1 at (p, o): the inner product of row p of the input with column o of the masked weights, plus the
    bias. Column o of the mask is column o / 8 of the integer array, converted to a float. -/
theorem stage1 (p : Fin 1024) (o : Fin 4096) : val_main_v15 (F := Ideal) x0 x1 x2 x3 (ix2 p o)
    = (∑ k : Fin 4096, x0 (ix2 p k) * (x2 (ix2 k o) *
        FloatOps.sitofp (F := Ideal) .f32 (x1 (ix2 k (⟨o.val / 8, by have := o.isLt; omega⟩ : Fin 512))))) + x3 (ix1 o) := by
  have ho : o.val < 4096 := o.isLt
  rw [val_main_v15_apply, val_main_v12_apply, val_main_v14_apply, val_main_v13_apply]
  show (∑ k : Fin 4096, _) + _ = _
  congr 1
  · refine Finset.sum_congr rfl fun k _ => ?_
    have hk : k.val < 4096 := k.isLt
    rw [val_main_v11_apply, val_main_v2_apply, val_main_v1_apply, val_main_v0_apply]
    have e1 : lidx_main_v12 (ix2 p o) k = ix2 p k :=
      funext fun a => Fin.ext (by match a with | ⟨0, _⟩ => rfl | ⟨1, _⟩ => rfl)
    have e2 : ridx_main_v12 (ix2 p o) k = ix2 k o :=
      funext fun a => Fin.ext (by match a with | ⟨0, _⟩ => rfl | ⟨1, _⟩ => rfl)
    have e3 : idx_main_v1 (idx_main_v2 (ix2 k o)) = ix2 k (⟨o.val / 8, by omega⟩ : Fin 512) :=
      funext fun a => Fin.ext (by
        match a with
        | ⟨0, _⟩ => show (k.val * 4096 + o.val) / 4096 = k.val; omega
        | ⟨1, _⟩ => show (k.val * 4096 + o.val) / 8 % 512 = o.val / 8; omega)
    rw [e1, e2, e3]
    rfl
  · exact congrArg x3 (funext fun a => Fin.ext (by match a with | ⟨0, _⟩ => rfl))

/-- Layer 3 at (p, o): the inner product of row p of layer 2's output with column o of the weights, plus the
    bias, then the maximum with zero. -/
theorem stage3 (p : Fin 1024) (o : Fin 2048) : val_main_v25 (F := Ideal) x0 x1 x2 x3 x4 x5 x6 x7 (ix2 p o)
    = max ((∑ k : Fin 8192, val_main_v20 (F := Ideal) x0 x1 x2 x3 x4 x5 (ix2 p k) * x6 (ix2 k o)) + x7 (ix1 o)) 0 := by
  rw [val_main_v25_apply, val_main_v24_apply, val_main_v21_apply, val_main_v23_apply, val_main_v22_apply,
    val_main_call1_v0_apply, val_main_call1_cst_apply]
  generalize val_main_v20 (F := Ideal) x0 x1 x2 x3 x4 x5 = y
  show max ((∑ k : Fin 8192, _) + _) (Ideal.ofBits .f32 0x00000000#32) = _
  rw [Ideal.ofBits_zero_f32]
  congr 2
  · refine Finset.sum_congr rfl fun k _ => ?_
    have e1 : lidx_main_v21 (ix2 p o) k = ix2 p k :=
      funext fun a => Fin.ext (by match a with | ⟨0, _⟩ => rfl | ⟨1, _⟩ => rfl)
    have e2 : ridx_main_v21 (ix2 p o) k = ix2 k o :=
      funext fun a => Fin.ext (by match a with | ⟨0, _⟩ => rfl | ⟨1, _⟩ => rfl)
    rw [e1, e2]
  · exact congrArg x7 (funext fun a => Fin.ext (by match a with | ⟨0, _⟩ => rfl))

/-- Layer 4 at (p, u): the inner product of row p of layer 3's output with column u of the weights, plus the
    bias. -/
theorem stage4 (p : Fin 1024) (u : Fin 4) : val_main_v29 (F := Ideal) x0 x1 x2 x3 x4 x5 x6 x7 x8 x9 (ix2 p u)
    = (∑ k : Fin 2048, val_main_v25 (F := Ideal) x0 x1 x2 x3 x4 x5 x6 x7 (ix2 p k) * x8 (ix2 k u)) + x9 (ix1 u) := by
  rw [val_main_v29_apply, val_main_v26_apply, val_main_v28_apply, val_main_v27_apply]
  generalize val_main_v25 (F := Ideal) x0 x1 x2 x3 x4 x5 x6 x7 = y
  show (∑ k : Fin 2048, _) + _ = _
  congr 1
  · refine Finset.sum_congr rfl fun k _ => ?_
    have e1 : lidx_main_v26 (ix2 p u) k = ix2 p k :=
      funext fun a => Fin.ext (by match a with | ⟨0, _⟩ => rfl | ⟨1, _⟩ => rfl)
    have e2 : ridx_main_v26 (ix2 p u) k = ix2 k u :=
      funext fun a => Fin.ext (by match a with | ⟨0, _⟩ => rfl | ⟨1, _⟩ => rfl)
    rw [e1, e2]
  · exact congrArg x9 (funext fun a => Fin.ext (by match a with | ⟨0, _⟩ => rfl))

/-! ## Layer 2: the Kronecker mask -/

/-- Equality of the words of two naturals below 2^32, as a one-bit word read unsigned and converted to a float,
    is the indicator of the naturals' equality. -/
theorem eye_word (a b : Nat) (ha : a < 2 ^ 32) (hb : b < 2 ^ 32) :
    FloatOps.uitofp (F := Ideal) .f32 (IntOp.cmpi .eq (IntOp.addi (BitVec.ofNat 32 a) 0#32) (BitVec.ofNat 32 b))
      = if a = b then (1 : EReal) else 0 := by
  show (((BitVec.ofBool (BitVec.ofNat 32 a + 0#32 == BitVec.ofNat 32 b)).toNat : ℝ) : EReal) = _
  rw [BitVec.add_zero]
  by_cases h : a = b
  · subst h
    rw [if_pos rfl, beq_self_eq_true]
    simp
  · have hne : (BitVec.ofNat 32 a == BitVec.ofNat 32 b) = false := by
      rw [beq_eq_false_iff_ne]
      intro hh
      apply h
      have := congrArg BitVec.toNat hh
      rw [BitVec.toNat_ofNat, BitVec.toNat_ofNat] at this
      omega
    rw [if_neg h, hne]
    simp

/-- The Kronecker product of the 512 × 512 identity with the 8 × 16 block of ones, at (k, c): the identity at
    (k / 8, c / 16), times one. -/
theorem kron_apply (k : Fin 4096) (c : Fin 8192) :
    val_main_v10 (F := Ideal) (ix2 k c) = if k.val / 8 = c.val / 16 then (1 : EReal) else 0 := by
  have hk : k.val < 4096 := k.isLt
  have hc : c.val < 8192 := c.isLt
  have hA : (k.val * 8192 + c.val) / 65536 = k.val / 8 := by omega
  have hB : (k.val * 8192 + c.val) / 16 % 512 = c.val / 16 := by omega
  rw [val_main_v10_apply, val_main_call0_v4_apply, val_main_call0_v2_apply, val_main_call0_v0_apply,
    val_main_v8_apply, val_main_v7_apply, val_main_v6_apply, val_main_v3_apply, val_main_v5_apply, val_main_c_apply,
    val_main_v4_apply, val_main_call0_v3_apply, val_main_call0_v1_apply, val_main_v9_apply, val_main_cst_apply]
  show FloatOps.uitofp (F := Ideal) .f32 (IntOp.cmpi .eq
      (IntOp.addi (BitVec.ofNat 32 ((k.val * 8192 + c.val) / 65536)) 0#32)
      (BitVec.ofNat 32 ((k.val * 8192 + c.val) / 16 % 512))) * Ideal.ofBits .f32 0x3F800000#32 = _
  rw [eye_word _ _ (by omega) (by omega), Ideal.ofBits_one_f32, mul_one, hA, hB]

/-- Layer 2 at (p, c): the inner product of row p of layer 1's output with column c of the masked weights,
    plus the bias. The mask keeps entry (k, c) exactly when k / 8 = c / 16. -/
theorem stage2 (p : Fin 1024) (c : Fin 8192) : val_main_v20 (F := Ideal) x0 x1 x2 x3 x4 x5 (ix2 p c)
    = (∑ k : Fin 4096, val_main_v15 (F := Ideal) x0 x1 x2 x3 (ix2 p k) *
        (x4 (ix2 k c) * (if k.val / 8 = c.val / 16 then (1 : EReal) else 0))) + x5 (ix1 c) := by
  rw [val_main_v20_apply, val_main_v17_apply, val_main_v19_apply, val_main_v18_apply]
  generalize val_main_v15 (F := Ideal) x0 x1 x2 x3 = y
  show (∑ k : Fin 4096, _) + _ = _
  congr 1
  · refine Finset.sum_congr rfl fun k _ => ?_
    have e1 : lidx_main_v17 (ix2 p c) k = ix2 p k :=
      funext fun a => Fin.ext (by match a with | ⟨0, _⟩ => rfl | ⟨1, _⟩ => rfl)
    have e2 : ridx_main_v17 (ix2 p c) k = ix2 k c :=
      funext fun a => Fin.ext (by match a with | ⟨0, _⟩ => rfl | ⟨1, _⟩ => rfl)
    rw [val_main_v16_apply, e1, e2, kron_apply]
    rfl
  · exact congrArg x5 (funext fun a => Fin.ext (by match a with | ⟨0, _⟩ => rfl))

end Cert.ReferenceIdeal.RefValue
end
-- ==== Proof.ValChain.lean ====
/- The value chain: the program's result buffer, followed through the fold of its segments, is the reference's
   function of the arguments as launched. -/
import proofs.«125502_j49297634623952_2_alg».proof.Proof.Keep
import proofs.«125502_j49297634623952_2_alg».proof.Proof.KVal0
import proofs.«125502_j49297634623952_2_alg».proof.Proof.KVal1
import proofs.«125502_j49297634623952_2_alg».proof.Proof.KVal2
import proofs.«125502_j49297634623952_2_alg».proof.Proof.KHost
import proofs.«125502_j49297634623952_2_alg».proof.Proof.RefStages

set_option maxRecDepth 16384

noncomputable section

namespace Cert.KernelIdeal.Hand

open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window BodyObligation cellOf)
open Cert.KernelIdeal Cert.KernelIdeal.Gen
open Cert.ReferenceIdeal.Read (val_main_v15 val_main_v20 val_main_v25 val_main_v29)
open scoped BigOperators

/-! ## Each region's whole-array function against the reference's layer

Given what a region's three input arrays hold entry by entry, in terms of the reference's arguments and the
layer before, the region's output array is the reference's layer. -/

section Layers

variable (x0 : (⟨Cert.ReferenceIdeal.S1024x4096, .f32⟩ : BufTy).Contents (Elt Ideal))
  (x1 : (⟨Cert.ReferenceIdeal.S4096x512, .i32⟩ : BufTy).Contents (Elt Ideal))
  (x2 : (⟨Cert.ReferenceIdeal.S4096x4096, .f32⟩ : BufTy).Contents (Elt Ideal))
  (x3 : (⟨Cert.ReferenceIdeal.S4096, .f32⟩ : BufTy).Contents (Elt Ideal))
  (x4 : (⟨Cert.ReferenceIdeal.S4096x8192, .f32⟩ : BufTy).Contents (Elt Ideal))
  (x5 : (⟨Cert.ReferenceIdeal.S8192, .f32⟩ : BufTy).Contents (Elt Ideal))
  (x6 : (⟨Cert.ReferenceIdeal.S8192x2048, .f32⟩ : BufTy).Contents (Elt Ideal))
  (x7 : (⟨Cert.ReferenceIdeal.S2048, .f32⟩ : BufTy).Contents (Elt Ideal))
  (x8 : (⟨Cert.ReferenceIdeal.S2048x4, .f32⟩ : BufTy).Contents (Elt Ideal))
  (x9 : (⟨Cert.ReferenceIdeal.S4, .f32⟩ : BufTy).Contents (Elt Ideal))

/-- Region 0's function of the input, the masked first weights and the first bias row is the reference's layer 1. -/
theorem G0_layer (X : (⟨S1024x4096, .bf16⟩ : BufTy).Contents (Elt Ideal)) (Wt : (⟨S4096x4096, .bf16⟩ : BufTy).Contents (Elt Ideal))
    (Bv : (⟨S1x4096, .f32⟩ : BufTy).Contents (Elt Ideal))
    (hX : ∀ (p : Fin 1024) (k : Fin 4096), (X (ix2 p k) : EReal) = x0 (ix2 p k))
    (hW : ∀ (k o : Fin 4096), (Wt (ix2 k o) : EReal)
      = @HMul.hMul EReal EReal EReal _ (x2 (ix2 k o)) (FloatOps.sitofp (F := Ideal) .f32 (x1 (ix2 k (⟨o.val / 8, by omega⟩ : Fin 512)))))
    (hB : ∀ (o : Fin 4096), (Bv (ix2 (0 : Fin 1) o) : EReal) = x3 (ix1 o))
    (i : S1024x4096.Idx) : (G0 X Wt Bv i : EReal) = val_main_v15 (F := Ideal) x0 x1 x2 x3 i := by
  obtain ⟨p, o, rfl⟩ : ∃ (p : Fin 1024) (o : Fin 4096), i = ix2 p o := ⟨i 0, i 1, eq_ix2 i⟩
  refine Eq.trans ?_ (Cert.ReferenceIdeal.RefValue.stage1 x0 x1 x2 x3 p o).symm
  show (∑ k : Fin 4096, (X (ix2 p k) : EReal) * (Wt (ix2 k o) : EReal)) + (Bv (ix2 (0 : Fin 1) o) : EReal) = _
  rw [hB o]
  refine congrArg (· + (x3 (ix1 o) : EReal)) (Finset.sum_congr rfl fun k _ => ?_)
  rw [hX p k, hW k o]

/-- Region 1's function of layer 1's output, the second weights and the second bias row is the reference's layer 2. -/
theorem G1_layer (X : (⟨S1024x4096, .bf16⟩ : BufTy).Contents (Elt Ideal)) (Wt : (⟨S4096x8192, .bf16⟩ : BufTy).Contents (Elt Ideal))
    (Bv : (⟨S1x8192, .f32⟩ : BufTy).Contents (Elt Ideal))
    (hX : ∀ (p : Fin 1024) (k : Fin 4096), (X (ix2 p k) : EReal) = val_main_v15 (F := Ideal) x0 x1 x2 x3 (ix2 p k))
    (hW : ∀ (k : Fin 4096) (o : Fin 8192), (Wt (ix2 k o) : EReal) = x4 (ix2 k o))
    (hB : ∀ (o : Fin 8192), (Bv (ix2 (0 : Fin 1) o) : EReal) = x5 (ix1 o))
    (i : S1024x8192.Idx) : (G1 X Wt Bv i : EReal) = val_main_v20 (F := Ideal) x0 x1 x2 x3 x4 x5 i := by
  obtain ⟨p, o, rfl⟩ : ∃ (p : Fin 1024) (o : Fin 8192), i = ix2 p o := ⟨i 0, i 1, eq_ix2 i⟩
  refine Eq.trans ?_ (Cert.ReferenceIdeal.RefValue.stage2 x0 x1 x2 x3 x4 x5 p o).symm
  generalize val_main_v15 (F := Ideal) x0 x1 x2 x3 = y at hX ⊢
  show (∑ k : Fin 4096, (X (ix2 p k) : EReal) * ((Wt (ix2 k o) : EReal) * (if k.val / 8 = o.val / 16 then (1 : EReal) else 0)))
    + (Bv (ix2 (0 : Fin 1) o) : EReal) = _
  rw [hB o]
  refine congrArg (· + (x5 (ix1 o) : EReal)) (Finset.sum_congr rfl fun k _ => ?_)
  rw [hX p k, hW k o]

/-- Region 2's function of layer 2's output, the third weights and the third bias row is the reference's layer 3. -/
theorem G2_layer (X : (⟨S1024x8192, .bf16⟩ : BufTy).Contents (Elt Ideal)) (Wt : (⟨S8192x2048, .bf16⟩ : BufTy).Contents (Elt Ideal))
    (Bv : (⟨S1x2048, .f32⟩ : BufTy).Contents (Elt Ideal))
    (hX : ∀ (p : Fin 1024) (k : Fin 8192), (X (ix2 p k) : EReal) = val_main_v20 (F := Ideal) x0 x1 x2 x3 x4 x5 (ix2 p k))
    (hW : ∀ (k : Fin 8192) (o : Fin 2048), (Wt (ix2 k o) : EReal) = x6 (ix2 k o))
    (hB : ∀ (o : Fin 2048), (Bv (ix2 (0 : Fin 1) o) : EReal) = x7 (ix1 o))
    (i : S1024x2048.Idx) : (G2 X Wt Bv i : EReal) = val_main_v25 (F := Ideal) x0 x1 x2 x3 x4 x5 x6 x7 i := by
  obtain ⟨p, o, rfl⟩ : ∃ (p : Fin 1024) (o : Fin 2048), i = ix2 p o := ⟨i 0, i 1, eq_ix2 i⟩
  refine Eq.trans ?_ (Cert.ReferenceIdeal.RefValue.stage3 x0 x1 x2 x3 x4 x5 x6 x7 p o).symm
  generalize val_main_v20 (F := Ideal) x0 x1 x2 x3 x4 x5 = y at hX ⊢
  show max ((∑ k : Fin 8192, (X (ix2 p k) : EReal) * (Wt (ix2 k o) : EReal)) + (Bv (ix2 (0 : Fin 1) o) : EReal)) 0 = _
  rw [hB o]
  refine congrArg (fun s => max (s + (x7 (ix1 o) : EReal)) 0) (Finset.sum_congr rfl fun k _ => ?_)
  rw [hX p k, hW k o]

end Layers

/-! ## The fold, region by region

With the reference's arguments read off the launch memory, each region's output array at its exit is the
reference's layer; the last stretch of host operations then leaves the reference's result. -/

section Chain

variable (m : (ℓ : Loc nD τ sig) → Buf (Elt Ideal) ℓ) (ρ : Dev nD → PrngReg) (c : Dev nD)

/-- Region 0 leaves the reference's layer 1 in its output array. -/
theorem W2_layer1 (i : S1024x4096.Idx) :
    (W2 (F := Ideal) m ρ c (Proc.devRef .tc main_v11) i : EReal)
      = val_main_v15 (F := Ideal) (m ((c : Thread nD τ).loc main_arg0)) (m ((c : Thread nD τ).loc main_arg1)) (m ((c : Thread nD τ).loc main_arg2)) (m ((c : Thread nD τ).loc main_arg3)) i := by
  have h : W2 (F := Ideal) m ρ c (Proc.devRef .tc main_v11)
      = G0 (XA0 (V1 m ρ) c) (WA0 (V1 m ρ) c) (BA0 (V1 m ρ) c) :=
    (W2_arr m ρ c 3).trans (final0 (V1 m ρ) c)
  refine (congrFun h i).trans (G0_layer (m ((c : Thread nD τ).loc main_arg0)) (m ((c : Thread nD τ).loc main_arg1)) (m ((c : Thread nD τ).loc main_arg2)) (m ((c : Thread nD τ).loc main_arg3)) _ _ _ ?_ ?_ ?_ i)
  · intro p k
    exact HostVal.ops0_v9 (W0 m ρ c) (ix2 p k)
  · intro k o
    exact HostVal.ops0_v6 (W0 m ρ c) k o
  · intro o
    exact HostVal.ops0_v10 (W0 m ρ c) 0 o

/-- Region 1 leaves the reference's layer 2 in its output array. -/
theorem W4_layer2 (i : S1024x8192.Idx) :
    (W4 (F := Ideal) m ρ c (Proc.devRef .tc main_v13) i : EReal)
      = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  have h : W4 (F := Ideal) m ρ c (Proc.devRef .tc main_v13)
      = G1 (XA1 (V3 m ρ) c) (WA1 (V3 m ρ) c) (BA1 (V3 m ρ) c) :=
    (W4_arr m ρ c 3).trans (final1 (V3 m ρ) c)
  refine (congrFun h i).trans (G1_layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ ?_ ?_ ?_ i)
  · intro p k
    exact (congrFun (W3_main_v11 m ρ c) (ix2 p k)).trans (W2_layer1 m ρ c (ix2 p k))
  · intro k o
    exact (congrFun (W3_main_v7 m ρ c) (ix2 k o)).trans (HostVal.ops0_v7 (W0 m ρ c) (ix2 k o))
  · intro o
    exact (HostVal.ops1_v12 (W2 m ρ c) 0 o).trans (congrFun (W2_main_arg5 m ρ c) (ix1 o))

/-- Region 2 leaves the reference's layer 3 in its output array. -/
theorem W6_layer3 (i : S1024x2048.Idx) :
    (W6 (F := Ideal) m ρ c (Proc.devRef .tc main_v15) i : EReal)
      = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  have h : W6 (F := Ideal) m ρ c (Proc.devRef .tc main_v15)
      = G2 (XA2 (V5 m ρ) c) (WA2 (V5 m ρ) c) (BA2 (V5 m ρ) c) :=
    (W6_arr m ρ c 3).trans (final2 (V5 m ρ) c)
  refine (congrFun h i).trans (G2_layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ _ _ ?_ ?_ ?_ i)
  · intro p k
    exact (congrFun (W5_main_v13 m ρ c) (ix2 p k)).trans (W4_layer2 m ρ c (ix2 p k))
  · intro k o
    exact (congrFun (W5_main_v8 m ρ c) (ix2 k o)).trans (HostVal.ops0_v8 (W0 m ρ c) (ix2 k o))
  · intro o
    exact (HostVal.ops2_v14 (W4 m ρ c) 0 o).trans (congrFun (W4_main_arg7 m ρ c) (ix1 o))

/-- THE RESULT. The result buffer after the last stretch of host operations is the reference's value of the
    arguments as launched. -/
theorem W7_result :
    W7 (F := Ideal) m ρ c (Proc.devRef .tc main_v20)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine funext fun i => ?_
  obtain ⟨p, u, rfl⟩ : ∃ (p : Fin 1024) (u : Fin 4), i = ix2 p u := ⟨i 0, i 1, eq_ix2 i⟩
  refine (HostVal.ops3_v20 (W6 m ρ c) p u).trans ?_
  refine Eq.trans ?_ (Cert.ReferenceIdeal.RefValue.stage4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) p u).symm
  have e8 : ∀ k : Fin 2048, (W6 (F := Ideal) m ρ c (Proc.devRef .tc main_arg8) (ix2 k u) : EReal) = (m ((c : Thread nD τ).loc main_arg8)) (ix2 k u) :=
    fun k => congrFun (W6_main_arg8 m ρ c) (ix2 k u)
  have e9 : (W6 (F := Ideal) m ρ c (Proc.devRef .tc main_arg9) (ix1 u) : EReal) = (m ((c : Thread nD τ).loc main_arg9)) (ix1 u) :=
    congrFun (W6_main_arg9 m ρ c) (ix1 u)
  rw [e9]
  refine congrArg (· + ((m ((c : Thread nD τ).loc main_arg9)) (ix1 u) : EReal)) (Finset.sum_congr rfl fun k _ => ?_)
  rw [e8 k, W6_layer3 m ρ c (ix2 p k)]

end Chain

end Cert.KernelIdeal.Hand

end
-- ==== Proof.lean ====
/- The five claims of the certificate.
   The kernel program is three K-blocked matrix products, each into an f32 accumulator carried between grid points,
   among host operations: out = (relu((x·(W1∘m1) + b1)·(W2∘m2) + b2)·W3 + b3))·W4 + b4 with m1 the 0/1 membership table
   repeated 8 times along the columns and m2 the block-diagonal 0/1 mask [r/8 = c/16]. Its run is read segment by segment
   (`run_all`): the final memory holds, on every unscoped buffer, the fold of the host stretches and the regions' write-backs
   from the launch memory. No stretch and no region writes an argument: the three frame claims. At the ideal instance a
   region's output array is the whole dot product plus the bias row — the K accumulation steps add the K block products,
   and a sum over 4096 (or 8192) terms is the sum of its 1024-term blocks, on the extended reals by associativity and
   commutativity alone — which is, stage by stage, the reference's stage; the last host stretch is the reference's last
   product: the algebraic claim. The ideal pass rewrote nothing, so `preserves` is `True`. -/
import proofs.«125502_j49297634623952_2_alg».proof.Defs
import proofs.«125502_j49297634623952_2_alg».proof.Proof.Gen.Kernel
import proofs.«125502_j49297634623952_2_alg».proof.Proof.Gen.KernelIdeal
import proofs.«125502_j49297634623952_2_alg».proof.Proof.Gen.ReferenceIdeal
import proofs.«125502_j49297634623952_2_alg».proof.Proof.Gen.Pre_finite_inputs
import proofs.«125502_j49297634623952_2_alg».proof.Proof.Gen.ReferenceIdeal.Read
import proofs.«125502_j49297634623952_2_alg».proof.Proof.AssembleK
import proofs.«125502_j49297634623952_2_alg».proof.Proof.KeepK
import proofs.«125502_j49297634623952_2_alg».proof.Proof.Assemble
import proofs.«125502_j49297634623952_2_alg».proof.Proof.Keep
import proofs.«125502_j49297634623952_2_alg».proof.Proof.ValChain
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W7_main_arg0 m ρ c),
      (h c _ (Cert.Kernel.Hand.mem_uc Cert.Kernel.main_arg1 (by decide))).trans (Cert.Kernel.Hand.W7_main_arg1 m ρ c),
      (h c _ (Cert.Kernel.Hand.mem_uc Cert.Kernel.main_arg2 (by decide))).trans (Cert.Kernel.Hand.W7_main_arg2 m ρ c),
      (h c _ (Cert.Kernel.Hand.mem_uc Cert.Kernel.main_arg3 (by decide))).trans (Cert.Kernel.Hand.W7_main_arg3 m ρ c),
      (h c _ (Cert.Kernel.Hand.mem_uc Cert.Kernel.main_arg4 (by decide))).trans (Cert.Kernel.Hand.W7_main_arg4 m ρ c),
      (h c _ (Cert.Kernel.Hand.mem_uc Cert.Kernel.main_arg5 (by decide))).trans (Cert.Kernel.Hand.W7_main_arg5 m ρ c),
      (h c _ (Cert.Kernel.Hand.mem_uc Cert.Kernel.main_arg6 (by decide))).trans (Cert.Kernel.Hand.W7_main_arg6 m ρ c),
      (h c _ (Cert.Kernel.Hand.mem_uc Cert.Kernel.main_arg7 (by decide))).trans (Cert.Kernel.Hand.W7_main_arg7 m ρ c),
      (h c _ (Cert.Kernel.Hand.mem_uc Cert.Kernel.main_arg8 (by decide))).trans (Cert.Kernel.Hand.W7_main_arg8 m ρ c),
      (h c _ (Cert.Kernel.Hand.mem_uc Cert.Kernel.main_arg9 (by decide))).trans (Cert.Kernel.Hand.W7_main_arg9 m ρ c)⟩)
    (Cert.Kernel.Hand.run_all m ρ)

/-- So does the idealized program. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c),
      (h c _ (Cert.KernelIdeal.Hand.mem_uc Cert.KernelIdeal.main_arg8 (by decide))).trans (Cert.KernelIdeal.Hand.W7_main_arg8 m ρ c),
      (h c _ (Cert.KernelIdeal.Hand.mem_uc Cert.KernelIdeal.main_arg9 (by decide))).trans (Cert.KernelIdeal.Hand.W7_main_arg9 m ρ c)⟩)
    (Cert.KernelIdeal.Hand.run_all m ρ)

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end with the reference's value of the arguments in their result buffers. -/
theorem algebraic : Cert.algebraic_KernelIdeal_ReferenceIdeal := by
  intro m ρ m' ρ' _ hagree
  refine ⟨fun c => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Hand.mem_uc Cert.KernelIdeal.main_v20 (by decide))).trans (Cert.KernelIdeal.Hand.W7_result m ρ c),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c),
      (h c _ (Cert.KernelIdeal.Hand.mem_uc Cert.KernelIdeal.main_arg8 (by decide))).trans (Cert.KernelIdeal.Hand.W7_main_arg8 m ρ c),
      (h c _ (Cert.KernelIdeal.Hand.mem_uc Cert.KernelIdeal.main_arg9 (by decide))).trans (Cert.KernelIdeal.Hand.W7_main_arg9 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v29_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
